-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v54_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v54_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v161) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x261 : Shape := ⟨2, ![65536, 261]⟩
abbrev S1x261 : Shape := ⟨2, ![1, 261]⟩
abbrev S1 : Shape := ⟨1, ![1]⟩
abbrev S2x133 : Shape := ⟨2, ![2, 133]⟩
abbrev S2 : Shape := ⟨1, ![2]⟩
abbrev S4x69 : Shape := ⟨2, ![4, 69]⟩
abbrev S4 : Shape := ⟨1, ![4]⟩
abbrev S8x8 : Shape := ⟨2, ![8, 8]⟩
abbrev S261x128 : Shape := ⟨2, ![261, 128]⟩
abbrev S128 : Shape := ⟨1, ![128]⟩
abbrev S128x1 : Shape := ⟨2, ![128, 1]⟩
abbrev S_ : Shape := ⟨0, ![]⟩

class Facts : Prop where
  bcast_S_S65536x261 : S_.BroadcastsInDim S65536x261 (![] : Fin 0 → Fin S65536x261.rank)
  reducesTo_S65536x261_S_d0_1 : S65536x261.ReducesTo [0, 1] S_
  h_S_ : 0 < S_.numel
  bcast_S_S1x261 : S_.BroadcastsInDim S1x261 (![] : Fin 0 → Fin S1x261.rank)
  reducesTo_S1x261_S_d0_1 : S1x261.ReducesTo [0, 1] S_
  bcast_S_S1 : S_.BroadcastsInDim S1 (![] : Fin 0 → Fin S1.rank)
  reducesTo_S1_S_d0 : S1.ReducesTo [0] S_
  bcast_S_S2x133 : S_.BroadcastsInDim S2x133 (![] : Fin 0 → Fin S2x133.rank)
  reducesTo_S2x133_S_d0_1 : S2x133.ReducesTo [0, 1] S_
  bcast_S_S2 : S_.BroadcastsInDim S2 (![] : Fin 0 → Fin S2.rank)
  reducesTo_S2_S_d0 : S2.ReducesTo [0] S_
  bcast_S_S4x69 : S_.BroadcastsInDim S4x69 (![] : Fin 0 → Fin S4x69.rank)
  reducesTo_S4x69_S_d0_1 : S4x69.ReducesTo [0, 1] S_
  bcast_S_S4 : S_.BroadcastsInDim S4 (![] : Fin 0 → Fin S4.rank)
  reducesTo_S4_S_d0 : S4.ReducesTo [0] S_
  bcast_S_S8x8 : S_.BroadcastsInDim S8x8 (![] : Fin 0 → Fin S8x8.rank)
  reducesTo_S8x8_S_d0_1 : S8x8.ReducesTo [0, 1] S_
  bcast_S_S261x128 : S_.BroadcastsInDim S261x128 (![] : Fin 0 → Fin S261x128.rank)
  reducesTo_S261x128_S_d0_1 : S261x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_

variable [Facts]

def fn_part3 {F : FTy → Type} [FloatOps F] (main_arg11 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S8x8 .f32) (main_arg8 : FVec F S261x128 .f32) (main_arg9 : FVec F S128 .f32) (main_arg10 : FVec F S128x1 .f32) (main_arg11 : FVec F S1 .f32) (main_v33 : IVec S_ 1) : IVec S_ 1 :=
  let main_v34 : FVec F S8x8 .f32 := Host.absf main_arg7
  let main_cst_12 : FVec F S_ .f32 := constant S_ .f32 0x7F800000#32
  let main_v35 : FVec F S8x8 .f32 := broadcastInDim S8x8 ![] bcast_S_S8x8 main_cst_12
  let main_v36 : IVec S8x8 1 := cmpf .olt main_v34 main_v35
  let main_c_13 : IVec S_ 1 := constantI S_ 1 1#1
  let main_v37 : IVec S_ 1 := (fun x v => Host.reduce IntOp.andi x v reducesTo_S8x8_S_d0_1 h_S_) main_v36 main_c_13
  let main_v38 : IVec S_ 1 := andi main_v33 main_v37
  let main_v39 : FVec F S261x128 .f32 := Host.absf main_arg8
  let main_cst_14 : FVec F S_ .f32 := constant S_ .f32 0x7F800000#32
  let main_v40 : FVec F S261x128 .f32 := broadcastInDim S261x128 ![] bcast_S_S261x128 main_cst_14
  let main_v41 : IVec S261x128 1 := cmpf .olt main_v39 main_v40
  let main_c_15 : IVec S_ 1 := constantI S_ 1 1#1
  let main_v42 : IVec S_ 1 := (fun x v => Host.reduce IntOp.andi x v reducesTo_S261x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg10
  let main_cst_18 : FVec F S_ .f32 := constant S_ .f32 0x7F800000#32
  let main_v50 : FVec F S128x1 .f32 := broadcastInDim S128x1 ![] bcast_S_S128x1 main_cst_18
  fn_part3 (F := F) main_arg11 main_v48 main_v49 main_v50

def fn_part1 {F : FTy → Type} [FloatOps F] (main_arg4 : FVec F S2 .f32) (main_arg5 : FVec F S4x69 .f32) (main_arg6 : FVec F S4 .f32) (main_arg7 : FVec F S8x8 .f32) (main_arg8 : FVec F S261x128 .f32) (main_arg9 : FVec F S128 .f32) (main_arg10 : FVec F S128x1 .f32) (main_arg11 : FVec F S1 .f32) (main_v13 : IVec S_ 1) (main_v16 : IVec S2x133 1) : IVec S_ 1 :=
  let main_c_5 : IVec S_ 1 := constantI S_ 1 1#1
  let main_v17 : IVec S_ 1 := (fun x v => Host.reduce IntOp.andi x v reducesTo_S2x133_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S4x69 .f32 := Host.absf main_arg5
  let main_cst_8 : FVec F S_ .f32 := constant S_ .f32 0x7F800000#32
  let main_v25 : FVec F S4x69 .f32 := broadcastInDim S4x69 ![] bcast_S_S4x69 main_cst_8
  let main_v26 : IVec S4x69 1 := cmpf .olt main_v24 main_v25
  let main_c_9 : IVec S_ 1 := constantI S_ 1 1#1
  let main_v27 : IVec S_ 1 := (fun x v => Host.reduce IntOp.andi x v reducesTo_S4x69_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S65536x261 .f32) (main_arg1 : FVec F S1x261 .f32) (main_arg2 : FVec F S1 .f32) (main_arg3 : FVec F S2x133 .f32) (main_arg4 : FVec F S2 .f32) (main_arg5 : FVec F S4x69 .f32) (main_arg6 : FVec F S4 .f32) (main_arg7 : FVec F S8x8 .f32) (main_arg8 : FVec F S261x128 .f32) (main_arg9 : FVec F S128 .f32) (main_arg10 : FVec F S128x1 .f32) (main_arg11 : FVec F S1 .f32) : IVec S_ 1 :=
  let main_v0 : FVec F S65536x261 .f32 := Host.absf main_arg0
  let main_cst : FVec F S_ .f32 := constant S_ .f32 0x7F800000#32
  let main_v1 : FVec F S65536x261 .f32 := broadcastInDim S65536x261 ![] bcast_S_S65536x261 main_cst
  let main_v2 : IVec S65536x261 1 := cmpf .olt main_v0 main_v1
  let main_c : IVec S_ 1 := constantI S_ 1 1#1
  let main_v3 : IVec S_ 1 := (fun x v => Host.reduce IntOp.andi x v reducesTo_S65536x261_S_d0_1 h_S_) main_v2 main_c
  let main_v4 : FVec F S1x261 .f32 := Host.absf main_arg1
  let main_cst_0 : FVec F S_ .f32 := constant S_ .f32 0x7F800000#32
  let main_v5 : FVec F S1x261 .f32 := broadcastInDim S1x261 ![] bcast_S_S1x261 main_cst_0
  let main_v6 : IVec S1x261 1 := cmpf .olt main_v4 main_v5
  let main_c_1 : IVec S_ 1 := constantI S_ 1 1#1
  let main_v7 : IVec S_ 1 := (fun x v => Host.reduce IntOp.andi x v reducesTo_S1x261_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S2x133 .f32 := Host.absf main_arg3
  let main_cst_4 : FVec F S_ .f32 := constant S_ .f32 0x7F800000#32
  let main_v15 : FVec F S2x133 .f32 := broadcastInDim S2x133 ![] bcast_S_S2x133 main_cst_4
  let main_v16 : IVec S2x133 1 := cmpf .olt main_v14 main_v15
  fn_part1 (F := F) main_arg4 main_arg5 main_arg6 main_arg7 main_arg8 main_arg9 main_arg10 main_arg11 main_v13 main_v16
-- ==== Kernel.lean ====
abbrev S65536x261 : Shape := ⟨2, ![65536, 261]⟩
abbrev S1x261 : Shape := ⟨2, ![1, 261]⟩
abbrev S1 : Shape := ⟨1, ![1]⟩
abbrev S2x133 : Shape := ⟨2, ![2, 133]⟩
abbrev S2 : Shape := ⟨1, ![2]⟩
abbrev S4x69 : Shape := ⟨2, ![4, 69]⟩
abbrev S4 : Shape := ⟨1, ![4]⟩
abbrev S8x8 : Shape := ⟨2, ![8, 8]⟩
abbrev S261x128 : Shape := ⟨2, ![261, 128]⟩
abbrev S128 : Shape := ⟨1, ![128]⟩
abbrev S128x1 : Shape := ⟨2, ![128, 1]⟩
abbrev S0 : Shape := ⟨1, ![0]⟩
abbrev S1x5 : Shape := ⟨2, ![1, 5]⟩
abbrev S5x1 : Shape := ⟨2, ![5, 1]⟩
abbrev S1x256 : Shape := ⟨2, ![1, 256]⟩
abbrev S_ : Shape := ⟨0, ![]⟩
abbrev S256 : Shape := ⟨1, ![256]⟩
abbrev S256x1 : Shape := ⟨2, ![256, 1]⟩
abbrev S261x1 : Shape := ⟨2, ![261, 1]⟩
abbrev S2x5 : Shape := ⟨2, ![2, 5]⟩
abbrev S5x2 : Shape := ⟨2, ![5, 2]⟩
abbrev S2x128 : Shape := ⟨2, ![2, 128]⟩
abbrev S1x128 : Shape := ⟨2, ![1, 128]⟩
abbrev S256x2 : Shape := ⟨2, ![256, 2]⟩
abbrev S261x2 : Shape := ⟨2, ![261, 2]⟩
abbrev S4x5 : Shape := ⟨2, ![4, 5]⟩
abbrev S5x4 : Shape := ⟨2, ![5, 4]⟩
abbrev S4x64 : Shape := ⟨2, ![4, 64]⟩
abbrev S1x64 : Shape := ⟨2, ![1, 64]⟩
abbrev S64 : Shape := ⟨1, ![64]⟩
abbrev S256x4 : Shape := ⟨2, ![256, 4]⟩
abbrev S261x4 : Shape := ⟨2, ![261, 4]⟩
abbrev S65536x8 : Shape := ⟨2, ![65536, 8]⟩
abbrev S65536x1 : Shape := ⟨2, ![65536, 1]⟩
abbrev S2048x261 : Shape := ⟨2, ![2048, 261]⟩
abbrev S2048x8 : Shape := ⟨2, ![2048, 8]⟩
abbrev S2048x1 : Shape := ⟨2, ![2048, 1]⟩
abbrev S2048 : Shape := ⟨1, ![2048]⟩
abbrev S1x1 : Shape := ⟨2, ![1, 1]⟩
abbrev S2048x2 : Shape := ⟨2, ![2048, 2]⟩
abbrev S1x2 : Shape := ⟨2, ![1, 2]⟩
abbrev S2048x4 : Shape := ⟨2, ![2048, 4]⟩
abbrev S1x4 : Shape := ⟨2, ![1, 4]⟩
abbrev S2048x128 : Shape := ⟨2, ![2048, 128]⟩

abbrev nBuf : Space → Nat
  | .hbm => 82
  | .vmem => 17
  | .smem => 0
  | _ => 0

abbrev bufTy : (tb : Table) → Fin (tcTables nBuf tb) → BufTy
  | .hbm, ⟨0, _⟩ => ⟨S65536x261, .f32⟩
  | .hbm, ⟨1, _⟩ => ⟨S1x261, .f32⟩
  | .hbm, ⟨2, _⟩ => ⟨S1, .f32⟩
  | .hbm, ⟨3, _⟩ => ⟨S2x133, .f32⟩
  | .hbm, ⟨4, _⟩ => ⟨S2, .f32⟩
  | .hbm, ⟨5, _⟩ => ⟨S4x69, .f32⟩
  | .hbm, ⟨6, _⟩ => ⟨S4, .f32⟩
  | .hbm, ⟨7, _⟩ => ⟨S8x8, .f32⟩
  | .hbm, ⟨8, _⟩ => ⟨S261x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S0, .i32⟩
  | .hbm, ⟨13, _⟩ => ⟨S1x5, .f32⟩
  | .hbm, ⟨14, _⟩ => ⟨S5x1, .f32⟩
  | .hbm, ⟨15, _⟩ => ⟨S1x256, .f32⟩
  | .hbm, ⟨16, _⟩ => ⟨S_, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S256x1, .f32⟩
  | .hbm, ⟨21, _⟩ => ⟨S261x1, .f32⟩
  | .hbm, ⟨22, _⟩ => ⟨S2x5, .f32⟩
  | .hbm, ⟨23, _⟩ => ⟨S5x2, .f32⟩
  | .hbm, ⟨24, _⟩ => ⟨S2x128, .f32⟩
  | .hbm, ⟨25, _⟩ => ⟨S_, .f32⟩
  | .hbm, ⟨26, _⟩ => ⟨S256, .f32⟩
  | .hbm, ⟨27, _⟩ => ⟨S1x128, .f32⟩
  | .hbm, ⟨28, _⟩ => ⟨S128, .f32⟩
  | .hbm, ⟨29, _⟩ => ⟨S_, .i32⟩
  | .hbm, ⟨30, _⟩ => ⟨S1, .i32⟩
  | .hbm, ⟨31, _⟩ => ⟨S256, .f32⟩
  | .hbm, ⟨32, _⟩ => ⟨S_, .f32⟩
  | .hbm, ⟨33, _⟩ => ⟨S256, .f32⟩
  | .hbm, ⟨34, _⟩ => ⟨S1x128, .f32⟩
  | .hbm, ⟨35, _⟩ => ⟨S128, .f32⟩
  | .hbm, ⟨36, _⟩ => ⟨S_, .i32⟩
  | .hbm, ⟨37, _⟩ => ⟨S1, .i32⟩
  | .hbm, ⟨38, _⟩ => ⟨S256, .f32⟩
  | .hbm, ⟨39, _⟩ => ⟨S256x1, .f32⟩
  | .hbm, ⟨40, _⟩ => ⟨S256x1, .f32⟩
  | .hbm, ⟨41, _⟩ => ⟨S256x2, .f32⟩
  | .hbm, ⟨42, _⟩ => ⟨S261x2, .f32⟩
  | .hbm, ⟨43, _⟩ => ⟨S4x5, .f32⟩
  | .hbm, ⟨44, _⟩ => ⟨S5x4, .f32⟩
  | .hbm, ⟨45, _⟩ => ⟨S4x64, .f32⟩
  | .hbm, ⟨46, _⟩ => ⟨S_, .f32⟩
  | .hbm, ⟨47, _⟩ => ⟨S256, .f32⟩
  | .hbm, ⟨48, _⟩ => ⟨S1x64, .f32⟩
  | .hbm, ⟨49, _⟩ => ⟨S64, .f32⟩
  | .hbm, ⟨50, _⟩ => ⟨S_, .i32⟩
  | .hbm, ⟨51, _⟩ => ⟨S1, .i32⟩
  | .hbm, ⟨52, _⟩ => ⟨S256, .f32⟩
  | .hbm, ⟨53, _⟩ => ⟨S_, .f32⟩
  | .hbm, ⟨54, _⟩ => ⟨S256, .f32⟩
  | .hbm, ⟨55, _⟩ => ⟨S1x64, .f32⟩
  | .hbm, ⟨56, _⟩ => ⟨S64, .f32⟩
  | .hbm, ⟨57, _⟩ => ⟨S_, .i32⟩
  | .hbm, ⟨58, _⟩ => ⟨S1, .i32⟩
  | .hbm, ⟨59, _⟩ => ⟨S256, .f32⟩
  | .hbm, ⟨60, _⟩ => ⟨S_, .f32⟩
  | .hbm, ⟨61, _⟩ => ⟨S256, .f32⟩
  | .hbm, ⟨62, _⟩ => ⟨S1x64, .f32⟩
  | .hbm, ⟨63, _⟩ => ⟨S64, .f32⟩
  | .hbm, ⟨64, _⟩ => ⟨S_, .i32⟩
  | .hbm, ⟨65, _⟩ => ⟨S1, .i32⟩
  | .hbm, ⟨66, _⟩ => ⟨S256, .f32⟩
  | .hbm, ⟨67, _⟩ => ⟨S_, .f32⟩
  | .hbm, ⟨68, _⟩ => ⟨S256, .f32⟩
  | .hbm, ⟨69, _⟩ => ⟨S1x64, .f32⟩
  | .hbm, ⟨70, _⟩ => ⟨S64, .f32⟩
  | .hbm, ⟨71, _⟩ => ⟨S_, .i32⟩
  | .hbm, ⟨72, _⟩ => ⟨S1, .i32⟩
  | .hbm, ⟨73, _⟩ => ⟨S256, .f32⟩
  | .hbm, ⟨74, _⟩ => ⟨S256x1, .f32⟩
  | .hbm, ⟨75, _⟩ => ⟨S256x1, .f32⟩
  | .hbm, ⟨76, _⟩ => ⟨S256x1, .f32⟩
  | .hbm, ⟨77, _⟩ => ⟨S256x1, .f32⟩
  | .hbm, ⟨78, _⟩ => ⟨S256x4, .f32⟩
  | .hbm, ⟨79, _⟩ => ⟨S261x4, .f32⟩
  | .hbm, ⟨80, _⟩ => ⟨S65536x8, .f32⟩
  | .hbm, ⟨81, _⟩ => ⟨S65536x1, .f32⟩
  | .local _ .vmem, ⟨0, _⟩ => ⟨S2048x261, .f32⟩
  | .local _ .vmem, ⟨1, _⟩ => ⟨S2048x261, .f32⟩
  | .local _ .vmem, ⟨2, _⟩ => ⟨S261x1, .f32⟩
  | .local _ .vmem, ⟨3, _⟩ => ⟨S1, .f32⟩
  | .local _ .vmem, ⟨4, _⟩ => ⟨S261x2, .f32⟩
  | .local _ .vmem, ⟨5, _⟩ => ⟨S2, .f32⟩
  | .local _ .vmem, ⟨6, _⟩ => ⟨S261x4, .f32⟩
  | .local _ .vmem, ⟨7, _⟩ => ⟨S4, .f32⟩
  | .local _ .vmem, ⟨8, _⟩ => ⟨S8x8, .f32⟩
  | .local _ .vmem, ⟨9, _⟩ => ⟨S261x128, .f32⟩
  | .local _ .vmem, ⟨10, _⟩ => ⟨S128, .f32⟩
  | .local _ .vmem, ⟨11, _⟩ => ⟨S128x1, .f32⟩
  | .local _ .vmem, ⟨12, _⟩ => ⟨S1, .f32⟩
  | .local _ .vmem, ⟨13, _⟩ => ⟨S2048x8, .f32⟩
  | .local _ .vmem, ⟨14, _⟩ => ⟨S2048x8, .f32⟩
  | .local _ .vmem, ⟨15, _⟩ => ⟨S2048x1, .f32⟩
  | .local _ .vmem, ⟨16, _⟩ => ⟨S2048x1, .f32⟩
  | _, _ => ⟨S65536x261, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_cst_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_11 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54_0 : Ref sig .tc := ⟨.hbm, 80, rfl⟩
abbrev main_v54_1 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x261 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S261x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S261x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S261x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S261x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2048x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  hz_S0 : S0.numel = 0
  slices_S1x261_S1x5_0_0 : S1x261.Slices ![0, 0] S1x5
  transposes_S1x5_S5x1_1_0 : S1x5.Transposes [1, 0] S5x1
  slices_S1x261_S1x256_0_5 : S1x261.Slices ![0, 5] S1x256
  bcast_S_S256 : S_.BroadcastsInDim S256 (![] : Fin 0 → Fin S256.rank)
  shapeCasts_S1x256_S256 : S1x256.ShapeCasts S256
  bcast_S256_S256x1_0 : S256.BroadcastsInDim S256x1 (![0] : Fin 1 → Fin S256x1.rank)
  concatenates_S5x1_S256x1_S261x1_d0 : Shape.Concatenates [S5x1, S256x1] S261x1 0
  slices_S2x133_S2x5_0_0 : S2x133.Slices ![0, 0] S2x5
  transposes_S2x5_S5x2_1_0 : S2x5.Transposes [1, 0] S5x2
  slices_S2x133_S2x128_0_5 : S2x133.Slices ![0, 5] S2x128
  slices_S2x128_S1x128_0_0 : S2x128.Slices ![0, 0] S1x128
  shapeCasts_S1x128_S128 : S1x128.ShapeCasts S128
  bcast_S_S1 : S_.BroadcastsInDim S1 (![] : Fin 0 → Fin S1.rank)
  slices_S2x128_S1x128_1_0 : S2x128.Slices ![1, 0] S1x128
  concatenates_S256x1_S256x1_S256x2_d1 : Shape.Concatenates [S256x1, S256x1] S256x2 1
  concatenates_S5x2_S256x2_S261x2_d0 : Shape.Concatenates [S5x2, S256x2] S261x2 0
  slices_S4x69_S4x5_0_0 : S4x69.Slices ![0, 0] S4x5
  transposes_S4x5_S5x4_1_0 : S4x5.Transposes [1, 0] S5x4
  slices_S4x69_S4x64_0_5 : S4x69.Slices ![0, 5] S4x64
  slices_S4x64_S1x64_0_0 : S4x64.Slices ![0, 0] S1x64
  shapeCasts_S1x64_S64 : S1x64.ShapeCasts S64
  slices_S4x64_S1x64_1_0 : S4x64.Slices ![1, 0] S1x64
  slices_S4x64_S1x64_2_0 : S4x64.Slices ![2, 0] S1x64
  slices_S4x64_S1x64_3_0 : S4x64.Slices ![3, 0] S1x64
  concatenates_S256x1_S256x1_S256x1_S256x1_S256x4_d1 : Shape.Concatenates [S256x1, S256x1, S256x1, S256x1] S256x4 1
  concatenates_S5x4_S256x4_S261x4_d0 : Shape.Concatenates [S5x4, S256x4] S261x4 0
  inb_S2048x261_S2048x261_0_0 : ∀ a, (![0, 0] : Fin 2 → Nat) a + S2048x261.size a ≤ S2048x261.size a
  h_S2048x261 : 0 < S2048x261.numel
  inb_S261x1_S261x1_0_0 : ∀ a, (![0, 0] : Fin 2 → Nat) a + S261x1.size a ≤ S261x1.size a
  h_S261x1 : 0 < S261x1.numel
  shapeCasts_S261x1_S261x1 : S261x1.ShapeCasts S261x1
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  iota_S2048x1_d1_w32 : S2048x1.Iotas .tc 32 [1]
  shapeCasts_S2048_S2048x1 : S2048.ShapeCasts S2048x1
  natLt_1_32 : 1 < 32
  reduces_S2048x1_S2048 : S2048x1.Reduces [1] S2048
  inb_S261x2_S261x2_0_0 : ∀ a, (![0, 0] : Fin 2 → Nat) a + S261x2.size a ≤ S261x2.size a
  h_S261x2 : 0 < S261x2.numel
  shapeCasts_S261x2_S261x2 : S261x2.ShapeCasts S261x2
  inb_S2_S2_0 : ∀ a, (![0] : Fin 1 → Nat) a + S2.size a ≤ S2.size a
  h_S2 : 0 < S2.numel
  shapeCasts_S2_S1x2 : S2.ShapeCasts S1x2
  broadcasts_S1x2_S2048x2 : S1x2.Broadcasts S2048x2
  iota_S2048x2_d1_w32 : S2048x2.Iotas .tc 32 [1]
  broadcasts_S2048x1_S2048x2 : S2048x1.Broadcasts S2048x2
  reduces_S2048x2_S2048 : S2048x2.Reduces [1] S2048
  inb_S261x4_S261x4_0_0 : ∀ a, (![0, 0] : Fin 2 → Nat) a + S261x4.size a ≤ S261x4.size a
  h_S261x4 : 0 < S261x4.numel
  shapeCasts_S261x4_S261x4 : S261x4.ShapeCasts S261x4
  inb_S4_S4_0 : ∀ a, (![0] : Fin 1 → Nat) a + S4.size a ≤ S4.size a
  h_S4 : 0 < S4.numel
  shapeCasts_S4_S1x4 : S4.ShapeCasts S1x4
  broadcasts_S1x4_S2048x4 : S1x4.Broadcasts S2048x4
  iota_S2048x4_d1_w32 : S2048x4.Iotas .tc 32 [1]
  broadcasts_S2048x1_S2048x4 : S2048x1.Broadcasts S2048x4
  reduces_S2048x4_S2048 : S2048x4.Reduces [1] S2048
  inb_S8x8_S8x8_0_0 : ∀ a, (![0, 0] : Fin 2 → Nat) a + S8x8.size a ≤ S8x8.size a
  h_S8x8 : 0 < S8x8.numel
  iota_S2048x8_d1_w32 : S2048x8.Iotas .tc 32 [1]
  broadcasts_S2048x1_S2048x8 : S2048x1.Broadcasts S2048x8
  inb_S2048x8_S2048x8_0_0 : ∀ a, (![0, 0] : Fin 2 → Nat) a + S2048x8.size a ≤ S2048x8.size a
  h_S2048x8 : 0 < S2048x8.numel
  inb_S261x128_S261x128_0_0 : ∀ a, (![0, 0] : Fin 2 → Nat) a + S261x128.size a ≤ S261x128.size a
  h_S261x128 : 0 < S261x128.numel
  inb_S128_S128_0 : ∀ a, (![0] : Fin 1 → Nat) a + S128.size a ≤ S128.size a
  h_S128 : 0 < S128.numel
  inb_S128x1_S128x1_0_0 : ∀ a, (![0, 0] : Fin 2 → Nat) a + S128x1.size a ≤ S128x1.size a
  h_S128x1 : 0 < S128x1.numel
  bitsLt_bf16_f32 : FTy.bits .bf16 < FTy.bits .f32
  shapeCasts_S128_S1x128 : S128.ShapeCasts S1x128
  broadcasts_S1x128_S2048x128 : S1x128.Broadcasts S2048x128
  inb_S2048x1_S2048x1_0_0 : ∀ a, (![0, 0] : Fin 2 → Nat) a + S2048x1.size a ≤ S2048x1.size a
  h_S2048x1 : 0 < S2048x1.numel
  scatter_S256_S0_S256_0_n_n_0_wf : ScatterDims.WF S256 S0 S256 [0] [] [] 0
  scatter_S256_S1_S128_0_n_0_0_wf : ScatterDims.WF S256 S1 S128 [0] [] [0] 0
  scatter_S256_S1_S64_0_n_0_0_wf : ScatterDims.WF S256 S1 S64 [0] [] [0] 0
  dot_S2048x261_S261x1_S2048x1_1_0_0_1_n_n_wf : DotDims.WF S2048x261 S261x1 S2048x1 [1] [0] [0] [1] [] []
  dot_S2048x261_S261x2_S2048x2_1_0_0_1_n_n_wf : DotDims.WF S2048x261 S261x2 S2048x2 [1] [0] [0] [1] [] []
  dot_S2048x261_S261x4_S2048x4_1_0_0_1_n_n_wf : DotDims.WF S2048x261 S261x4 S2048x4 [1] [0] [0] [1] [] []
  dot_S2048x8_S8x8_S2048x8_1_0_0_1_n_n_wf : DotDims.WF S2048x8 S8x8 S2048x8 [1] [0] [0] [1] [] []
  dot_S2048x261_S261x128_S2048x128_1_0_0_1_n_n_wf : DotDims.WF S2048x261 S261x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x261.size a ≤ S65536x261.size a
  hwx0_0 : ∀ i : grid0.Coords, EltTy.bits .f32 = 32 ∨ (Rect.block (s := S65536x261) S2048x261.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S261x1.size a ≤ S261x1.size a
  hwx0_1 : ∀ i : grid0.Coords, EltTy.bits .f32 = 32 ∨ (Rect.block (s := S261x1) S261x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S261x2.size a ≤ S261x2.size a
  hwx0_3 : ∀ i : grid0.Coords, EltTy.bits .f32 = 32 ∨ (Rect.block (s := S261x2) S261x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2.size a ≤ S2.size a
  hwx0_4 : ∀ i : grid0.Coords, EltTy.bits .f32 = 32 ∨ (Rect.block (s := S2) S2.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S261x4.size a ≤ S261x4.size a
  hwx0_5 : ∀ i : grid0.Coords, EltTy.bits .f32 = 32 ∨ (Rect.block (s := S261x4) S261x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4.size a ≤ S4.size a
  hwx0_6 : ∀ i : grid0.Coords, EltTy.bits .f32 = 32 ∨ (Rect.block (s := S4) S4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x8.size a ≤ S8x8.size a
  hwx0_7 : ∀ i : grid0.Coords, EltTy.bits .f32 = 32 ∨ (Rect.block (s := S8x8) S8x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S261x128.size a ≤ S261x128.size a
  hwx0_8 : ∀ i : grid0.Coords, EltTy.bits .f32 = 32 ∨ (Rect.block (s := S261x128) S261x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x1.size a ≤ S128x1.size a
  hwx0_10 : ∀ i : grid0.Coords, EltTy.bits .f32 = 32 ∨ (Rect.block (s := S128x1) S128x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1.size a ≤ S1.size a
  hwx0_11 : ∀ i : grid0.Coords, EltTy.bits .f32 = 32 ∨ (Rect.block (s := S1) S1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x8.size a ≤ S65536x8.size a
  hwx0_12 : ∀ i : grid0.Coords, EltTy.bits .f32 = 32 ∨ (Rect.block (s := S65536x8) S2048x8.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x1.size a ≤ S65536x1.size a
  hwx0_13 : ∀ i : grid0.Coords, EltTy.bits .f32 = 32 ∨ (Rect.block (s := S65536x1) S2048x1.size (cc0_transform_13 i) (hinb0_13 i)).WholeWords (EltTy.packing .f32)

variable [Facts₀]

def scatter_S256_S0_S256_0_n_n_0 : ScatterDims S256 S0 S256 where
  updateWindowDims := [0]
  insertedWindowDims := []
  scatterDimsToOperandDims := []
  indexVectorDim := 0
  wf := scatter_S256_S0_S256_0_n_n_0_wf
def scatter_S256_S1_S128_0_n_0_0 : ScatterDims S256 S1 S128 where
  updateWindowDims := [0]
  insertedWindowDims := []
  scatterDimsToOperandDims := [0]
  indexVectorDim := 0
  wf := scatter_S256_S1_S128_0_n_0_0_wf
def scatter_S256_S1_S64_0_n_0_0 : ScatterDims S256 S1 S64 where
  updateWindowDims := [0]
  insertedWindowDims := []
  scatterDimsToOperandDims := [0]
  indexVectorDim := 0
  wf := scatter_S256_S1_S64_0_n_0_0_wf
def dot_S2048x261_S261x1_S2048x1_1_0_0_1_n_n : DotDims S2048x261 S261x1 S2048x1 where
  lhsContracting := [1]
  rhsContracting := [0]
  lhsNonContracting := [0]
  rhsNonContracting := [1]
  lhsBatch := []
  rhsBatch := []
  wf := dot_S2048x261_S261x1_S2048x1_1_0_0_1_n_n_wf
def dot_S2048x261_S261x2_S2048x2_1_0_0_1_n_n : DotDims S2048x261 S261x2 S2048x2 where
  lhsContracting := [1]
  rhsContracting := [0]
  lhsNonContracting := [0]
  rhsNonContracting := [1]
  lhsBatch := []
  rhsBatch := []
  wf := dot_S2048x261_S261x2_S2048x2_1_0_0_1_n_n_wf
def dot_S2048x261_S261x4_S2048x4_1_0_0_1_n_n : DotDims S2048x261 S261x4 S2048x4 where
  lhsContracting := [1]
  rhsContracting := [0]
  lhsNonContracting := [0]
  rhsNonContracting := [1]
  lhsBatch := []
  rhsBatch := []
  wf := dot_S2048x261_S261x4_S2048x4_1_0_0_1_n_n_wf
def dot_S2048x8_S8x8_S2048x8_1_0_0_1_n_n : DotDims S2048x8 S8x8 S2048x8 where
  lhsContracting := [1]
  rhsContracting := [0]
  lhsNonContracting := [0]
  rhsNonContracting := [1]
  lhsBatch := []
  rhsBatch := []
  wf := dot_S2048x8_S8x8_S2048x8_1_0_0_1_n_n_wf
def dot_S2048x261_S261x128_S2048x128_1_0_0_1_n_n : DotDims S2048x261 S261x128 S2048x128 where
  lhsContracting := [1]
  rhsContracting := [0]
  lhsNonContracting := [0]
  rhsNonContracting := [1]
  lhsBatch := []
  rhsBatch := []
  wf := dot_S2048x261_S261x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg0) S2048x261.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S261x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S261x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v53) S261x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S261x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v54_0) S2048x8.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v54_1) S2048x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S65536x261 : Shape := ⟨2, ![65536, 261]⟩
abbrev S1x261 : Shape := ⟨2, ![1, 261]⟩
abbrev S1 : Shape := ⟨1, ![1]⟩
abbrev S2x133 : Shape := ⟨2, ![2, 133]⟩
abbrev S2 : Shape := ⟨1, ![2]⟩
abbrev S4x69 : Shape := ⟨2, ![4, 69]⟩
abbrev S4 : Shape := ⟨1, ![4]⟩
abbrev S8x8 : Shape := ⟨2, ![8, 8]⟩
abbrev S261x128 : Shape := ⟨2, ![261, 128]⟩
abbrev S128 : Shape := ⟨1, ![128]⟩
abbrev S128x1 : Shape := ⟨2, ![128, 1]⟩
abbrev S65536x5 : Shape := ⟨2, ![65536, 5]⟩
abbrev S65536x256 : Shape := ⟨2, ![65536, 256]⟩
abbrev S65536x64x4 : Shape := ⟨3, ![65536, 64, 4]⟩
abbrev S_ : Shape := ⟨0, ![]⟩
abbrev S65536 : Shape := ⟨1, ![65536]⟩
abbrev S65536x1 : Shape := ⟨2, ![65536, 1]⟩
abbrev S64 : Shape := ⟨1, ![64]⟩
abbrev S1x64 : Shape := ⟨2, ![1, 64]⟩
abbrev S65536x64 : Shape := ⟨2, ![65536, 64]⟩
abbrev S65536x64x1 : Shape := ⟨3, ![65536, 64, 1]⟩
abbrev S1x1x1 : Shape := ⟨3, ![1, 1, 1]⟩
abbrev S32 : Shape := ⟨1, ![32]⟩
abbrev S1x32 : Shape := ⟨2, ![1, 32]⟩
abbrev S65536x32 : Shape := ⟨2, ![65536, 32]⟩
abbrev S65536x32x1 : Shape := ⟨3, ![65536, 32, 1]⟩
abbrev S65536x32x4 : Shape := ⟨3, ![65536, 32, 4]⟩
abbrev S65536x133 : Shape := ⟨2, ![65536, 133]⟩
abbrev S65536x128 : Shape := ⟨2, ![65536, 128]⟩
abbrev S16 : Shape := ⟨1, ![16]⟩
abbrev S1x16 : Shape := ⟨2, ![1, 16]⟩
abbrev S65536x16 : Shape := ⟨2, ![65536, 16]⟩
abbrev S65536x16x1 : Shape := ⟨3, ![65536, 16, 1]⟩
abbrev S65536x16x4 : Shape := ⟨3, ![65536, 16, 4]⟩
abbrev S65536x69 : Shape := ⟨2, ![65536, 69]⟩
abbrev S65536x8 : Shape := ⟨2, ![65536, 8]⟩
abbrev S1x128 : Shape := ⟨2, ![1, 128]⟩
abbrev S1x1 : Shape := ⟨2, ![1, 1]⟩

abbrev nBuf : Space → Nat
  | .hbm => 276
  | .vmem => 0
  | .smem => 0
  | _ => 0

abbrev hbmTy0_0 (i : Nat) : BufTy := match i % 128 with
  | 0 => ⟨S65536x261, .f32⟩
  | 1 => ⟨S1x261, .f32⟩
  | 2 => ⟨S1, .f32⟩
  | 3 => ⟨S2x133, .f32⟩
  | 4 => ⟨S2, .f32⟩
  | 5 => ⟨S4x69, .f32⟩
  | 6 => ⟨S4, .f32⟩
  | 7 => ⟨S8x8, .f32⟩
  | 8 => ⟨S261x128, .f32⟩
  | 9 => ⟨S128, .f32⟩
  | 10 => ⟨S128x1, .f32⟩
  | 11 => ⟨S1, .f32⟩
  | 12 => ⟨S65536x5, .f32⟩
  | 13 => ⟨S65536x256, .f32⟩
  | 14 => ⟨S65536x64x4, .f32⟩
  | 15 => ⟨S_, .i32⟩
  | 16 => ⟨S65536, .i32⟩
  | 17 => ⟨S_, .f32⟩
  | 18 => ⟨S65536, .f32⟩
  | 19 => ⟨S_, .i32⟩
  | 20 => ⟨S65536, .i32⟩
  | 21 => ⟨S65536, .i32⟩
  | 22 => ⟨S65536x1, .i32⟩
  | 23 => ⟨S64, .i32⟩
  | 24 => ⟨S1x64, .i32⟩
  | 25 => ⟨S65536x64, .i32⟩
  | 26 => ⟨S65536x64, .i32⟩
  | 27 => ⟨S65536x64, .i32⟩
  | 28 => ⟨S65536x64x1, .i32⟩
  | 29 => ⟨S_, .i32⟩
  | 30 => ⟨S65536x64x1, .i32⟩
  | 31 => ⟨S65536x64x1, .i1⟩
  | 32 => ⟨S_, .i32⟩
  | 33 => ⟨S65536x64x1, .i32⟩
  | 34 => ⟨S65536x64x1, .i32⟩
  | 35 => ⟨S65536x64x1, .i32⟩
  | 36 => ⟨S1, .i32⟩
  | 37 => ⟨S_, .i32⟩
  | 38 => ⟨S65536x64x1, .i32⟩
  | 39 => ⟨S65536x64x1, .i1⟩
  | 40 => ⟨S1x1x1, .i32⟩
  | 41 => ⟨S65536x64x1, .i32⟩
  | 42 => ⟨S65536x64x1, .i1⟩
  | 43 => ⟨S65536x64x1, .i1⟩
  | 44 => ⟨S_, .i1⟩
  | 45 => ⟨S65536x64, .i1⟩
  | 46 => ⟨S65536x64x4, .f32⟩
  | 47 => ⟨S65536x64x4, .i1⟩
  | 48 => ⟨S_, .f32⟩
  | 49 => ⟨S65536x64x4, .f32⟩
  | 50 => ⟨S65536x64x4, .f32⟩
  | 51 => ⟨S_, .i32⟩
  | 52 => ⟨S65536, .i32⟩
  | 53 => ⟨S65536, .i1⟩
  | 54 => ⟨S_, .i32⟩
  | 55 => ⟨S65536, .i32⟩
  | 56 => ⟨S65536, .i32⟩
  | 57 => ⟨S65536, .i32⟩
  | 58 => ⟨S65536x1, .i32⟩
  | 59 => ⟨S65536x261, .f32⟩
  | 60 => ⟨S65536x5, .f32⟩
  | 61 => ⟨S65536x5, .f32⟩
  | 62 => ⟨S_, .f32⟩
  | 63 => ⟨S65536, .f32⟩
  | 64 => ⟨S65536x256, .f32⟩
  | 65 => ⟨S65536x256, .f32⟩
  | 66 => ⟨S65536x256, .f32⟩
  | 67 => ⟨S_, .f32⟩
  | 68 => ⟨S65536, .f32⟩
  | 69 => ⟨S65536, .f32⟩
  | 70 => ⟨S_, .i32⟩
  | 71 => ⟨S65536, .i32⟩
  | 72 => ⟨S65536, .i1⟩
  | 73 => ⟨S_, .i32⟩
  | 74 => ⟨S65536, .i32⟩
  | 75 => ⟨S65536, .i32⟩
  | 76 => ⟨S65536, .i32⟩
  | 77 => ⟨S65536x1, .i32⟩
  | 78 => ⟨S65536, .f32⟩
  | 79 => ⟨S65536, .f32⟩
  | 80 => ⟨S65536, .f32⟩
  | 81 => ⟨S65536, .f32⟩
  | 82 => ⟨S_, .f32⟩
  | 83 => ⟨S65536, .f32⟩
  | 84 => ⟨S65536, .f32⟩
  | 85 => ⟨S_, .f32⟩
  | 86 => ⟨S65536, .f32⟩
  | 87 => ⟨S65536, .f32⟩
  | 88 => ⟨S65536, .f32⟩
  | 89 => ⟨S_, .i32⟩
  | 90 => ⟨S65536, .i32⟩
  | 91 => ⟨S65536, .i32⟩
  | 92 => ⟨S_, .f32⟩
  | 93 => ⟨S65536, .f32⟩
  | 94 => ⟨S65536, .i1⟩
  | 95 => ⟨S65536, .i32⟩
  | 96 => ⟨S65536, .i32⟩
  | 97 => ⟨S_, .i32⟩
  | 98 => ⟨S65536, .i32⟩
  | 99 => ⟨S65536, .i32⟩
  | 100 => ⟨S65536x1, .i32⟩
  | 101 => ⟨S32, .i32⟩
  | 102 => ⟨S1x32, .i32⟩
  | 103 => ⟨S65536x32, .i32⟩
  | 104 => ⟨S65536x32, .i32⟩
  | 105 => ⟨S65536x32, .i32⟩
  | 106 => ⟨S65536x32x1, .i32⟩
  | 107 => ⟨S_, .i32⟩
  | 108 => ⟨S65536x32x1, .i32⟩
  | 109 => ⟨S65536x32x1, .i1⟩
  | 110 => ⟨S_, .i32⟩
  | 111 => ⟨S65536x32x1, .i32⟩
  | 112 => ⟨S65536x32x1, .i32⟩
  | 113 => ⟨S65536x32x1, .i32⟩
  | 114 => ⟨S1, .i32⟩
  | 115 => ⟨S_, .i32⟩
  | 116 => ⟨S65536x32x1, .i32⟩
  | 117 => ⟨S65536x32x1, .i1⟩
  | 118 => ⟨S1x1x1, .i32⟩
  | 119 => ⟨S65536x32x1, .i32⟩
  | 120 => ⟨S65536x32x1, .i1⟩
  | 121 => ⟨S65536x32x1, .i1⟩
  | 122 => ⟨S_, .i1⟩
  | 123 => ⟨S65536x32, .i1⟩
  | 124 => ⟨S65536x32x4, .f32⟩
  | 125 => ⟨S65536x32x4, .i1⟩
  | 126 => ⟨S_, .f32⟩
  | 127 => ⟨S65536x32x4, .f32⟩
  | _ => ⟨S65536x261, .f32⟩

abbrev hbmTy0_1 (i : Nat) : BufTy := match i % 128 with
  | 0 => ⟨S65536x32x4, .f32⟩
  | 1 => ⟨S_, .i32⟩
  | 2 => ⟨S65536, .i32⟩
  | 3 => ⟨S65536, .i1⟩
  | 4 => ⟨S_, .i32⟩
  | 5 => ⟨S65536, .i32⟩
  | 6 => ⟨S65536, .i32⟩
  | 7 => ⟨S65536, .i32⟩
  | 8 => ⟨S65536x1, .i32⟩
  | 9 => ⟨S65536x133, .f32⟩
  | 10 => ⟨S65536x5, .f32⟩
  | 11 => ⟨S65536x5, .f32⟩
  | 12 => ⟨S_, .f32⟩
  | 13 => ⟨S65536, .f32⟩
  | 14 => ⟨S65536x128, .f32⟩
  | 15 => ⟨S65536x128, .f32⟩
  | 16 => ⟨S65536x128, .f32⟩
  | 17 => ⟨S_, .f32⟩
  | 18 => ⟨S65536, .f32⟩
  | 19 => ⟨S65536, .f32⟩
  | 20 => ⟨S_, .i32⟩
  | 21 => ⟨S65536, .i32⟩
  | 22 => ⟨S65536, .i1⟩
  | 23 => ⟨S_, .i32⟩
  | 24 => ⟨S65536, .i32⟩
  | 25 => ⟨S65536, .i32⟩
  | 26 => ⟨S65536, .i32⟩
  | 27 => ⟨S65536x1, .i32⟩
  | 28 => ⟨S65536, .f32⟩
  | 29 => ⟨S65536, .f32⟩
  | 30 => ⟨S65536, .f32⟩
  | 31 => ⟨S65536, .f32⟩
  | 32 => ⟨S_, .f32⟩
  | 33 => ⟨S65536, .f32⟩
  | 34 => ⟨S65536, .f32⟩
  | 35 => ⟨S_, .f32⟩
  | 36 => ⟨S65536, .f32⟩
  | 37 => ⟨S65536, .f32⟩
  | 38 => ⟨S65536, .f32⟩
  | 39 => ⟨S_, .i32⟩
  | 40 => ⟨S65536, .i32⟩
  | 41 => ⟨S65536, .i32⟩
  | 42 => ⟨S_, .f32⟩
  | 43 => ⟨S65536, .f32⟩
  | 44 => ⟨S65536, .i1⟩
  | 45 => ⟨S65536, .i32⟩
  | 46 => ⟨S65536, .i32⟩
  | 47 => ⟨S_, .i32⟩
  | 48 => ⟨S65536, .i32⟩
  | 49 => ⟨S65536, .i32⟩
  | 50 => ⟨S65536x1, .i32⟩
  | 51 => ⟨S16, .i32⟩
  | 52 => ⟨S1x16, .i32⟩
  | 53 => ⟨S65536x16, .i32⟩
  | 54 => ⟨S65536x16, .i32⟩
  | 55 => ⟨S65536x16, .i32⟩
  | 56 => ⟨S65536x16x1, .i32⟩
  | 57 => ⟨S_, .i32⟩
  | 58 => ⟨S65536x16x1, .i32⟩
  | 59 => ⟨S65536x16x1, .i1⟩
  | 60 => ⟨S_, .i32⟩
  | 61 => ⟨S65536x16x1, .i32⟩
  | 62 => ⟨S65536x16x1, .i32⟩
  | 63 => ⟨S65536x16x1, .i32⟩
  | 64 => ⟨S1, .i32⟩
  | 65 => ⟨S_, .i32⟩
  | 66 => ⟨S65536x16x1, .i32⟩
  | 67 => ⟨S65536x16x1, .i1⟩
  | 68 => ⟨S1x1x1, .i32⟩
  | 69 => ⟨S65536x16x1, .i32⟩
  | 70 => ⟨S65536x16x1, .i1⟩
  | 71 => ⟨S65536x16x1, .i1⟩
  | 72 => ⟨S_, .i1⟩
  | 73 => ⟨S65536x16, .i1⟩
  | 74 => ⟨S65536x16x4, .f32⟩
  | 75 => ⟨S65536x16x4, .i1⟩
  | 76 => ⟨S_, .f32⟩
  | 77 => ⟨S65536x16x4, .f32⟩
  | 78 => ⟨S65536x16x4, .f32⟩
  | 79 => ⟨S_, .i32⟩
  | 80 => ⟨S65536, .i32⟩
  | 81 => ⟨S65536, .i1⟩
  | 82 => ⟨S_, .i32⟩
  | 83 => ⟨S65536, .i32⟩
  | 84 => ⟨S65536, .i32⟩
  | 85 => ⟨S65536, .i32⟩
  | 86 => ⟨S65536x1, .i32⟩
  | 87 => ⟨S65536x69, .f32⟩
  | 88 => ⟨S65536x5, .f32⟩
  | 89 => ⟨S65536x5, .f32⟩
  | 90 => ⟨S_, .f32⟩
  | 91 => ⟨S65536, .f32⟩
  | 92 => ⟨S65536x64, .f32⟩
  | 93 => ⟨S65536x64, .f32⟩
  | 94 => ⟨S65536x64, .f32⟩
  | 95 => ⟨S_, .f32⟩
  | 96 => ⟨S65536, .f32⟩
  | 97 => ⟨S65536, .f32⟩
  | 98 => ⟨S_, .i32⟩
  | 99 => ⟨S65536, .i32⟩
  | 100 => ⟨S65536, .i1⟩
  | 101 => ⟨S_, .i32⟩
  | 102 => ⟨S65536, .i32⟩
  | 103 => ⟨S65536, .i32⟩
  | 104 => ⟨S65536, .i32⟩
  | 105 => ⟨S65536x1, .i32⟩
  | 106 => ⟨S65536, .f32⟩
  | 107 => ⟨S65536, .f32⟩
  | 108 => ⟨S65536, .f32⟩
  | 109 => ⟨S65536, .f32⟩
  | 110 => ⟨S_, .f32⟩
  | 111 => ⟨S65536, .f32⟩
  | 112 => ⟨S65536, .f32⟩
  | 113 => ⟨S_, .f32⟩
  | 114 => ⟨S65536, .f32⟩
  | 115 => ⟨S65536, .f32⟩
  | 116 => ⟨S65536, .f32⟩
  | 117 => ⟨S_, .i32⟩
  | 118 => ⟨S65536, .i32⟩
  | 119 => ⟨S65536, .i32⟩
  | 120 => ⟨S_, .f32⟩
  | 121 => ⟨S65536, .f32⟩
  | 122 => ⟨S65536, .i1⟩
  | 123 => ⟨S65536, .i32⟩
  | 124 => ⟨S65536, .i32⟩
  | 125 => ⟨S65536x1, .f32⟩
  | 126 => ⟨S_, .i32⟩
  | 127 => ⟨S65536, .i32⟩
  | _ => ⟨S65536x261, .f32⟩

abbrev hbmTy0_2 (i : Nat) : BufTy := match i % 128 with
  | 0 => ⟨S65536, .i1⟩
  | 1 => ⟨S_, .i32⟩
  | 2 => ⟨S65536, .i32⟩
  | 3 => ⟨S65536, .i32⟩
  | 4 => ⟨S65536, .i32⟩
  | 5 => ⟨S65536x1, .i32⟩
  | 6 => ⟨S65536x8, .f32⟩
  | 7 => ⟨S65536x8, .f32⟩
  | 8 => ⟨S65536x8, .f32⟩
  | 9 => ⟨S65536x128, .f32⟩
  | 10 => ⟨S1x128, .f32⟩
  | 11 => ⟨S65536x128, .f32⟩
  | 12 => ⟨S65536x128, .f32⟩
  | 13 => ⟨S_, .f32⟩
  | 14 => ⟨S65536x128, .f32⟩
  | 15 => ⟨S65536x128, .f32⟩
  | 16 => ⟨S65536x1, .f32⟩
  | 17 => ⟨S1x1, .f32⟩
  | 18 => ⟨S65536x1, .f32⟩
  | 19 => ⟨S65536x1, .f32⟩
  | _ => ⟨S65536x261, .f32⟩

abbrev hbmTy (i : Nat) : BufTy := match i / 128 with
  | 0 => hbmTy0_0 i
  | 1 => hbmTy0_1 i
  | 2 => hbmTy0_2 i
  | _ => ⟨S65536x261, .f32⟩

abbrev bufTy : (tb : Table) → Fin (tcTables nBuf tb) → BufTy
  | .hbm, ⟨i, _⟩ => hbmTy i
  | _, _ => ⟨S65536x261, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_c_1 : Ref sig .tc := ⟨.hbm, 36, rfl⟩
abbrev main_call0_c_2 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_c_3 : Ref sig .tc := ⟨.hbm, 44, rfl⟩
abbrev main_call0_v11 : Ref sig .tc := ⟨.hbm, 45, rfl⟩
abbrev main_call0_v12 : Ref sig .tc := ⟨.hbm, 46, rfl⟩
abbrev main_call0_v13 : Ref sig .tc := ⟨.hbm, 47, rfl⟩
abbrev main_call0_cst : Ref sig .tc := ⟨.hbm, 48, rfl⟩
abbrev main_call0_v14 : Ref sig .tc := ⟨.hbm, 49, rfl⟩
abbrev main_v14 : Ref sig .tc := ⟨.hbm, 50, rfl⟩
abbrev main_c_1 : Ref sig .tc := ⟨.hbm, 51, rfl⟩
abbrev main_v15 : Ref sig .tc := ⟨.hbm, 52, rfl⟩
abbrev main_v16 : Ref sig .tc := ⟨.hbm, 53, rfl⟩
abbrev main_c_2 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_3 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_cst_4 : Ref sig .tc := ⟨.hbm, 67, rfl⟩
abbrev main_v28 : Ref sig .tc := ⟨.hbm, 68, rfl⟩
abbrev main_v29 : Ref sig .tc := ⟨.hbm, 69, rfl⟩
abbrev main_c_5 : Ref sig .tc := ⟨.hbm, 70, rfl⟩
abbrev main_v30 : Ref sig .tc := ⟨.hbm, 71, rfl⟩
abbrev main_v31 : Ref sig .tc := ⟨.hbm, 72, rfl⟩
abbrev main_c_6 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_cst_7 : Ref sig .tc := ⟨.hbm, 82, rfl⟩
abbrev main_v40 : Ref sig .tc := ⟨.hbm, 83, rfl⟩
abbrev main_v41 : Ref sig .tc := ⟨.hbm, 84, rfl⟩
abbrev main_cst_8 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_c_9 : Ref sig .tc := ⟨.hbm, 89, rfl⟩
abbrev main_v45 : Ref sig .tc := ⟨.hbm, 90, rfl⟩
abbrev main_v46 : Ref sig .tc := ⟨.hbm, 91, rfl⟩
abbrev main_cst_10 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_c_11 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_call1_c : Ref sig .tc := ⟨.hbm, 107, rfl⟩
abbrev main_call1_v0 : Ref sig .tc := ⟨.hbm, 108, rfl⟩
abbrev main_call1_v1 : Ref sig .tc := ⟨.hbm, 109, rfl⟩
abbrev main_call1_c_0 : Ref sig .tc := ⟨.hbm, 110, rfl⟩
abbrev main_call1_v2 : Ref sig .tc := ⟨.hbm, 111, rfl⟩
abbrev main_call1_v3 : Ref sig .tc := ⟨.hbm, 112, rfl⟩
abbrev main_call1_v4 : Ref sig .tc := ⟨.hbm, 113, rfl⟩
abbrev main_call1_c_1 : Ref sig .tc := ⟨.hbm, 114, rfl⟩
abbrev main_call1_c_2 : Ref sig .tc := ⟨.hbm, 115, rfl⟩
abbrev main_call1_v5 : Ref sig .tc := ⟨.hbm, 116, rfl⟩
abbrev main_call1_v6 : Ref sig .tc := ⟨.hbm, 117, rfl⟩
abbrev main_call1_v7 : Ref sig .tc := ⟨.hbm, 118, rfl⟩
abbrev main_call1_v8 : Ref sig .tc := ⟨.hbm, 119, rfl⟩
abbrev main_call1_v9 : Ref sig .tc := ⟨.hbm, 120, rfl⟩
abbrev main_call1_v10 : Ref sig .tc := ⟨.hbm, 121, rfl⟩
abbrev main_call1_c_3 : Ref sig .tc := ⟨.hbm, 122, rfl⟩
abbrev main_call1_v11 : Ref sig .tc := ⟨.hbm, 123, rfl⟩
abbrev main_call1_v12 : Ref sig .tc := ⟨.hbm, 124, rfl⟩
abbrev main_call1_v13 : Ref sig .tc := ⟨.hbm, 125, rfl⟩
abbrev main_call1_cst : Ref sig .tc := ⟨.hbm, 126, rfl⟩
abbrev main_call1_v14 : Ref sig .tc := ⟨.hbm, 127, rfl⟩
abbrev main_v60 : Ref sig .tc := ⟨.hbm, 128, rfl⟩
abbrev main_c_12 : Ref sig .tc := ⟨.hbm, 129, rfl⟩
abbrev main_v61 : Ref sig .tc := ⟨.hbm, 130, rfl⟩
abbrev main_v62 : Ref sig .tc := ⟨.hbm, 131, rfl⟩
abbrev main_c_13 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_cst_14 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_cst_15 : Ref sig .tc := ⟨.hbm, 145, rfl⟩
abbrev main_v74 : Ref sig .tc := ⟨.hbm, 146, rfl⟩
abbrev main_v75 : Ref sig .tc := ⟨.hbm, 147, rfl⟩
abbrev main_c_16 : Ref sig .tc := ⟨.hbm, 148, rfl⟩
abbrev main_v76 : Ref sig .tc := ⟨.hbm, 149, rfl⟩
abbrev main_v77 : Ref sig .tc := ⟨.hbm, 150, rfl⟩
abbrev main_c_17 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_cst_18 : Ref sig .tc := ⟨.hbm, 160, rfl⟩
abbrev main_v86 : Ref sig .tc := ⟨.hbm, 161, rfl⟩
abbrev main_v87 : Ref sig .tc := ⟨.hbm, 162, rfl⟩
abbrev main_cst_19 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_c_20 : Ref sig .tc := ⟨.hbm, 167, rfl⟩
abbrev main_v91 : Ref sig .tc := ⟨.hbm, 168, rfl⟩
abbrev main_v92 : Ref sig .tc := ⟨.hbm, 169, rfl⟩
abbrev main_cst_21 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_c_22 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_call2_c : Ref sig .tc := ⟨.hbm, 185, rfl⟩
abbrev main_call2_v0 : Ref sig .tc := ⟨.hbm, 186, rfl⟩
abbrev main_call2_v1 : Ref sig .tc := ⟨.hbm, 187, rfl⟩
abbrev main_call2_c_0 : Ref sig .tc := ⟨.hbm, 188, rfl⟩
abbrev main_call2_v2 : Ref sig .tc := ⟨.hbm, 189, rfl⟩
abbrev main_call2_v3 : Ref sig .tc := ⟨.hbm, 190, rfl⟩
abbrev main_call2_v4 : Ref sig .tc := ⟨.hbm, 191, rfl⟩
abbrev main_call2_c_1 : Ref sig .tc := ⟨.hbm, 192, rfl⟩
abbrev main_call2_c_2 : Ref sig .tc := ⟨.hbm, 193, rfl⟩
abbrev main_call2_v5 : Ref sig .tc := ⟨.hbm, 194, rfl⟩
abbrev main_call2_v6 : Ref sig .tc := ⟨.hbm, 195, rfl⟩
abbrev main_call2_v7 : Ref sig .tc := ⟨.hbm, 196, rfl⟩
abbrev main_call2_v8 : Ref sig .tc := ⟨.hbm, 197, rfl⟩
abbrev main_call2_v9 : Ref sig .tc := ⟨.hbm, 198, rfl⟩
abbrev main_call2_v10 : Ref sig .tc := ⟨.hbm, 199, rfl⟩
abbrev main_call2_c_3 : Ref sig .tc := ⟨.hbm, 200, rfl⟩
abbrev main_call2_v11 : Ref sig .tc := ⟨.hbm, 201, rfl⟩
abbrev main_call2_v12 : Ref sig .tc := ⟨.hbm, 202, rfl⟩
abbrev main_call2_v13 : Ref sig .tc := ⟨.hbm, 203, rfl⟩
abbrev main_call2_cst : Ref sig .tc := ⟨.hbm, 204, rfl⟩
abbrev main_call2_v14 : Ref sig .tc := ⟨.hbm, 205, rfl⟩
abbrev main_v106 : Ref sig .tc := ⟨.hbm, 206, rfl⟩
abbrev main_c_23 : Ref sig .tc := ⟨.hbm, 207, rfl⟩
abbrev main_v107 : Ref sig .tc := ⟨.hbm, 208, rfl⟩
abbrev main_v108 : Ref sig .tc := ⟨.hbm, 209, rfl⟩
abbrev main_c_24 : Ref sig .tc := ⟨.hbm, 210, rfl⟩
abbrev main_v109 : Ref sig .tc := ⟨.hbm, 211, rfl⟩
abbrev main_v110 : Ref sig .tc := ⟨.hbm, 212, rfl⟩
abbrev main_v111 : Ref sig .tc := ⟨.hbm, 213, rfl⟩
abbrev main_v112 : Ref sig .tc := ⟨.hbm, 214, rfl⟩
abbrev main_v113 : Ref sig .tc := ⟨.hbm, 215, rfl⟩
abbrev main_v114 : Ref sig .tc := ⟨.hbm, 216, rfl⟩
abbrev main_v115 : Ref sig .tc := ⟨.hbm, 217, rfl⟩
abbrev main_cst_25 : Ref sig .tc := ⟨.hbm, 218, rfl⟩
abbrev main_v116 : Ref sig .tc := ⟨.hbm, 219, rfl⟩
abbrev main_v117 : Ref sig .tc := ⟨.hbm, 220, rfl⟩
abbrev main_v118 : Ref sig .tc := ⟨.hbm, 221, rfl⟩
abbrev main_v119 : Ref sig .tc := ⟨.hbm, 222, rfl⟩
abbrev main_cst_26 : Ref sig .tc := ⟨.hbm, 223, rfl⟩
abbrev main_v120 : Ref sig .tc := ⟨.hbm, 224, rfl⟩
abbrev main_v121 : Ref sig .tc := ⟨.hbm, 225, rfl⟩
abbrev main_c_27 : Ref sig .tc := ⟨.hbm, 226, rfl⟩
abbrev main_v122 : Ref sig .tc := ⟨.hbm, 227, rfl⟩
abbrev main_v123 : Ref sig .tc := ⟨.hbm, 228, rfl⟩
abbrev main_c_28 : Ref sig .tc := ⟨.hbm, 229, rfl⟩
abbrev main_v124 : Ref sig .tc := ⟨.hbm, 230, rfl⟩
abbrev main_v125 : Ref sig .tc := ⟨.hbm, 231, rfl⟩
abbrev main_v126 : Ref sig .tc := ⟨.hbm, 232, rfl⟩
abbrev main_v127 : Ref sig .tc := ⟨.hbm, 233, rfl⟩
abbrev main_v128 : Ref sig .tc := ⟨.hbm, 234, rfl⟩
abbrev main_v129 : Ref sig .tc := ⟨.hbm, 235, rfl⟩
abbrev main_v130 : Ref sig .tc := ⟨.hbm, 236, rfl⟩
abbrev main_v131 : Ref sig .tc := ⟨.hbm, 237, rfl⟩
abbrev main_cst_29 : Ref sig .tc := ⟨.hbm, 238, rfl⟩
abbrev main_v132 : Ref sig .tc := ⟨.hbm, 239, rfl⟩
abbrev main_v133 : Ref sig .tc := ⟨.hbm, 240, rfl⟩
abbrev main_cst_30 : Ref sig .tc := ⟨.hbm, 241, rfl⟩
abbrev main_v134 : Ref sig .tc := ⟨.hbm, 242, rfl⟩
abbrev main_v135 : Ref sig .tc := ⟨.hbm, 243, rfl⟩
abbrev main_v136 : Ref sig .tc := ⟨.hbm, 244, rfl⟩
abbrev main_c_31 : Ref sig .tc := ⟨.hbm, 245, rfl⟩
abbrev main_v137 : Ref sig .tc := ⟨.hbm, 246, rfl⟩
abbrev main_v138 : Ref sig .tc := ⟨.hbm, 247, rfl⟩
abbrev main_cst_32 : Ref sig .tc := ⟨.hbm, 248, rfl⟩
abbrev main_v139 : Ref sig .tc := ⟨.hbm, 249, rfl⟩
abbrev main_v140 : Ref sig .tc := ⟨.hbm, 250, rfl⟩
abbrev main_v141 : Ref sig .tc := ⟨.hbm, 251, rfl⟩
abbrev main_v142 : Ref sig .tc := ⟨.hbm, 252, rfl⟩
abbrev main_v143 : Ref sig .tc := ⟨.hbm, 253, rfl⟩
abbrev main_c_33 : Ref sig .tc := ⟨.hbm, 254, rfl⟩
abbrev main_v144 : Ref sig .tc := ⟨.hbm, 255, rfl⟩
abbrev main_v145 : Ref sig .tc := ⟨.hbm, 256, rfl⟩
abbrev main_c_34 : Ref sig .tc := ⟨.hbm, 257, rfl⟩
abbrev main_v146 : Ref sig .tc := ⟨.hbm, 258, rfl⟩
abbrev main_v147 : Ref sig .tc := ⟨.hbm, 259, rfl⟩
abbrev main_v148 : Ref sig .tc := ⟨.hbm, 260, rfl⟩
abbrev main_v149 : Ref sig .tc := ⟨.hbm, 261, rfl⟩
abbrev main_v150 : Ref sig .tc := ⟨.hbm, 262, rfl⟩
abbrev main_v151 : Ref sig .tc := ⟨.hbm, 263, rfl⟩
abbrev main_v152 : Ref sig .tc := ⟨.hbm, 264, rfl⟩
abbrev main_v153 : Ref sig .tc := ⟨.hbm, 265, rfl⟩
abbrev main_v154 : Ref sig .tc := ⟨.hbm, 266, rfl⟩
abbrev main_v155 : Ref sig .tc := ⟨.hbm, 267, rfl⟩
abbrev main_v156 : Ref sig .tc := ⟨.hbm, 268, rfl⟩
abbrev main_call3_cst : Ref sig .tc := ⟨.hbm, 269, rfl⟩
abbrev main_call3_v0 : Ref sig .tc := ⟨.hbm, 270, rfl⟩
abbrev main_v157 : Ref sig .tc := ⟨.hbm, 271, rfl⟩
abbrev main_v158 : Ref sig .tc := ⟨.hbm, 272, rfl⟩
abbrev main_v159 : Ref sig .tc := ⟨.hbm, 273, rfl⟩
abbrev main_v160 : Ref sig .tc := ⟨.hbm, 274, rfl⟩
abbrev main_v161 : Ref sig .tc := ⟨.hbm, 275, rfl⟩

abbrev nD : Nat := 1
abbrev τ : Topo := Topo.v7x

variable {F : FTy → Type} [FloatOps F]

class Facts₀ : Prop where
  slices_S65536x261_S65536x5_0_0 : S65536x261.Slices ![0, 0] S65536x5
  slices_S65536x261_S65536x256_0_5 : S65536x261.Slices ![0, 5] S65536x256
  shapeCasts_S65536x256_S65536x64x4 : S65536x256.ShapeCasts S65536x64x4
  bcast_S_S65536 : S_.BroadcastsInDim S65536 (![] : Fin 0 → Fin S65536.rank)
  bcast_S65536_S65536x1_0 : S65536.BroadcastsInDim S65536x1 (![0] : Fin 1 → Fin S65536x1.rank)
  bcast_S64_S1x64_1 : S64.BroadcastsInDim S1x64 (![1] : Fin 1 → Fin S1x64.rank)
  bcast_S65536x1_S65536x64_0_1 : S65536x1.BroadcastsInDim S65536x64 (![0, 1] : Fin 2 → Fin S65536x64.rank)
  bcast_S1x64_S65536x64_0_1 : S1x64.BroadcastsInDim S65536x64 (![0, 1] : Fin 2 → Fin S65536x64.rank)
  bcast_S65536x64_S65536x64x1_0_1 : S65536x64.BroadcastsInDim S65536x64x1 (![0, 1] : Fin 2 → Fin S65536x64x1.rank)
  bcast_S_S65536x64x1 : S_.BroadcastsInDim S65536x64x1 (![] : Fin 0 → Fin S65536x64x1.rank)
  bcast_S1_S1x1x1_2 : S1.BroadcastsInDim S1x1x1 (![2] : Fin 1 → Fin S1x1x1.rank)
  bcast_S1x1x1_S65536x64x1_0_1_2 : S1x1x1.BroadcastsInDim S65536x64x1 (![0, 1, 2] : Fin 3 → Fin S65536x64x1.rank)
  reducesTo_S65536x64x1_S65536x64_d2 : S65536x64x1.ReducesTo [2] S65536x64
  h_S_ : 0 < S_.numel
  bcast_S65536x64_S65536x64x4_0_1 : S65536x64.BroadcastsInDim S65536x64x4 (![0, 1] : Fin 2 → Fin S65536x64x4.rank)
  bcast_S_S65536x64x4 : S_.BroadcastsInDim S65536x64x4 (![] : Fin 0 → Fin S65536x64x4.rank)
  reducesTo_S65536x5_S65536_d1 : S65536x5.ReducesTo [1] S65536
  shapeCasts_S65536x64x4_S65536x256 : S65536x64x4.ShapeCasts S65536x256
  reducesTo_S65536x256_S65536_d1 : S65536x256.ReducesTo [1] S65536
  natLt_1_32 : 1 < 32
  bcast_S32_S1x32_1 : S32.BroadcastsInDim S1x32 (![1] : Fin 1 → Fin S1x32.rank)
  bcast_S65536x1_S65536x32_0_1 : S65536x1.BroadcastsInDim S65536x32 (![0, 1] : Fin 2 → Fin S65536x32.rank)
  bcast_S1x32_S65536x32_0_1 : S1x32.BroadcastsInDim S65536x32 (![0, 1] : Fin 2 → Fin S65536x32.rank)
  bcast_S65536x32_S65536x32x1_0_1 : S65536x32.BroadcastsInDim S65536x32x1 (![0, 1] : Fin 2 → Fin S65536x32x1.rank)
  bcast_S_S65536x32x1 : S_.BroadcastsInDim S65536x32x1 (![] : Fin 0 → Fin S65536x32x1.rank)
  bcast_S1x1x1_S65536x32x1_0_1_2 : S1x1x1.BroadcastsInDim S65536x32x1 (![0, 1, 2] : Fin 3 → Fin S65536x32x1.rank)
  reducesTo_S65536x32x1_S65536x32_d2 : S65536x32x1.ReducesTo [2] S65536x32
  bcast_S65536x32_S65536x32x4_0_1 : S65536x32.BroadcastsInDim S65536x32x4 (![0, 1] : Fin 2 → Fin S65536x32x4.rank)
  bcast_S_S65536x32x4 : S_.BroadcastsInDim S65536x32x4 (![] : Fin 0 → Fin S65536x32x4.rank)
  slices_S65536x133_S65536x5_0_0 : S65536x133.Slices ![0, 0] S65536x5
  shapeCasts_S65536x32x4_S65536x128 : S65536x32x4.ShapeCasts S65536x128
  slices_S65536x133_S65536x128_0_5 : S65536x133.Slices ![0, 5] S65536x128
  reducesTo_S65536x128_S65536_d1 : S65536x128.ReducesTo [1] S65536
  bcast_S16_S1x16_1 : S16.BroadcastsInDim S1x16 (![1] : Fin 1 → Fin S1x16.rank)
  bcast_S65536x1_S65536x16_0_1 : S65536x1.BroadcastsInDim S65536x16 (![0, 1] : Fin 2 → Fin S65536x16.rank)
  bcast_S1x16_S65536x16_0_1 : S1x16.BroadcastsInDim S65536x16 (![0, 1] : Fin 2 → Fin S65536x16.rank)
  bcast_S65536x16_S65536x16x1_0_1 : S65536x16.BroadcastsInDim S65536x16x1 (![0, 1] : Fin 2 → Fin S65536x16x1.rank)
  bcast_S_S65536x16x1 : S_.BroadcastsInDim S65536x16x1 (![] : Fin 0 → Fin S65536x16x1.rank)
  bcast_S1x1x1_S65536x16x1_0_1_2 : S1x1x1.BroadcastsInDim S65536x16x1 (![0, 1, 2] : Fin 3 → Fin S65536x16x1.rank)
  reducesTo_S65536x16x1_S65536x16_d2 : S65536x16x1.ReducesTo [2] S65536x16
  bcast_S65536x16_S65536x16x4_0_1 : S65536x16.BroadcastsInDim S65536x16x4 (![0, 1] : Fin 2 → Fin S65536x16x4.rank)
  bcast_S_S65536x16x4 : S_.BroadcastsInDim S65536x16x4 (![] : Fin 0 → Fin S65536x16x4.rank)
  slices_S65536x69_S65536x5_0_0 : S65536x69.Slices ![0, 0] S65536x5
  shapeCasts_S65536x16x4_S65536x64 : S65536x16x4.ShapeCasts S65536x64
  slices_S65536x69_S65536x64_0_5 : S65536x69.Slices ![0, 5] S65536x64
  reducesTo_S65536x64_S65536_d1 : S65536x64.ReducesTo [1] S65536
  bcast_S65536x1_S65536x8_0_1 : S65536x1.BroadcastsInDim S65536x8 (![0, 1] : Fin 2 → Fin S65536x8.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  gather_S65536x64x4_S65536x64x1_S65536x64x4_2_1_0_0_1_2_114_wf : GatherDims.WF S65536x64x4 S65536x64x1 S65536x64x4 [2] [1] [0] [1] [0] 2 ![1, 1, 4]
  gather_S1x261_S65536x1_S65536x261_1_0_n_n_0_1_1261_wf : GatherDims.WF S1x261 S65536x1 S65536x261 [1] [0] [] [0] [] 1 ![1, 261]
  gather_S1_S65536x1_S65536_n_0_n_n_0_1_1_wf : GatherDims.WF S1 S65536x1 S65536 [] [0] [] [0] [] 1 ![1]
  gather_S65536x64x4_S65536x32x1_S65536x32x4_2_1_0_0_1_2_114_wf : GatherDims.WF S65536x64x4 S65536x32x1 S65536x32x4 [2] [1] [0] [1] [0] 2 ![1, 1, 4]
  gather_S2x133_S65536x1_S65536x133_1_0_n_n_0_1_1133_wf : GatherDims.WF S2x133 S65536x1 S65536x133 [1] [0] [] [0] [] 1 ![1, 133]
  gather_S2_S65536x1_S65536_n_0_n_n_0_1_1_wf : GatherDims.WF S2 S65536x1 S65536 [] [0] [] [0] [] 1 ![1]
  gather_S65536x64x4_S65536x16x1_S65536x16x4_2_1_0_0_1_2_114_wf : GatherDims.WF S65536x64x4 S65536x16x1 S65536x16x4 [2] [1] [0] [1] [0] 2 ![1, 1, 4]
  gather_S4x69_S65536x1_S65536x69_1_0_n_n_0_1_169_wf : GatherDims.WF S4x69 S65536x1 S65536x69 [1] [0] [] [0] [] 1 ![1, 69]
  gather_S4_S65536x1_S65536_n_0_n_n_0_1_1_wf : GatherDims.WF S4 S65536x1 S65536 [] [0] [] [0] [] 1 ![1]
  gather_S8x8_S65536x1_S65536x8_1_0_n_n_0_1_18_wf : GatherDims.WF S8x8 S65536x1 S65536x8 [1] [0] [] [0] [] 1 ![1, 8]
  dot_S65536x261_S261x128_S65536x128_1_0_0_1_n_n_wf : DotDims.WF S65536x261 S261x128 S65536x128 [1] [0] [0] [1] [] []
  dot_S65536x128_S128x1_S65536x1_1_0_0_1_n_n_wf : DotDims.WF S65536x128 S128x1 S65536x1 [1] [0] [0] [1] [] []

variable [Facts₀]

def gather_S65536x64x4_S65536x64x1_S65536x64x4_2_1_0_0_1_2_114 : GatherDims S65536x64x4 S65536x64x1 S65536x64x4 where
  offsetDims := [2]
  collapsedSliceDims := [1]
  operandBatchingDims := [0]
  startIndicesBatchingDims := [0]
  startIndexMap := [1]
  indexVectorDim := 2
  sliceSizes := ![1, 1, 4]
  wf := gather_S65536x64x4_S65536x64x1_S65536x64x4_2_1_0_0_1_2_114_wf
def gather_S1x261_S65536x1_S65536x261_1_0_n_n_0_1_1261 : GatherDims S1x261 S65536x1 S65536x261 where
  offsetDims := [1]
  collapsedSliceDims := [0]
  operandBatchingDims := []
  startIndicesBatchingDims := []
  startIndexMap := [0]
  indexVectorDim := 1
  sliceSizes := ![1, 261]
  wf := gather_S1x261_S65536x1_S65536x261_1_0_n_n_0_1_1261_wf
def gather_S1_S65536x1_S65536_n_0_n_n_0_1_1 : GatherDims S1 S65536x1 S65536 where
  offsetDims := []
  collapsedSliceDims := [0]
  operandBatchingDims := []
  startIndicesBatchingDims := []
  startIndexMap := [0]
  indexVectorDim := 1
  sliceSizes := ![1]
  wf := gather_S1_S65536x1_S65536_n_0_n_n_0_1_1_wf
def gather_S65536x64x4_S65536x32x1_S65536x32x4_2_1_0_0_1_2_114 : GatherDims S65536x64x4 S65536x32x1 S65536x32x4 where
  offsetDims := [2]
  collapsedSliceDims := [1]
  operandBatchingDims := [0]
  startIndicesBatchingDims := [0]
  startIndexMap := [1]
  indexVectorDim := 2
  sliceSizes := ![1, 1, 4]
  wf := gather_S65536x64x4_S65536x32x1_S65536x32x4_2_1_0_0_1_2_114_wf
def gather_S2x133_S65536x1_S65536x133_1_0_n_n_0_1_1133 : GatherDims S2x133 S65536x1 S65536x133 where
  offsetDims := [1]
  collapsedSliceDims := [0]
  operandBatchingDims := []
  startIndicesBatchingDims := []
  startIndexMap := [0]
  indexVectorDim := 1
  sliceSizes := ![1, 133]
  wf := gather_S2x133_S65536x1_S65536x133_1_0_n_n_0_1_1133_wf
def gather_S2_S65536x1_S65536_n_0_n_n_0_1_1 : GatherDims S2 S65536x1 S65536 where
  offsetDims := []
  collapsedSliceDims := [0]
  operandBatchingDims := []
  startIndicesBatchingDims := []
  startIndexMap := [0]
  indexVectorDim := 1
  sliceSizes := ![1]
  wf := gather_S2_S65536x1_S65536_n_0_n_n_0_1_1_wf
def gather_S65536x64x4_S65536x16x1_S65536x16x4_2_1_0_0_1_2_114 : GatherDims S65536x64x4 S65536x16x1 S65536x16x4 where
  offsetDims := [2]
  collapsedSliceDims := [1]
  operandBatchingDims := [0]
  startIndicesBatchingDims := [0]
  startIndexMap := [1]
  indexVectorDim := 2
  sliceSizes := ![1, 1, 4]
  wf := gather_S65536x64x4_S65536x16x1_S65536x16x4_2_1_0_0_1_2_114_wf
def gather_S4x69_S65536x1_S65536x69_1_0_n_n_0_1_169 : GatherDims S4x69 S65536x1 S65536x69 where
  offsetDims := [1]
  collapsedSliceDims := [0]
  operandBatchingDims := []
  startIndicesBatchingDims := []
  startIndexMap := [0]
  indexVectorDim := 1
  sliceSizes := ![1, 69]
  wf := gather_S4x69_S65536x1_S65536x69_1_0_n_n_0_1_169_wf
def gather_S4_S65536x1_S65536_n_0_n_n_0_1_1 : GatherDims S4 S65536x1 S65536 where
  offsetDims := []
  collapsedSliceDims := [0]
  operandBatchingDims := []
  startIndicesBatchingDims := []
  startIndexMap := [0]
  indexVectorDim := 1
  sliceSizes := ![1]
  wf := gather_S4_S65536x1_S65536_n_0_n_n_0_1_1_wf
def gather_S8x8_S65536x1_S65536x8_1_0_n_n_0_1_18 : GatherDims S8x8 S65536x1 S65536x8 where
  offsetDims := [1]
  collapsedSliceDims := [0]
  operandBatchingDims := []
  startIndicesBatchingDims := []
  startIndexMap := [0]
  indexVectorDim := 1
  sliceSizes := ![1, 8]
  wf := gather_S8x8_S65536x1_S65536x8_1_0_n_n_0_1_18_wf
def dot_S65536x261_S261x128_S65536x128_1_0_0_1_n_n : DotDims S65536x261 S261x128 S65536x128 where
  lhsContracting := [1]
  rhsContracting := [0]
  lhsNonContracting := [0]
  rhsNonContracting := [1]
  lhsBatch := []
  rhsBatch := []
  wf := dot_S65536x261_S261x128_S65536x128_1_0_0_1_n_n_wf
def dot_S65536x128_S128x1_S65536x1_1_0_0_1_n_n : DotDims S65536x128 S128x1 S65536x1 where
  lhsContracting := [1]
  rhsContracting := [0]
  lhsNonContracting := [0]
  rhsNonContracting := [1]
  lhsBatch := []
  rhsBatch := []
  wf := dot_S65536x128_S128x1_S65536x1_1_0_0_1_n_n_wf

class Facts : Prop extends Facts₀ where

variable [Facts]
-- ==== Proof.KEntry.lean ====
/-
  The program up to its one grid launch, and what the launch finds in memory.

  Before the launch the program only prepares the three gate weight matrices: from each packed
  parameter row it takes the five leading entries and the tail, spreads the tail over the rows of a
  zero matrix at the node's offset, and glues the columns together (261 x 1, 261 x 2, 261 x 4).
  Every one of these 68 steps writes a fresh array of its own and never an argument, so when the
  grid starts each of the twelve argument arrays still holds what the initial memory gave it.

  A window's block at grid point t is a restriction of the array the window stages: for x the 2048
  rows 2048*t .. 2048*t+2047, for the eleven small operands the whole array.  An input window's
  staging buffer holds that block at every point, whether or not the block was copied in again
  there: where no copy is made the block index has not moved since the previous point.
-/
import proofs.«146547_j64330020159639_2_alg».proof.Proof.Gen.Kernel.Launch
import proofs.«146547_j64330020159639_2_alg».proof.Proof.Gen.Kernel.Points
import Idealize.ShloMosaic.Lib.Pipeline.FrameBody

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Memory at the launch -/

/-- Core `c`'s buffers when the grid starts: the initial memory run through the 68 preparation steps. -/
abbrev V (c : Dev nD) (b : Ref sig .tc) : Buf (Elt F) ((c : Thread nD τ).loc b) :=
  StableHlo.after hostOps0 (fun b => m (c, b)) b

set_option maxRecDepth 4096 in
set_option maxHeartbeats 4000000 in
/-- None of the preparation steps leaves its result buffer at unspecified contents. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The program is its preparation steps followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxRecDepth 4096 in
set_option maxHeartbeats 4000000 in
/-- No preparation step writes argument 0: the launch finds it as the initial memory had it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxRecDepth 4096 in
set_option maxHeartbeats 4000000 in
/-- No preparation step writes argument 1: the launch finds it as the initial memory had it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxRecDepth 4096 in
set_option maxHeartbeats 4000000 in
/-- No preparation step writes argument 2: the launch finds it as the initial memory had it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxRecDepth 4096 in
set_option maxHeartbeats 4000000 in
/-- No preparation step writes argument 3: the launch finds it as the initial memory had it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxRecDepth 4096 in
set_option maxHeartbeats 4000000 in
/-- No preparation step writes argument 4: the launch finds it as the initial memory had it. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxRecDepth 4096 in
set_option maxHeartbeats 4000000 in
/-- No preparation step writes argument 5: the launch finds it as the initial memory had it. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxRecDepth 4096 in
set_option maxHeartbeats 4000000 in
/-- No preparation step writes argument 6: the launch finds it as the initial memory had it. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxRecDepth 4096 in
set_option maxHeartbeats 4000000 in
/-- No preparation step writes argument 7: the launch finds it as the initial memory had it. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxRecDepth 4096 in
set_option maxHeartbeats 4000000 in
/-- No preparation step writes argument 8: the launch finds it as the initial memory had it. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxRecDepth 4096 in
set_option maxHeartbeats 4000000 in
/-- No preparation step writes argument 9: the launch finds it as the initial memory had it. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxRecDepth 4096 in
set_option maxHeartbeats 4000000 in
/-- No preparation step writes argument 10: the launch finds it as the initial memory had it. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxRecDepth 4096 in
set_option maxHeartbeats 4000000 in
/-- No preparation step writes argument 11: the launch finds it as the initial memory had it. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## The windows' blocks -/

/-- Window `w`'s block at grid point `t`, cut out of the array the window stages as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds the window's block at every grid point, copied in there or kept from
    the point before, for any bookkeeping whose array is the launch's and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds the window's block at every grid point, copied in there or kept from
    the point before, for any bookkeeping whose array is the launch's and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds the window's block at every grid point, copied in there or kept from
    the point before, for any bookkeeping whose array is the launch's and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds the window's block at every grid point, copied in there or kept from
    the point before, for any bookkeeping whose array is the launch's and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds the window's block at every grid point, copied in there or kept from
    the point before, for any bookkeeping whose array is the launch's and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds the window's block at every grid point, copied in there or kept from
    the point before, for any bookkeeping whose array is the launch's and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds the window's block at every grid point, copied in there or kept from
    the point before, for any bookkeeping whose array is the launch's and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds the window's block at every grid point, copied in there or kept from
    the point before, for any bookkeeping whose array is the launch's and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds the window's block at every grid point, copied in there or kept from
    the point before, for any bookkeeping whose array is the launch's and whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds the window's block at every grid point, copied in there or kept from
    the point before, for any bookkeeping whose array is the launch's and whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds the window's block at every grid point, copied in there or kept from
    the point before, for any bookkeeping whose array is the launch's and whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds the window's block at every grid point, copied in there or kept from
    the point before, for any bookkeeping whose array is the launch's and whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## From the launch's conclusion to the argument arrays -/

/-- If a run ends with every staged array at what the bookkeeping computes for it and every other array as the
    launch found it, then every argument array ends as the initial memory had it: a staged argument is an
    input (the launch never writes an input back), an unstaged one bypasses the launch, and neither was touched
    by the preparation steps. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).1 4).trans (((dats 0 c).arrAt_in 4 rfl _).trans ((hA c 4).trans (V_main_arg4 m c))),
      ((h c).2 main_arg5 (Pipeline.mem_restRefs_of main_arg5 (by decide) (by decide))).trans (V_main_arg5 m c),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c)))⟩) h

end Cert.Kernel.Hand

end
-- ==== Proof.KOut.lean ====
/-
  What one grid point leaves in its two output blocks, as functions of the input blocks.

  The body reads each of its twelve input blocks whole, computes, and writes each output block whole,
  exactly once.  So the block of routing weights it leaves is a function of the blocks it read (per row:
  the product of the logistic values of the three gates met on the way down the depth-3 tree, times the
  leaf table's row at the leaf reached), and the block of critic values is a function of the x block and
  the critic's parameters (a rectified hidden layer of 128 units, then one output unit).  Written as "the contents
  one whole-block write leaves", both collapse to the written value itself, since a write through the
  whole block covers every index and a read through the whole block is the block.
-/
import proofs.«146547_j64330020159639_2_alg».proof.Proof.Gen.Kernel.Skeleton
import Idealize.ShloMosaic.Lib.Pipeline.Value

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Whole-block rectangles -/

/-- Offsets written `![0, 0]` are the zero offsets. -/
theorem zero2 : (![0, 0] : Fin 2 → ℕ) = fun _ => 0 := by funext a; fin_cases a <;> rfl
/-- Offsets written `![0]` are the zero offsets. -/
theorem zero1 : (![0] : Fin 1 → ℕ) = fun _ => 0 := by funext a; fin_cases a; rfl

/-- The whole of a 2048x261 block. -/
abbrev whole_S2048x261 : Rect S2048x261 := Rect.unit (s := S2048x261) ![0, 0] S2048x261.size inb_S2048x261_S2048x261_0_0
/-- The whole of a 261x1 block. -/
abbrev whole_S261x1 : Rect S261x1 := Rect.unit (s := S261x1) ![0, 0] S261x1.size inb_S261x1_S261x1_0_0
/-- The whole of a 1 block. -/
abbrev whole_S1 : Rect S1 := Rect.unit (s := S1) ![0] S1.size inb_S1_S1_0
/-- The whole of a 261x2 block. -/
abbrev whole_S261x2 : Rect S261x2 := Rect.unit (s := S261x2) ![0, 0] S261x2.size inb_S261x2_S261x2_0_0
/-- The whole of a 2 block. -/
abbrev whole_S2 : Rect S2 := Rect.unit (s := S2) ![0] S2.size inb_S2_S2_0
/-- The whole of a 261x4 block. -/
abbrev whole_S261x4 : Rect S261x4 := Rect.unit (s := S261x4) ![0, 0] S261x4.size inb_S261x4_S261x4_0_0
/-- The whole of a 4 block. -/
abbrev whole_S4 : Rect S4 := Rect.unit (s := S4) ![0] S4.size inb_S4_S4_0
/-- The whole of a 8x8 block. -/
abbrev whole_S8x8 : Rect S8x8 := Rect.unit (s := S8x8) ![0, 0] S8x8.size inb_S8x8_S8x8_0_0
/-- The whole of a 261x128 block. -/
abbrev whole_S261x128 : Rect S261x128 := Rect.unit (s := S261x128) ![0, 0] S261x128.size inb_S261x128_S261x128_0_0
/-- The whole of a 128 block. -/
abbrev whole_S128 : Rect S128 := Rect.unit (s := S128) ![0] S128.size inb_S128_S128_0
/-- The whole of a 128x1 block. -/
abbrev whole_S128x1 : Rect S128x1 := Rect.unit (s := S128x1) ![0, 0] S128x1.size inb_S128x1_S128x1_0_0
/-- The whole of a 2048x8 block. -/
abbrev whole_S2048x8 : Rect S2048x8 := Rect.unit (s := S2048x8) ![0, 0] S2048x8.size inb_S2048x8_S2048x8_0_0
/-- The whole of a 2048x1 block. -/
abbrev whole_S2048x1 : Rect S2048x1 := Rect.unit (s := S2048x1) ![0, 0] S2048x1.size inb_S2048x1_S2048x1_0_0

/-! ## The two output blocks -/

/-- The routing-weight block a grid point leaves, from the x block, the three gates' weights and biases and the
    leaf table: the one write through the whole block, of the routing value of what was read through whole blocks. -/
def outP (x0 : Vec F S2048x261 .f32) (g0 : Vec F S261x1 .f32) (b0 : Vec F S1 .f32) (g1 : Vec F S261x2 .f32) (b1 : Vec F S2 .f32)
    (g2 : Vec F S261x4 .f32) (b2 : Vec F S4 .f32) (leaf : Vec F S8x8 .f32) : Vec F S2048x8 .f32 :=
  View.canon [⟨whole_S2048x8, k0_pay7 (View.ld x0 whole_S2048x261)
    (k0_pay4 (View.ld x0 whole_S2048x261) (View.ld g0 whole_S261x1) (View.ld b0 whole_S1))
    (k0_pay5 (View.ld x0 whole_S2048x261) (View.ld g0 whole_S261x1) (View.ld b0 whole_S1) (View.ld g1 whole_S261x2) (View.ld b1 whole_S2))
    (k0_pay6 (View.ld x0 whole_S2048x261) (View.ld g0 whole_S261x1) (View.ld b0 whole_S1) (View.ld g1 whole_S261x2) (View.ld b1 whole_S2))
    2#32 (View.ld g2 whole_S261x4) (View.ld b2 whole_S4) (View.ld leaf whole_S8x8)⟩]

/-- The critic-value block a grid point leaves, from the x block and the critic's two layers. -/
def outV (x0 : Vec F S2048x261 .f32) (Wc1 : Vec F S261x128 .f32) (bc1 : Vec F S128 .f32) (Wc2 : Vec F S128x1 .f32) (bc2 : Vec F S1 .f32) :
    Vec F S2048x1 .f32 :=
  View.canon [⟨whole_S2048x1, k0_pay1 (View.ld x0 whole_S2048x261) (View.ld Wc1 whole_S261x128) (View.ld bc1 whole_S128)
    (View.ld Wc2 whole_S128x1) (View.ld bc2 whole_S1)⟩]

/-- The one write covers the routing-weight block. -/
theorem coverP (p0 : whole_S2048x8.shape.Idx → Elt F .f32) (y : S2048x8.Idx) :
    ∃ pc ∈ ([⟨whole_S2048x8, p0⟩] : List (View.Piece (Elt F) S2048x8 .f32)), y ∈ pc.1.set :=
  ⟨_, List.mem_singleton_self _, View.mem_set_unit_zero zero2 inb_S2048x8_S2048x8_0_0 y⟩

/-- The one write covers the critic-value block. -/
theorem coverV (p0 : whole_S2048x1.shape.Idx → Elt F .f32) (y : S2048x1.Idx) :
    ∃ pc ∈ ([⟨whole_S2048x1, p0⟩] : List (View.Piece (Elt F) S2048x1 .f32)), y ∈ pc.1.set :=
  ⟨_, List.mem_singleton_self _, View.mem_set_unit_zero zero2 inb_S2048x1_S2048x1_0_0 y⟩

/-- The routing-weight block is the routing value of the input blocks. -/
theorem outP_eq (x0 : Vec F S2048x261 .f32) (g0 : Vec F S261x1 .f32) (b0 : Vec F S1 .f32) (g1 : Vec F S261x2 .f32) (b1 : Vec F S2 .f32)
    (g2 : Vec F S261x4 .f32) (b2 : Vec F S4 .f32) (leaf : Vec F S8x8 .f32) :
    outP x0 g0 b0 g1 b1 g2 b2 leaf = k0_pay7 x0 (k0_pay4 x0 g0 b0) (k0_pay5 x0 g0 b0 g1 b1) (k0_pay6 x0 g0 b0 g1 b1) 2#32 g2 b2 leaf := by
  unfold outP
  rw [View.canon_unit_zero zero2]
  simp only [View.ld_unit_zero (S := S2048x261) zero2, View.ld_unit_zero (S := S261x1) zero2, View.ld_unit_zero (S := S1) zero1,
    View.ld_unit_zero (S := S261x2) zero2, View.ld_unit_zero (S := S2) zero1, View.ld_unit_zero (S := S261x4) zero2,
    View.ld_unit_zero (S := S4) zero1, View.ld_unit_zero (S := S8x8) zero2]

/-- The critic-value block is the critic's value of the input blocks. -/
theorem outV_eq (x0 : Vec F S2048x261 .f32) (Wc1 : Vec F S261x128 .f32) (bc1 : Vec F S128 .f32) (Wc2 : Vec F S128x1 .f32) (bc2 : Vec F S1 .f32) :
    outV x0 Wc1 bc1 Wc2 bc2 = k0_pay1 x0 Wc1 bc1 Wc2 bc2 := by
  unfold outV
  rw [View.canon_unit_zero zero2]
  simp only [View.ld_unit_zero (S := S2048x261) zero2, View.ld_unit_zero (S := S261x128) zero2, View.ld_unit_zero (S := S128) zero1,
    View.ld_unit_zero (S := S128x1) zero2, View.ld_unit_zero (S := S1) zero1]

end Cert.Kernel.Hand

end
-- ==== Proof.KData.lean ====
/-
  The bookkeeping of the one launch: per core, what each staged array holds when the grid starts, and
  what each window's staging buffer holds after the body at each grid point.

  An input window keeps its block (the body only reads it).  Output window 12 is left at the routing
  weights of the point's x block, gate parameters and leaf table; output window 13 at the critic values of
  the point's x block and critic parameters.  Nothing is carried from one grid point to the next, the
  core owes no semaphore units, and every array is held outright.
-/
import proofs.«146547_j64330020159639_2_alg».proof.Proof.KEntry
import proofs.«146547_j64330020159639_2_alg».proof.Proof.KOut

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's bookkeeping on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outP (iblk m c 0 t) (iblk m c 1 t) (iblk m c 2 t) (iblk m c 3 t) (iblk m c 4 t) (iblk m c 5 t) (iblk m c 6 t) (iblk m c 7 t)
    | ⟨13, _⟩ => outV (iblk m c 0 t) (iblk m c 8 t) (iblk m c 9 t) (iblk m c 10 t) (iblk m c 11 t)
  Φ _ := Pipeline.ΦA spec0 c
  q _ := fullShare
  owed _ := 0

/-- Its arrays are the launch's. -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t =
    outP (iblk m c 0 t) (iblk m c 1 t) (iblk m c 2 t) (iblk m c 3 t) (iblk m c 4 t) (iblk m c 5 t) (iblk m c 6 t) (iblk m c 7 t) := by dsimp only [dats]
theorem after0_13 (c : Dev nD) (t : Fin cfg0.N) : (dats m 0 c).after 13 t =
    outV (iblk m c 0 t) (iblk m c 8 t) (iblk m c 9 t) (iblk m c 10 t) (iblk m c 11 t) := by dsimp only [dats]

/-! What the body finds in each input window's buffer: the window's block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

end Cert.Kernel.Hand

end
-- ==== Proof.KBody.lean ====
/-
  One grid point of the body, as a statement about the fourteen staging buffers it is called with.

  Given the twelve input buffers at known contents and the two output buffers at any contents, the body
  runs to its end without a fault, leaves the inputs as they were, the routing-weight buffer at the
  routing value of the inputs and the critic-value buffer at the critic's value of the inputs.  The body
  reads each output buffer once just before overwriting it; the value read is used by nothing, so the
  buffer's earlier contents do not matter.
-/
import proofs.«146547_j64330020159639_2_alg».proof.Proof.KOut
import proofs.«146547_j64330020159639_2_alg».proof.Proof.Gen.Kernel.Launch
import Idealize.ShloMosaic.Lib.Pipeline.FrameBody
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on whole staging buffers: inputs kept, outputs left at `outP` and `outV` of the inputs. -/
theorem sound_kernel (c : Dev nD) (E : Set ℕ) (i : grid0.Coords) (arg1 : Memref sig .tc .vmem S2048x261 .f32) (harg1 : arg1.IsWhole) (arg2 : Memref sig .tc .vmem S261x1 .f32) (harg2 : arg2.IsWhole) (arg3 : Memref sig .tc .vmem S1 .f32) (harg3 : arg3.IsWhole) (arg4 : Memref sig .tc .vmem S261x2 .f32) (harg4 : arg4.IsWhole) (arg5 : Memref sig .tc .vmem S2 .f32) (harg5 : arg5.IsWhole) (arg6 : Memref sig .tc .vmem S261x4 .f32) (harg6 : arg6.IsWhole) (arg7 : Memref sig .tc .vmem S4 .f32) (harg7 : arg7.IsWhole) (arg8 : Memref sig .tc .vmem S8x8 .f32) (harg8 : arg8.IsWhole) (arg9 : Memref sig .tc .vmem S261x128 .f32) (harg9 : arg9.IsWhole) (arg10 : Memref sig .tc .vmem S128 .f32) (harg10 : arg10.IsWhole) (arg11 : Memref sig .tc .vmem S128x1 .f32) (harg11 : arg11.IsWhole) (arg12 : Memref sig .tc .vmem S1 .f32) (harg12 : arg12.IsWhole) (arg13 : Memref sig .tc .vmem S2048x8 .f32) (harg13 : arg13.IsWhole) (arg14 : Memref sig .tc .vmem S2048x1 .f32) (harg14 : arg14.IsWhole)
    (x0 : Vec F S2048x261 .f32) (g0 : Vec F S261x1 .f32) (b0 : Vec F S1 .f32) (g1 : Vec F S261x2 .f32) (b1 : Vec F S2 .f32) (g2 : Vec F S261x4 .f32) (b2 : Vec F S4 .f32) (leaf : Vec F S8x8 .f32) (Wc1 : Vec F S261x128 .f32) (bc1 : Vec F S128 .f32) (Wc2 : Vec F S128x1 .f32) (bc2 : Vec F S1 .f32) (K : PUnit → sProp 𝕄) :
    iprop(owns (c : Thread nD τ) arg1 fullShare x0 ∗ owns (c : Thread nD τ) arg2 fullShare g0 ∗ owns (c : Thread nD τ) arg3 fullShare b0 ∗ owns (c : Thread nD τ) arg4 fullShare g1 ∗ owns (c : Thread nD τ) arg5 fullShare b1 ∗ owns (c : Thread nD τ) arg6 fullShare g2 ∗ owns (c : Thread nD τ) arg7 fullShare b2 ∗ owns (c : Thread nD τ) arg8 fullShare leaf ∗ owns (c : Thread nD τ) arg9 fullShare Wc1 ∗ owns (c : Thread nD τ) arg10 fullShare bc1 ∗ owns (c : Thread nD τ) arg11 fullShare Wc2 ∗ owns (c : Thread nD τ) arg12 fullShare bc2
        ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare g0 ∗ owns (c : Thread nD τ) arg3 fullShare b0 ∗ owns (c : Thread nD τ) arg4 fullShare g1 ∗ owns (c : Thread nD τ) arg5 fullShare b1 ∗ owns (c : Thread nD τ) arg6 fullShare g2 ∗ owns (c : Thread nD τ) arg7 fullShare b2 ∗ owns (c : Thread nD τ) arg8 fullShare leaf ∗ owns (c : Thread nD τ) arg9 fullShare Wc1 ∗ owns (c : Thread nD τ) arg10 fullShare bc1 ∗ owns (c : Thread nD τ) arg11 fullShare Wc2 ∗ owns (c : Thread nD τ) arg12 fullShare bc2
            ∗ owns (c : Thread nD τ) arg13 fullShare (outP x0 g0 b0 g1 b1 g2 b2 leaf)
            ∗ owns (c : Thread nD τ) arg14 fullShare (outV x0 Wc1 bc1 Wc2 bc2)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf1; subst hf2; subst hf3; subst hf4; subst hf5; subst hf6; subst hf7; subst hf8; subst hf9; subst hf10; subst hf11; subst hf12
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (coverP _)
  iexists _; isplitr
  swap; · iexact H14
  ipureintro
  exact View.read_writes_eq_canon _ _ _ (coverV _)

end Cert.Kernel.Hand

end
-- ==== Proof.KRun.lean ====
/-
  The launch as a whole, and the frame.

  At every grid point the body is called with the current staging buffer of each window.  The input
  buffers hold their windows' blocks, so the statement about one grid point applies with those blocks
  as the known contents; what it leaves in the two output buffers is what the bookkeeping says.  The
  launch rule then runs the whole grid: every fair execution terminates without a fault, every staged
  array ends at what the bookkeeping computes and every other array as the launch found it.  Read at
  the twelve argument arrays this is the frame: they end as they began.
-/
import proofs.«146547_j64330020159639_2_alg».proof.Proof.KData
import proofs.«146547_j64330020159639_2_alg».proof.Proof.KBody

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a grid point -/

/-- What the body is called with at grid point `t`: the launch's invariant, what the core owes, and every
    window's current staging buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 1000000 in
/-- The body at any grid point: each input buffer holds its window's block, so the one-point statement applies;
    the invariant and what the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body's obligation towards the launch rule, at every grid point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with all counters at zero: every fair execution of the program on the TensorCores terminates
    without a fault, with every staged array at what the bookkeeping computes and every other array as the launch
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.Kernel.Hand.run_main' depends on axioms: [propext, Classical.choice, Quot.sound] -/
#guard_msgs in #print axioms run_main

/-- The frame: the program terminates without a fault and its twelve argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- info: 'Cert.Kernel.Hand.frame' depends on axioms: [propext, Classical.choice, Quot.sound] -/
#guard_msgs in #print axioms frame

end Cert.Kernel.Hand

end
-- ==== Proof.KIEntry.lean ====
/-
  The program up to its one grid launch, and what the launch finds in memory.

  Before the launch the program only prepares the three gate weight matrices: from each packed
  parameter row it takes the five leading entries and the tail, spreads the tail over the rows of a
  zero matrix at the node's offset, and glues the columns together (261 x 1, 261 x 2, 261 x 4).
  Every one of these 68 steps writes a fresh array of its own and never an argument, so when the
  grid starts each of the twelve argument arrays still holds what the initial memory gave it.

  A window's block at grid point t is a restriction of the array the window stages: for x the 2048
  rows 2048*t .. 2048*t+2047, for the eleven small operands the whole array.  An input window's
  staging buffer holds that block at every point, whether or not the block was copied in again
  there: where no copy is made the block index has not moved since the previous point.
-/
import proofs.«146547_j64330020159639_2_alg».proof.Proof.Gen.KernelIdeal.Launch
import proofs.«146547_j64330020159639_2_alg».proof.Proof.Gen.KernelIdeal.Points
import Idealize.ShloMosaic.Lib.Pipeline.FrameBody

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Memory at the launch -/

/-- Core `c`'s buffers when the grid starts: the initial memory run through the 68 preparation steps. -/
abbrev V (c : Dev nD) (b : Ref sig .tc) : Buf (Elt F) ((c : Thread nD τ).loc b) :=
  StableHlo.after hostOps0 (fun b => m (c, b)) b

set_option maxRecDepth 4096 in
set_option maxHeartbeats 4000000 in
/-- None of the preparation steps leaves its result buffer at unspecified contents. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The program is its preparation steps followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxRecDepth 4096 in
set_option maxHeartbeats 4000000 in
/-- No preparation step writes argument 0: the launch finds it as the initial memory had it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxRecDepth 4096 in
set_option maxHeartbeats 4000000 in
/-- No preparation step writes argument 1: the launch finds it as the initial memory had it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxRecDepth 4096 in
set_option maxHeartbeats 4000000 in
/-- No preparation step writes argument 2: the launch finds it as the initial memory had it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxRecDepth 4096 in
set_option maxHeartbeats 4000000 in
/-- No preparation step writes argument 3: the launch finds it as the initial memory had it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxRecDepth 4096 in
set_option maxHeartbeats 4000000 in
/-- No preparation step writes argument 4: the launch finds it as the initial memory had it. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxRecDepth 4096 in
set_option maxHeartbeats 4000000 in
/-- No preparation step writes argument 5: the launch finds it as the initial memory had it. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxRecDepth 4096 in
set_option maxHeartbeats 4000000 in
/-- No preparation step writes argument 6: the launch finds it as the initial memory had it. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxRecDepth 4096 in
set_option maxHeartbeats 4000000 in
/-- No preparation step writes argument 7: the launch finds it as the initial memory had it. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxRecDepth 4096 in
set_option maxHeartbeats 4000000 in
/-- No preparation step writes argument 8: the launch finds it as the initial memory had it. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxRecDepth 4096 in
set_option maxHeartbeats 4000000 in
/-- No preparation step writes argument 9: the launch finds it as the initial memory had it. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxRecDepth 4096 in
set_option maxHeartbeats 4000000 in
/-- No preparation step writes argument 10: the launch finds it as the initial memory had it. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
set_option maxRecDepth 4096 in
set_option maxHeartbeats 4000000 in
/-- No preparation step writes argument 11: the launch finds it as the initial memory had it. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## The windows' blocks -/

/-- Window `w`'s block at grid point `t`, cut out of the array the window stages as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds the window's block at every grid point, copied in there or kept from
    the point before, for any bookkeeping whose array is the launch's and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds the window's block at every grid point, copied in there or kept from
    the point before, for any bookkeeping whose array is the launch's and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds the window's block at every grid point, copied in there or kept from
    the point before, for any bookkeeping whose array is the launch's and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds the window's block at every grid point, copied in there or kept from
    the point before, for any bookkeeping whose array is the launch's and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds the window's block at every grid point, copied in there or kept from
    the point before, for any bookkeeping whose array is the launch's and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds the window's block at every grid point, copied in there or kept from
    the point before, for any bookkeeping whose array is the launch's and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds the window's block at every grid point, copied in there or kept from
    the point before, for any bookkeeping whose array is the launch's and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds the window's block at every grid point, copied in there or kept from
    the point before, for any bookkeeping whose array is the launch's and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds the window's block at every grid point, copied in there or kept from
    the point before, for any bookkeeping whose array is the launch's and whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds the window's block at every grid point, copied in there or kept from
    the point before, for any bookkeeping whose array is the launch's and whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds the window's block at every grid point, copied in there or kept from
    the point before, for any bookkeeping whose array is the launch's and whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds the window's block at every grid point, copied in there or kept from
    the point before, for any bookkeeping whose array is the launch's and whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## From the launch's conclusion to the argument arrays -/

/-- If a run ends with every staged array at what the bookkeeping computes for it and every other array as the
    launch found it, then every argument array ends as the initial memory had it: a staged argument is an
    input (the launch never writes an input back), an unstaged one bypasses the launch, and neither was touched
    by the preparation steps. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).1 4).trans (((dats 0 c).arrAt_in 4 rfl _).trans ((hA c 4).trans (V_main_arg4 m c))),
      ((h c).2 main_arg5 (Pipeline.mem_restRefs_of main_arg5 (by decide) (by decide))).trans (V_main_arg5 m c),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c)))⟩) h

end Cert.KernelIdeal.Hand

end
-- ==== Proof.KIOut.lean ====
/-
  What one grid point leaves in its two output blocks, as functions of the input blocks.

  The body reads each of its twelve input blocks whole, computes, and writes each output block whole,
  exactly once.  So the block of routing weights it leaves is a function of the blocks it read (per row:
  the product of the logistic values of the three gates met on the way down the depth-3 tree, times the
  leaf table's row at the leaf reached), and the block of critic values is a function of the x block and
  the critic's parameters (a rectified hidden layer of 128 units, then one output unit).  Written as "the contents
  one whole-block write leaves", both collapse to the written value itself, since a write through the
  whole block covers every index and a read through the whole block is the block.
-/
import proofs.«146547_j64330020159639_2_alg».proof.Proof.Gen.KernelIdeal.Skeleton
import Idealize.ShloMosaic.Lib.Pipeline.Value

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Whole-block rectangles -/

/-- Offsets written `![0, 0]` are the zero offsets. -/
theorem zero2 : (![0, 0] : Fin 2 → ℕ) = fun _ => 0 := by funext a; fin_cases a <;> rfl
/-- Offsets written `![0]` are the zero offsets. -/
theorem zero1 : (![0] : Fin 1 → ℕ) = fun _ => 0 := by funext a; fin_cases a; rfl

/-- The whole of a 2048x261 block. -/
abbrev whole_S2048x261 : Rect S2048x261 := Rect.unit (s := S2048x261) ![0, 0] S2048x261.size inb_S2048x261_S2048x261_0_0
/-- The whole of a 261x1 block. -/
abbrev whole_S261x1 : Rect S261x1 := Rect.unit (s := S261x1) ![0, 0] S261x1.size inb_S261x1_S261x1_0_0
/-- The whole of a 1 block. -/
abbrev whole_S1 : Rect S1 := Rect.unit (s := S1) ![0] S1.size inb_S1_S1_0
/-- The whole of a 261x2 block. -/
abbrev whole_S261x2 : Rect S261x2 := Rect.unit (s := S261x2) ![0, 0] S261x2.size inb_S261x2_S261x2_0_0
/-- The whole of a 2 block. -/
abbrev whole_S2 : Rect S2 := Rect.unit (s := S2) ![0] S2.size inb_S2_S2_0
/-- The whole of a 261x4 block. -/
abbrev whole_S261x4 : Rect S261x4 := Rect.unit (s := S261x4) ![0, 0] S261x4.size inb_S261x4_S261x4_0_0
/-- The whole of a 4 block. -/
abbrev whole_S4 : Rect S4 := Rect.unit (s := S4) ![0] S4.size inb_S4_S4_0
/-- The whole of a 8x8 block. -/
abbrev whole_S8x8 : Rect S8x8 := Rect.unit (s := S8x8) ![0, 0] S8x8.size inb_S8x8_S8x8_0_0
/-- The whole of a 261x128 block. -/
abbrev whole_S261x128 : Rect S261x128 := Rect.unit (s := S261x128) ![0, 0] S261x128.size inb_S261x128_S261x128_0_0
/-- The whole of a 128 block. -/
abbrev whole_S128 : Rect S128 := Rect.unit (s := S128) ![0] S128.size inb_S128_S128_0
/-- The whole of a 128x1 block. -/
abbrev whole_S128x1 : Rect S128x1 := Rect.unit (s := S128x1) ![0, 0] S128x1.size inb_S128x1_S128x1_0_0
/-- The whole of a 2048x8 block. -/
abbrev whole_S2048x8 : Rect S2048x8 := Rect.unit (s := S2048x8) ![0, 0] S2048x8.size inb_S2048x8_S2048x8_0_0
/-- The whole of a 2048x1 block. -/
abbrev whole_S2048x1 : Rect S2048x1 := Rect.unit (s := S2048x1) ![0, 0] S2048x1.size inb_S2048x1_S2048x1_0_0

/-! ## The two output blocks -/

/-- The routing-weight block a grid point leaves, from the x block, the three gates' weights and biases and the
    leaf table: the one write through the whole block, of the routing value of what was read through whole blocks. -/
def outP (x0 : Vec F S2048x261 .f32) (g0 : Vec F S261x1 .f32) (b0 : Vec F S1 .f32) (g1 : Vec F S261x2 .f32) (b1 : Vec F S2 .f32)
    (g2 : Vec F S261x4 .f32) (b2 : Vec F S4 .f32) (leaf : Vec F S8x8 .f32) : Vec F S2048x8 .f32 :=
  View.canon [⟨whole_S2048x8, k0_pay7 (View.ld x0 whole_S2048x261)
    (k0_pay4 (View.ld x0 whole_S2048x261) (View.ld g0 whole_S261x1) (View.ld b0 whole_S1))
    (k0_pay5 (View.ld x0 whole_S2048x261) (View.ld g0 whole_S261x1) (View.ld b0 whole_S1) (View.ld g1 whole_S261x2) (View.ld b1 whole_S2))
    (k0_pay6 (View.ld x0 whole_S2048x261) (View.ld g0 whole_S261x1) (View.ld b0 whole_S1) (View.ld g1 whole_S261x2) (View.ld b1 whole_S2))
    2#32 (View.ld g2 whole_S261x4) (View.ld b2 whole_S4) (View.ld leaf whole_S8x8)⟩]

/-- The critic-value block a grid point leaves, from the x block and the critic's two layers. -/
def outV (x0 : Vec F S2048x261 .f32) (Wc1 : Vec F S261x128 .f32) (bc1 : Vec F S128 .f32) (Wc2 : Vec F S128x1 .f32) (bc2 : Vec F S1 .f32) :
    Vec F S2048x1 .f32 :=
  View.canon [⟨whole_S2048x1, k0_pay1 (View.ld x0 whole_S2048x261) (View.ld Wc1 whole_S261x128) (View.ld bc1 whole_S128)
    (View.ld Wc2 whole_S128x1) (View.ld bc2 whole_S1)⟩]

/-- The one write covers the routing-weight block. -/
theorem coverP (p0 : whole_S2048x8.shape.Idx → Elt F .f32) (y : S2048x8.Idx) :
    ∃ pc ∈ ([⟨whole_S2048x8, p0⟩] : List (View.Piece (Elt F) S2048x8 .f32)), y ∈ pc.1.set :=
  ⟨_, List.mem_singleton_self _, View.mem_set_unit_zero zero2 inb_S2048x8_S2048x8_0_0 y⟩

/-- The one write covers the critic-value block. -/
theorem coverV (p0 : whole_S2048x1.shape.Idx → Elt F .f32) (y : S2048x1.Idx) :
    ∃ pc ∈ ([⟨whole_S2048x1, p0⟩] : List (View.Piece (Elt F) S2048x1 .f32)), y ∈ pc.1.set :=
  ⟨_, List.mem_singleton_self _, View.mem_set_unit_zero zero2 inb_S2048x1_S2048x1_0_0 y⟩

/-- The routing-weight block is the routing value of the input blocks. -/
theorem outP_eq (x0 : Vec F S2048x261 .f32) (g0 : Vec F S261x1 .f32) (b0 : Vec F S1 .f32) (g1 : Vec F S261x2 .f32) (b1 : Vec F S2 .f32)
    (g2 : Vec F S261x4 .f32) (b2 : Vec F S4 .f32) (leaf : Vec F S8x8 .f32) :
    outP x0 g0 b0 g1 b1 g2 b2 leaf = k0_pay7 x0 (k0_pay4 x0 g0 b0) (k0_pay5 x0 g0 b0 g1 b1) (k0_pay6 x0 g0 b0 g1 b1) 2#32 g2 b2 leaf := by
  unfold outP
  rw [View.canon_unit_zero zero2]
  simp only [View.ld_unit_zero (S := S2048x261) zero2, View.ld_unit_zero (S := S261x1) zero2, View.ld_unit_zero (S := S1) zero1,
    View.ld_unit_zero (S := S261x2) zero2, View.ld_unit_zero (S := S2) zero1, View.ld_unit_zero (S := S261x4) zero2,
    View.ld_unit_zero (S := S4) zero1, View.ld_unit_zero (S := S8x8) zero2]

/-- The critic-value block is the critic's value of the input blocks. -/
theorem outV_eq (x0 : Vec F S2048x261 .f32) (Wc1 : Vec F S261x128 .f32) (bc1 : Vec F S128 .f32) (Wc2 : Vec F S128x1 .f32) (bc2 : Vec F S1 .f32) :
    outV x0 Wc1 bc1 Wc2 bc2 = k0_pay1 x0 Wc1 bc1 Wc2 bc2 := by
  unfold outV
  rw [View.canon_unit_zero zero2]
  simp only [View.ld_unit_zero (S := S2048x261) zero2, View.ld_unit_zero (S := S261x128) zero2, View.ld_unit_zero (S := S128) zero1,
    View.ld_unit_zero (S := S128x1) zero2, View.ld_unit_zero (S := S1) zero1]

end Cert.KernelIdeal.Hand

end
-- ==== Proof.KIData.lean ====
/-
  The bookkeeping of the one launch: per core, what each staged array holds when the grid starts, and
  what each window's staging buffer holds after the body at each grid point.

  An input window keeps its block (the body only reads it).  Output window 12 is left at the routing
  weights of the point's x block, gate parameters and leaf table; output window 13 at the critic values of
  the point's x block and critic parameters.  Nothing is carried from one grid point to the next, the
  core owes no semaphore units, and every array is held outright.
-/
import proofs.«146547_j64330020159639_2_alg».proof.Proof.KIEntry
import proofs.«146547_j64330020159639_2_alg».proof.Proof.KIOut

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's bookkeeping on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outP (iblk m c 0 t) (iblk m c 1 t) (iblk m c 2 t) (iblk m c 3 t) (iblk m c 4 t) (iblk m c 5 t) (iblk m c 6 t) (iblk m c 7 t)
    | ⟨13, _⟩ => outV (iblk m c 0 t) (iblk m c 8 t) (iblk m c 9 t) (iblk m c 10 t) (iblk m c 11 t)
  Φ _ := Pipeline.ΦA spec0 c
  q _ := fullShare
  owed _ := 0

/-- Its arrays are the launch's. -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t =
    outP (iblk m c 0 t) (iblk m c 1 t) (iblk m c 2 t) (iblk m c 3 t) (iblk m c 4 t) (iblk m c 5 t) (iblk m c 6 t) (iblk m c 7 t) := by dsimp only [dats]
theorem after0_13 (c : Dev nD) (t : Fin cfg0.N) : (dats m 0 c).after 13 t =
    outV (iblk m c 0 t) (iblk m c 8 t) (iblk m c 9 t) (iblk m c 10 t) (iblk m c 11 t) := by dsimp only [dats]

/-! What the body finds in each input window's buffer: the window's block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

end Cert.KernelIdeal.Hand

end
-- ==== Proof.KIBody.lean ====
/-
  One grid point of the body, as a statement about the fourteen staging buffers it is called with.

  Given the twelve input buffers at known contents and the two output buffers at any contents, the body
  runs to its end without a fault, leaves the inputs as they were, the routing-weight buffer at the
  routing value of the inputs and the critic-value buffer at the critic's value of the inputs.  The body
  reads each output buffer once just before overwriting it; the value read is used by nothing, so the
  buffer's earlier contents do not matter.
-/
import proofs.«146547_j64330020159639_2_alg».proof.Proof.KIOut
import proofs.«146547_j64330020159639_2_alg».proof.Proof.Gen.KernelIdeal.Launch
import Idealize.ShloMosaic.Lib.Pipeline.FrameBody
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on whole staging buffers: inputs kept, outputs left at `outP` and `outV` of the inputs. -/
theorem sound_kernel (c : Dev nD) (E : Set ℕ) (i : grid0.Coords) (arg1 : Memref sig .tc .vmem S2048x261 .f32) (harg1 : arg1.IsWhole) (arg2 : Memref sig .tc .vmem S261x1 .f32) (harg2 : arg2.IsWhole) (arg3 : Memref sig .tc .vmem S1 .f32) (harg3 : arg3.IsWhole) (arg4 : Memref sig .tc .vmem S261x2 .f32) (harg4 : arg4.IsWhole) (arg5 : Memref sig .tc .vmem S2 .f32) (harg5 : arg5.IsWhole) (arg6 : Memref sig .tc .vmem S261x4 .f32) (harg6 : arg6.IsWhole) (arg7 : Memref sig .tc .vmem S4 .f32) (harg7 : arg7.IsWhole) (arg8 : Memref sig .tc .vmem S8x8 .f32) (harg8 : arg8.IsWhole) (arg9 : Memref sig .tc .vmem S261x128 .f32) (harg9 : arg9.IsWhole) (arg10 : Memref sig .tc .vmem S128 .f32) (harg10 : arg10.IsWhole) (arg11 : Memref sig .tc .vmem S128x1 .f32) (harg11 : arg11.IsWhole) (arg12 : Memref sig .tc .vmem S1 .f32) (harg12 : arg12.IsWhole) (arg13 : Memref sig .tc .vmem S2048x8 .f32) (harg13 : arg13.IsWhole) (arg14 : Memref sig .tc .vmem S2048x1 .f32) (harg14 : arg14.IsWhole)
    (x0 : Vec F S2048x261 .f32) (g0 : Vec F S261x1 .f32) (b0 : Vec F S1 .f32) (g1 : Vec F S261x2 .f32) (b1 : Vec F S2 .f32) (g2 : Vec F S261x4 .f32) (b2 : Vec F S4 .f32) (leaf : Vec F S8x8 .f32) (Wc1 : Vec F S261x128 .f32) (bc1 : Vec F S128 .f32) (Wc2 : Vec F S128x1 .f32) (bc2 : Vec F S1 .f32) (K : PUnit → sProp 𝕄) :
    iprop(owns (c : Thread nD τ) arg1 fullShare x0 ∗ owns (c : Thread nD τ) arg2 fullShare g0 ∗ owns (c : Thread nD τ) arg3 fullShare b0 ∗ owns (c : Thread nD τ) arg4 fullShare g1 ∗ owns (c : Thread nD τ) arg5 fullShare b1 ∗ owns (c : Thread nD τ) arg6 fullShare g2 ∗ owns (c : Thread nD τ) arg7 fullShare b2 ∗ owns (c : Thread nD τ) arg8 fullShare leaf ∗ owns (c : Thread nD τ) arg9 fullShare Wc1 ∗ owns (c : Thread nD τ) arg10 fullShare bc1 ∗ owns (c : Thread nD τ) arg11 fullShare Wc2 ∗ owns (c : Thread nD τ) arg12 fullShare bc2
        ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare g0 ∗ owns (c : Thread nD τ) arg3 fullShare b0 ∗ owns (c : Thread nD τ) arg4 fullShare g1 ∗ owns (c : Thread nD τ) arg5 fullShare b1 ∗ owns (c : Thread nD τ) arg6 fullShare g2 ∗ owns (c : Thread nD τ) arg7 fullShare b2 ∗ owns (c : Thread nD τ) arg8 fullShare leaf ∗ owns (c : Thread nD τ) arg9 fullShare Wc1 ∗ owns (c : Thread nD τ) arg10 fullShare bc1 ∗ owns (c : Thread nD τ) arg11 fullShare Wc2 ∗ owns (c : Thread nD τ) arg12 fullShare bc2
            ∗ owns (c : Thread nD τ) arg13 fullShare (outP x0 g0 b0 g1 b1 g2 b2 leaf)
            ∗ owns (c : Thread nD τ) arg14 fullShare (outV x0 Wc1 bc1 Wc2 bc2)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf1; subst hf2; subst hf3; subst hf4; subst hf5; subst hf6; subst hf7; subst hf8; subst hf9; subst hf10; subst hf11; subst hf12
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (coverP _)
  iexists _; isplitr
  swap; · iexact H14
  ipureintro
  exact View.read_writes_eq_canon _ _ _ (coverV _)

end Cert.KernelIdeal.Hand

end
-- ==== Proof.KIRun.lean ====
/-
  The launch as a whole, and the frame.

  At every grid point the body is called with the current staging buffer of each window.  The input
  buffers hold their windows' blocks, so the statement about one grid point applies with those blocks
  as the known contents; what it leaves in the two output buffers is what the bookkeeping says.  The
  launch rule then runs the whole grid: every fair execution terminates without a fault, every staged
  array ends at what the bookkeeping computes and every other array as the launch found it.  Read at
  the twelve argument arrays this is the frame: they end as they began.
-/
import proofs.«146547_j64330020159639_2_alg».proof.Proof.KIData
import proofs.«146547_j64330020159639_2_alg».proof.Proof.KIBody

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a grid point -/

/-- What the body is called with at grid point `t`: the launch's invariant, what the core owes, and every
    window's current staging buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 1000000 in
/-- The body at any grid point: each input buffer holds its window's block, so the one-point statement applies;
    the invariant and what the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body's obligation towards the launch rule, at every grid point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with all counters at zero: every fair execution of the program on the TensorCores terminates
    without a fault, with every staged array at what the bookkeeping computes and every other array as the launch
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.KernelIdeal.Hand.run_main' depends on axioms: [propext, Classical.choice, Quot.sound] -/
#guard_msgs in #print axioms run_main

/-- The frame: the program terminates without a fault and its twelve argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- info: 'Cert.KernelIdeal.Hand.frame' depends on axioms: [propext, Classical.choice, Quot.sound] -/
#guard_msgs in #print axioms frame

end Cert.KernelIdeal.Hand

end
-- ==== Proof.KerRow.lean ====
/-
  What the kernel computes for ONE batch row, as functions of that row of the features and of the small arrays.

  A row of 261 features is routed down a binary tree of depth three. At depth d the row holds a routing word
  (the index of its node among the 2^d nodes of that depth, a 32-bit word starting at 0). Every node's gate value
  is an affine function of the whole row (a weight column per node and a bias); the row keeps the gate value of ITS
  node by multiplying the gate values with the indicator of "this column is my node" and adding up the columns,
  squashes it by the logistic function, multiplies it into a running product, and moves to child 2·node + [value ≥ 1/2].
  After three depths the running product scales the row of an 8×8 leaf table that the final routing word names
  (again taken by an indicator-weighted sum over the eight table rows). Beside this, a two-layer perceptron
  (261 → 128, clipped below at zero, → 1) gives the row's critic value.
  Everything is stated over the extended reals with the exact operations, so a sum is a sum and a product a product.
-/
import Idealize.ShloMosaic.Lib.ValueIdx
import Idealize.ShloMosaic.PureOps.Ideal.Laws

noncomputable section

open scoped BigOperators

namespace Cert.KerRow

open Idealize.ShloMosaic Idealize.ShloMosaic.ValueIdx

/-- A matrix of extended reals with `a` rows and `b` columns. -/
abbrev Mat (a b : ℕ) : Type := (⟨2, ![a, b]⟩ : Shape).Idx → EReal
/-- A vector of `a` extended reals. -/
abbrev Vct (a : ℕ) : Type := (⟨1, ![a]⟩ : Shape).Idx → EReal

/-- The indicator, as an extended real, of "column `n` is the node the routing word names": the one-bit comparison
    of the column's number with the word, widened and read as a signed integer. -/
def hot (node : BitVec 32) (n : ℕ) : EReal :=
  FloatOps.sitofp (F := Ideal) .f32 ((IntOp.cmpi .eq (BitVec.ofNat 32 n) node).setWidth 32)

/-- Node `n`'s gate value on the row `xr`: the row against weight column `n`, plus the node's bias. -/
def gateAll {C : ℕ} (xr : Fin 261 → EReal) (W : Mat 261 C) (b : Vct C) (n : Fin C) : EReal :=
  (∑ k : Fin 261, xr k * W (ix2 k n)) + b (ix1 n)

/-- The gate value of the row's own node: the indicator-weighted sum over the columns. -/
def gateSel {C : ℕ} (xr : Fin 261 → EReal) (W : Mat 261 C) (b : Vct C) (node : BitVec 32) : EReal :=
  ∑ n : Fin C, gateAll xr W b n * hot node n.val

/-- The logistic squashing of a gate value. -/
def sig (g : EReal) : EReal := FloatOps.logistic (F := Ideal) (φ := .f32) g

/-- The child taken from `node` when the squashed gate value is `v`: twice the node, plus one when `v ≥ 1/2`. -/
def next (node : BitVec 32) (v : EReal) : BitVec 32 :=
  IntOp.addi (IntOp.muli node 2#32)
    ((FloatOps.cmpf (F := Ideal) (φ := .f32) .oge v (Scalar.ofBits (F := Ideal) .f32 0x3F000000#32)).setWidth 32)

/-- The three depths' weights and biases and the leaf table. -/
structure Tree where
  W0 : Mat 261 1
  b0 : Vct 1
  W1 : Mat 261 2
  b1 : Vct 2
  W2 : Mat 261 4
  b2 : Vct 4
  leaf : Mat 8 8

variable (T : Tree) (xr : Fin 261 → EReal)

/-- Depth 0: the squashed gate value at the root, -/
def val0 : EReal := sig (gateSel xr T.W0 T.b0 0#32)
/-- the node reached at depth 1, -/
def node1 : BitVec 32 := next 0#32 (val0 T xr)
/-- its squashed gate value, -/
def val1 : EReal := sig (gateSel xr T.W1 T.b1 (node1 T xr))
/-- the running product after two depths (it starts at one), -/
def cum2 : EReal := (Scalar.ofBits (F := Ideal) .f32 0x3F800000#32 * val0 T xr) * val1 T xr
/-- the node reached at depth 2, -/
def node2 : BitVec 32 := next (node1 T xr) (val1 T xr)
/-- its squashed gate value, -/
def val2 : EReal := sig (gateSel xr T.W2 T.b2 (node2 T xr))
/-- the running product after three depths, -/
def cum3 : EReal := cum2 T xr * val2 T xr
/-- and the leaf reached. -/
def node3 : BitVec 32 := next (node2 T xr) (val2 T xr)

/-- The row's result of the tree: the running product times the leaf table's row the final word names, that row taken
    as the indicator-weighted sum of the table's eight rows. -/
def rowP (c : Fin 8) : EReal := cum3 T xr * ∑ n : Fin 8, hot (node3 T xr) n.val * T.leaf (ix2 n c)

/-- The perceptron's hidden unit `j` on the row: affine, then clipped below at zero. -/
def hid (Wc1 : Mat 261 128) (bc1 : Vct 128) (j : Fin 128) : EReal :=
  max ((∑ k : Fin 261, xr k * Wc1 (ix2 k j)) + bc1 (ix1 j)) (Scalar.ofBits (F := Ideal) .f32 0x00000000#32)

/-- The row's critic value: the hidden units against the second layer's one column, plus its bias. -/
def rowV (Wc1 : Mat 261 128) (bc1 : Vct 128) (Wc2 : Mat 128 1) (bc2 : Vct 1) : EReal :=
  (∑ j : Fin 128, hid xr Wc1 bc1 j * Wc2 (ix2 j (0 : Fin 1))) + bc2 (ix1 (0 : Fin 1))

end Cert.KerRow

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibLayout.lean ====
/-
  Unit axes added by a shape cast and filled by a broadcast, read at coordinates.

  A row statistic (a maximum or a sum along the last axis of an `[a, b]` array) comes back as an `[a]` vector; to
  combine it with the array again it is cast to a column `[a, 1]` and broadcast to `[a, b]`: entry (p, c) of the
  result is entry p of the vector. The same happens one rank up when every row of one `[a, c]` array is paired with
  every row of another `[b, c]` array: the first is cast to `[a, 1, c]` and broadcast along the new middle axis, the
  second, as `[1, b, c]`, along a new leading axis; entry (p, q, l) of the two results is entry (p, l) of the first and
  entry (q, l) of the second. Each lemma states one such step for arbitrary extents; a cast keeps the row-major
  position, a broadcast reads coordinate 0 on an axis of extent one and the same coordinate elsewhere.
-/
import Idealize.ShloMosaic.Lib.ValueLayout
import Idealize.ShloMosaic.Lib.Pipeline.Value
import Idealize.ShloMosaic.Lib.ValueIdx

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, c]` array cast to `[a, 1, c]` reads, at `(i, u, l)`, the operand at `(i, l)`. -/
theorem shapeCast_ac_a1c_apply {a c : ℕ} (x : (⟨2, ![a, c]⟩ : Shape).Idx → α) (h : (⟨2, ![a, c]⟩ : Shape).ShapeCasts ⟨3, ![a, 1, c]⟩)
    (i : Fin a) (u : Fin 1) (l : Fin c) : shapeCast ⟨3, ![a, 1, c]⟩ x h (ix3 i u l) = x (ix2 i l) :=
  shapeCast_apply x h _ _ (by
    have hu : u.val = 0 := by omega
    rw [Shape.rowMajor_val_three, Shape.rowMajor_val_two]
    show i.val * c + l.val = (i.val * 1 + u.val) * c + l.val
    rw [hu, Nat.mul_one, Nat.add_zero])

/-- An `[a, 1, c]` array broadcast to `[a, b, c]` reads, at `(p, q, l)`, the operand at `(p, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (l : Fin c) :
    broadcastTo ⟨3, ![a, b, c]⟩ v h (ix3 p q l) = v (ix3 p (0 : Fin 1) l) := by
  refine broadcastTo_apply v h (ix3 p q l) (ix3 p (0 : Fin 1) l) fun ax => ?_
  match ax with
  | ⟨0, _⟩ =>
    show p.val = if a = 1 then 0 else p.val
    split
    · have := p.isLt; omega
    · rfl
  | ⟨1, _⟩ => rfl
  | ⟨2, _⟩ =>
    show l.val = if c = 1 then 0 else l.val
    split
    · have := l.isLt; omega
    · rfl

/-- A `[1, b, c]` array broadcast to `[a, b, c]` reads, at `(p, q, l)`, the operand at `(0, q, l)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (l : Fin c) :
    broadcastTo ⟨3, ![a, b, c]⟩ v h (ix3 p q l) = v (ix3 (0 : Fin 1) q l) := by
  refine broadcastTo_apply v h (ix3 p q l) (ix3 (0 : Fin 1) q l) fun ax => ?_
  match ax with
  | ⟨0, _⟩ => rfl
  | ⟨1, _⟩ =>
    show q.val = if b = 1 then 0 else q.val
    split
    · have := q.isLt; omega
    · rfl
  | ⟨2, _⟩ =>
    show l.val = if c = 1 then 0 else l.val
    split
    · have := l.isLt; omega
    · rfl

end Cert.LibLayout

end
-- ==== Proof.LibHostRowMax.lean ====
/-
  A host reduction by maximum along the rows of a matrix, read at a row.

  For any extents: the one-operand host reduction of an `[n, d]` array along its second axis with the maximum as its body
  is, at row `p`, the fold of the maximum from the initial value over the row's `d` entries.
-/
import Idealize.ShloMosaic.PureOps.Ideal.Laws
import Idealize.ShloMosaic.PureOps.Reduce
import Idealize.ShloMosaic.Lib.ValueIdx

noncomputable section

namespace Cert.LibHostRowMax

open Idealize.ShloMosaic Idealize.ShloMosaic.ValueIdx

/-- Row `p` with the column coordinate `k` inserted is the entry `(p, k)`. -/
theorem lift_row {n d : ℕ} (hR : (⟨2, ![n, d]⟩ : Shape).Reduces [1] ⟨1, ![n]⟩) (p : Fin n) (k : Fin d) :
    hR.lift (ix1 p) k = ix2 p k := by
  funext a
  match a with
  | ⟨0, _⟩ => rfl
  | ⟨1, _⟩ => rfl

/-- The host's row maximum at row `p`: the fold of the maximum over the row from the initial value. -/
theorem reduce_max_row {n d : ℕ} {u : Shape} (A : (⟨2, ![n, d]⟩ : Shape).Idx → EReal) (init : u.Idx → EReal)
    (h' : (⟨2, ![n, d]⟩ : Shape).ReducesTo [1] ⟨1, ![n]⟩) (hR : (⟨2, ![n, d]⟩ : Shape).Reduces [1] ⟨1, ![n]⟩)
    (hu : 0 < u.numel) (p : Fin n) :
    Host.reduce (FloatOps.maximumf (F := Ideal) (φ := .f32)) A init h' hu (ix1 p)
      = (Finset.univ : Finset (Fin d)).fold max (init (Shape.Idx.first hu)) fun k => A (ix2 p k) := by
  refine (Host.reduce_eq_fold_single (α := Ideal .f32) FloatOps.maximumf A init h' hR hu (ix1 p)).trans ?_
  refine congrArg (Finset.fold max (init (Shape.Idx.first hu)) · Finset.univ) ?_
  funext k
  exact congrArg A (lift_row hR p k)

end Cert.LibHostRowMax

end
-- ==== Proof.KerPay.lean ====
/-
  The kernel body's stored values read at one entry, over the extended reals: each is the row-wise function of
  KerRow.lean applied to that row of the feature block. The matrix products read as plain sums over the contracted
  index, the bias rows as their entries, the lane sums as sums over the columns, and every other operation entry by entry.
-/
import proofs.«146547_j64330020159639_2_alg».proof.Proof.Gen.KernelIdeal.Skeleton
import proofs.«146547_j64330020159639_2_alg».proof.Proof.KerRow
import proofs.«146547_j64330020159639_2_alg».proof.Proof.LibPlainDot
import proofs.«146547_j64330020159639_2_alg».proof.Proof.LibLayout
import proofs.«146547_j64330020159639_2_alg».proof.Proof.LibHostRowMax
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.KerPay

open Cert.KernelIdeal Cert.KernelIdeal.Gen Idealize.ShloMosaic Idealize.ShloMosaic.TcCoe Idealize.ShloMosaic.ValueIdx Cert.KerRow

/-- Row `p` of a block of 2048 feature rows. -/
abbrev row (x0 : FVec Ideal ⟨2, ![2048, 261]⟩ .f32) (p : Fin 2048) : Fin 261 → EReal := fun k => x0 (ix2 p k)

/-! ## The pieces, for any number of columns -/

section Pieces
variable {C : ℕ}

/-- Every node's gate value at `(p, n)`: the row against weight column `n` (a plain product into a zero accumulator),
    plus the bias row's entry `n`. -/
theorem gates (d : DotDims ⟨2, ![2048, 261]⟩ ⟨2, ![261, C]⟩ ⟨2, ![2048, C]⟩) (hd : d = DotDims.plain 2048 261 C)
    (prec : Option ContractPrecision)
    (x0 : FVec Ideal ⟨2, ![2048, 261]⟩ .f32) (g : FVec Ideal ⟨2, ![261, C]⟩ .f32) (b : FVec Ideal ⟨1, ![C]⟩ .f32)
    (hg : (⟨2, ![261, C]⟩ : Shape).ShapeCasts ⟨2, ![261, C]⟩) (hb : (⟨1, ![C]⟩ : Shape).ShapeCasts ⟨2, ![1, C]⟩)
    (hbr : (⟨2, ![1, C]⟩ : Shape).Broadcasts ⟨2, ![2048, C]⟩) (p : Fin 2048) (n : Fin C) :
    addf (matmul d prec x0 (shapeCast ⟨2, ![261, C]⟩ g hg) (constant (F := Ideal) ⟨2, ![2048, C]⟩ .f32 0x00000000#32))
      (broadcastTo ⟨2, ![2048, C]⟩ (shapeCast ⟨2, ![1, C]⟩ b hb) hbr) (ix2 p n)
      = gateAll (row x0 p) g b n := by
  subst hd
  rw [addf_apply, shapeCast_self, broadcastTo_1b_ab_apply, shapeCast_a_1a_apply]
  exact congrArg (· + b (ix1 n)) (Cert.Sage.matmul_plain_zero_apply prec x0 g p n)

/-- The indicator matrix at `(p, n)`: column `n`'s number compared with row `p`'s routing word. -/
theorem onehot_at (node : IVec ⟨1, ![2048]⟩ 32)
    (hI : (⟨2, ![2048, C]⟩ : Shape).Iotas .tc 32 [1]) (hsc : (⟨1, ![2048]⟩ : Shape).ShapeCasts ⟨2, ![2048, 1]⟩)
    (hbc : (⟨2, ![2048, 1]⟩ : Shape).Broadcasts ⟨2, ![2048, C]⟩) (h132 : 1 < 32) (p : Fin 2048) (n : Fin C) :
    (sitofp (F := Ideal) .f32 (extui 32 (cmpi .eq (iota .tc ⟨2, ![2048, C]⟩ 32 [1] hI)
        (broadcastTo ⟨2, ![2048, C]⟩ (shapeCast ⟨2, ![2048, 1]⟩ node hsc) hbc)) h132)) (ix2 p n)
      = hot (node (ix1 p)) n.val := by
  show FloatOps.sitofp (F := Ideal) .f32 ((IntOp.cmpi .eq (iota .tc ⟨2, ![2048, C]⟩ 32 [1] hI (ix2 p n))
      (broadcastTo ⟨2, ![2048, C]⟩ (shapeCast ⟨2, ![2048, 1]⟩ node hsc) hbc (ix2 p n))).setWidth 32) = _
  rw [iota_single_apply, Cert.LibLayout.broadcastTo_a1_ab_apply, Cert.LibLayout.shapeCast_a_a1_apply]
  rfl

/-- The lane sum of the gate values masked by the indicator, at row `p`: the sum over the columns. -/
theorem pick (G : FVec Ideal ⟨2, ![2048, C]⟩ .f32) (node : IVec ⟨1, ![2048]⟩ 32)
    (hI : (⟨2, ![2048, C]⟩ : Shape).Iotas .tc 32 [1]) (hsc : (⟨1, ![2048]⟩ : Shape).ShapeCasts ⟨2, ![2048, 1]⟩)
    (hbc : (⟨2, ![2048, 1]⟩ : Shape).Broadcasts ⟨2, ![2048, C]⟩) (h132 : 1 < 32)
    (hR : (⟨2, ![2048, C]⟩ : Shape).Reduces [1] ⟨1, ![2048]⟩) (hφ : FKind.Formats .f32)
    (hacc : (0x00000000#32 : BitVec FTy.f32.bits) = FKind.add.neutral .f32 hφ) (p : Fin 2048) :
    multiReduction .add [1] ⟨1, ![2048]⟩
        (mulf G (sitofp (F := Ideal) .f32 (extui 32 (cmpi .eq (iota .tc ⟨2, ![2048, C]⟩ 32 [1] hI)
          (broadcastTo ⟨2, ![2048, C]⟩ (shapeCast ⟨2, ![2048, 1]⟩ node hsc) hbc)) h132)))
        0x00000000#32 hR hφ hacc (ix1 p)
      = ∑ n : Fin C, G (ix2 p n) * hot (node (ix1 p)) n.val := by
  rw [Ideal.multiReduction_add_single]
  show (∑ n : Fin C, _) = _
  refine Finset.sum_congr rfl fun n _ => ?_
  rw [Cert.LibHostRowMax.lift_row hR p n, mulf_apply, onehot_at]

end Pieces

/-- Depth 0 has one column and no spreading of the routing word: the lane sum at row `p`. -/
theorem pick1 (G : FVec Ideal ⟨2, ![2048, 1]⟩ .f32) (node : IVec ⟨1, ![2048]⟩ 32)
    (hI : (⟨2, ![2048, 1]⟩ : Shape).Iotas .tc 32 [1]) (hsc : (⟨1, ![2048]⟩ : Shape).ShapeCasts ⟨2, ![2048, 1]⟩)
    (h132 : 1 < 32)
    (hR : (⟨2, ![2048, 1]⟩ : Shape).Reduces [1] ⟨1, ![2048]⟩) (hφ : FKind.Formats .f32)
    (hacc : (0x00000000#32 : BitVec FTy.f32.bits) = FKind.add.neutral .f32 hφ) (p : Fin 2048) :
    multiReduction .add [1] ⟨1, ![2048]⟩
        (mulf G (sitofp (F := Ideal) .f32 (extui 32 (cmpi .eq (iota .tc ⟨2, ![2048, 1]⟩ 32 [1] hI)
          (shapeCast ⟨2, ![2048, 1]⟩ node hsc)) h132)))
        0x00000000#32 hR hφ hacc (ix1 p)
      = ∑ n : Fin 1, G (ix2 p n) * hot (node (ix1 p)) n.val := by
  rw [Ideal.multiReduction_add_single]
  show (∑ n : Fin 1, _) = _
  refine Finset.sum_congr rfl fun n _ => ?_
  rw [Cert.LibHostRowMax.lift_row hR p n, mulf_apply]
  congr 1
  show FloatOps.sitofp (F := Ideal) .f32 ((IntOp.cmpi .eq (iota .tc ⟨2, ![2048, 1]⟩ 32 [1] hI (ix2 p n))
      (shapeCast ⟨2, ![2048, 1]⟩ node hsc (ix2 p n))).setWidth 32) = _
  rw [iota_single_apply, Cert.LibLayout.shapeCast_a_a1_apply]
  rfl

/-! ## The last stretch of the tree's payload, and the critic's hidden layer -/

/-- From the depth-2 squashed gate value on: the running product spread over the eight columns, times the
    indicator-weighted sum of the leaf table's rows; generic in the vectors it is computed from. -/
theorem tail_at (v41 V63 : FVec Ideal ⟨1, ![2048]⟩ .f32) (V47 : IVec ⟨1, ![2048]⟩ 32) (leaf : FVec Ideal ⟨2, ![8, 8]⟩ .f32)
    (d8 : DotDims ⟨2, ![2048, 8]⟩ ⟨2, ![8, 8]⟩ ⟨2, ![2048, 8]⟩) (hd8 : d8 = DotDims.plain 2048 8 8)
    (hsc : (⟨1, ![2048]⟩ : Shape).ShapeCasts ⟨2, ![2048, 1]⟩) (hb8 : (⟨2, ![2048, 1]⟩ : Shape).Broadcasts ⟨2, ![2048, 8]⟩)
    (hI8 : (⟨2, ![2048, 8]⟩ : Shape).Iotas .tc 32 [1]) (h132 : 1 < 32) (p : Fin 2048) (c : Fin 8) (X : EReal)
    (hX : V63 (ix1 p) = X) :
    mulf (broadcastTo ⟨2, ![2048, 8]⟩ (shapeCast ⟨2, ![2048, 1]⟩ (mulf v41 V63) hsc) hb8)
      (matmul d8 (some .fp32)
        (sitofp (F := Ideal) .f32 (extui 32 (cmpi .eq (iota .tc ⟨2, ![2048, 8]⟩ 32 [1] hI8)
          (broadcastTo ⟨2, ![2048, 8]⟩ (shapeCast ⟨2, ![2048, 1]⟩
            (addi (muli V47 (broadcast ⟨1, ![2048]⟩ 2#32))
              (extui 32 (cmpf .oge V63 (broadcast ⟨1, ![2048]⟩ (Scalar.ofBits (F := Ideal) .f32 0x3F000000#32))) h132)) hsc) hb8)) h132))
        leaf (constant (F := Ideal) ⟨2, ![2048, 8]⟩ .f32 0x00000000#32)) (ix2 p c)
      = (v41 (ix1 p) * X) * ∑ n : Fin 8, hot (next (V47 (ix1 p)) X) n.val * leaf (ix2 n c) := by
  subst hX hd8
  rw [mulf_apply, Cert.LibLayout.broadcastTo_a1_ab_apply, Cert.LibLayout.shapeCast_a_a1_apply, mulf_apply]
  refine congrArg (fun t : EReal => (v41 (ix1 p) * V63 (ix1 p)) * t) ?_
  refine (Cert.Sage.matmul_plain_zero_apply (some .fp32) _ leaf p c).trans ?_
  refine Finset.sum_congr rfl fun n _ => ?_
  rw [onehot_at]
  rfl

/-- The critic's hidden unit `j` on row `p`: the row against weight column `j` plus the bias, clipped below at zero
    (the narrowing of the operands to the short format is the identity on extended reals). -/
theorem hidden_at (d : DotDims ⟨2, ![2048, 261]⟩ ⟨2, ![261, 128]⟩ ⟨2, ![2048, 128]⟩) (hd : d = DotDims.plain 2048 261 128)
    (x0 : FVec Ideal ⟨2, ![2048, 261]⟩ .f32) (Wc1 : FVec Ideal ⟨2, ![261, 128]⟩ .f32) (bc1 : FVec Ideal ⟨1, ![128]⟩ .f32)
    (hlt : FTy.bf16.bits < FTy.f32.bits)
    (hb : (⟨1, ![128]⟩ : Shape).ShapeCasts ⟨2, ![1, 128]⟩) (hbr : (⟨2, ![1, 128]⟩ : Shape).Broadcasts ⟨2, ![2048, 128]⟩)
    (p : Fin 2048) (j : Fin 128) :
    maximumf (addf (matmul d none (truncf .bf16 x0 hlt) (truncf .bf16 Wc1 hlt) (constant (F := Ideal) ⟨2, ![2048, 128]⟩ .f32 0x00000000#32))
        (broadcastTo ⟨2, ![2048, 128]⟩ (shapeCast ⟨2, ![1, 128]⟩ bc1 hb) hbr))
      (broadcast ⟨2, ![2048, 128]⟩ (Scalar.ofBits (F := Ideal) .f32 0x00000000#32)) (ix2 p j)
      = hid (row x0 p) Wc1 bc1 j := by
  subst hd
  rw [maximumf_apply, addf_apply, broadcastTo_1b_ab_apply, shapeCast_a_1a_apply]
  exact congrArg (fun t => max (t + bc1 (ix1 j)) _)
    (Cert.Sage.matmul_plain_zero_apply none (truncf .bf16 x0 hlt) (truncf .bf16 Wc1 hlt) p j)

/-! ## The payloads at an entry -/

section Payloads
variable (x0 : Vec Ideal S2048x261 .f32) (g0 : Vec Ideal S261x1 .f32) (b0 : Vec Ideal S1 .f32)
  (g1 : Vec Ideal S261x2 .f32) (b1 : Vec Ideal S2 .f32) (g2 : Vec Ideal S261x4 .f32) (b2 : Vec Ideal S4 .f32)
  (leaf : Vec Ideal S8x8 .f32)

/-- The squashed root gate value of row `p`. -/
theorem pay3_at (p : Fin 2048) :
    k0_pay3 (F := Ideal) x0 g0 b0 (ix1 p) = KerRow.sig (gateSel (row x0 p) g0 b0 0#32) := by
  unfold k0_pay3 KerRow.sig gateSel
  show FloatOps.logistic (F := Ideal) (φ := .f32) _ = FloatOps.logistic (F := Ideal) (φ := .f32) _
  refine congrArg _ ?_
  refine (pick1 _ _ _ _ _ _ _ _ p).trans ?_
  refine Finset.sum_congr rfl fun n _ => ?_
  exact congrArg (· * _) (gates dot_S2048x261_S261x1_S2048x1_1_0_0_1_n_n rfl (some .fp32) x0 g0 b0 _ _ _ p n)

/-- The node row `p` reaches at depth 1. -/
theorem pay4_at (p : Fin 2048) :
    k0_pay4 (F := Ideal) x0 g0 b0 (ix1 p) = next 0#32 (k0_pay3 (F := Ideal) x0 g0 b0 (ix1 p)) := rfl

/-- Its squashed gate value there. -/
theorem pay5_at (p : Fin 2048) :
    k0_pay5 (F := Ideal) x0 g0 b0 g1 b1 (ix1 p)
      = KerRow.sig (gateSel (row x0 p) g1 b1 (k0_pay4 (F := Ideal) x0 g0 b0 (ix1 p))) := by
  unfold k0_pay5 KerRow.sig gateSel
  show FloatOps.logistic (F := Ideal) (φ := .f32) _ = FloatOps.logistic (F := Ideal) (φ := .f32) _
  refine congrArg _ ?_
  refine (pick _ (k0_pay4 (F := Ideal) x0 g0 b0) _ _ _ _ _ _ _ p).trans ?_
  refine Finset.sum_congr rfl fun n _ => ?_
  exact congrArg (· * _) (gates dot_S2048x261_S261x2_S2048x2_1_0_0_1_n_n rfl (some .fp32) x0 g1 b1 _ _ _ p n)

/-- The running product after two depths. -/
theorem pay6_at (p : Fin 2048) :
    k0_pay6 (F := Ideal) x0 g0 b0 g1 b1 (ix1 p)
      = (Scalar.ofBits (F := Ideal) .f32 0x3F800000#32 * k0_pay3 (F := Ideal) x0 g0 b0 (ix1 p))
          * k0_pay5 (F := Ideal) x0 g0 b0 g1 b1 (ix1 p) := rfl

/-- The tree's stored value at `(p, c)`, from the node, gate value and running product the first two depths hand on. -/
theorem pay7_at (v24 : IVec S2048 32) (v40 v41 : FVec Ideal S2048 .f32) (p : Fin 2048) (c : Fin 8) :
    k0_pay7 (F := Ideal) x0 v24 v40 v41 2#32 g2 b2 leaf (ix2 p c)
      = (v41 (ix1 p) * KerRow.sig (gateSel (row x0 p) g2 b2 (next (v24 (ix1 p)) (v40 (ix1 p)))))
          * ∑ n : Fin 8, hot (next (next (v24 (ix1 p)) (v40 (ix1 p)))
              (KerRow.sig (gateSel (row x0 p) g2 b2 (next (v24 (ix1 p)) (v40 (ix1 p)))))) n.val * leaf (ix2 n c) := by
  unfold k0_pay7
  refine tail_at v41 _ _ leaf dot_S2048x8_S8x8_S2048x8_1_0_0_1_n_n rfl _ _ _ _ p c _ ?_
  unfold KerRow.sig gateSel
  show FloatOps.logistic (F := Ideal) (φ := .f32) _ = FloatOps.logistic (F := Ideal) (φ := .f32) _
  refine congrArg _ ?_
  refine (pick _ _ _ _ _ _ _ _ _ p).trans ?_
  refine Finset.sum_congr rfl fun n _ => ?_
  exact congrArg (· * _) (gates dot_S2048x261_S261x4_S2048x4_1_0_0_1_n_n rfl (some .fp32) x0 g2 b2 _ _ _ p n)

/-- THE TREE'S BLOCK: what the body stores for the tree at `(p, c)` is the row-wise result of row `p`. -/
theorem blockP_at (p : Fin 2048) (c : Fin 8) :
    k0_pay7 (F := Ideal) x0 (k0_pay4 (F := Ideal) x0 g0 b0) (k0_pay5 (F := Ideal) x0 g0 b0 g1 b1)
        (k0_pay6 (F := Ideal) x0 g0 b0 g1 b1) 2#32 g2 b2 leaf (ix2 p c)
      = rowP ⟨g0, b0, g1, b1, g2, b2, leaf⟩ (row x0 p) c := by
  rw [pay7_at, pay6_at, pay5_at, pay4_at, pay3_at]
  rfl

end Payloads

/-- THE CRITIC'S BLOCK: what the body stores for the critic at `(p, 0)` is the row-wise critic value of row `p`. -/
theorem blockV_at (x0 : Vec Ideal S2048x261 .f32) (Wc1 : Vec Ideal S261x128 .f32) (bc1 : Vec Ideal S128 .f32)
    (Wc2 : Vec Ideal S128x1 .f32) (bc2 : Vec Ideal S1 .f32) (p : Fin 2048) (u : Fin 1) :
    k0_pay1 (F := Ideal) x0 Wc1 bc1 Wc2 bc2 (ix2 p u) = rowV (row x0 p) Wc1 bc1 Wc2 bc2 := by
  obtain rfl : u = 0 := Subsingleton.elim _ _
  unfold k0_pay1 rowV
  refine (addf_apply _ _ _).trans ?_
  refine congrArg₂ (· + ·) ?_ ?_
  · refine (Cert.Sage.matmul_plain_zero_apply none _ _ p 0).trans ?_
    refine Finset.sum_congr rfl fun j _ => ?_
    refine congrArg (· * _) ?_
    exact hidden_at dot_S2048x261_S261x128_S2048x128_1_0_0_1_n_n rfl x0 Wc1 bc1 _ _ _ p j
  · exact (broadcastTo_1b_ab_apply _ _ p 0).trans (shapeCast_a_1a_apply _ _ 0 0)

end Cert.KernelIdeal.KerPay

end
-- ==== Proof.KerValue.lean ====
/-
  From what each grid point writes back to the two result arrays whole.

  Point t of the 32 handles the feature rows 2048·t … 2048·t + 2047 and writes back the same rows of both results; every
  other operand is handed to every point whole. What a point stores for row p of its block is the row-wise function of
  that row of the features (KerPay.lean), so what it writes back is the block of ONE function of the whole arrays: the
  row-wise function applied to each of the 65536 rows. The 32 blocks tile the rows (row R belongs to point R / 2048), so
  after the run each result array IS that function, and every argument is as launched.
-/
import proofs.«146547_j64330020159639_2_alg».proof.Proof.KIRun
import proofs.«146547_j64330020159639_2_alg».proof.Proof.KerPay
import Idealize.ShloMosaic.Lib.Pipeline.Value

set_option maxRecDepth 16384

noncomputable section

namespace Cert.KernelIdeal.KerValue

open Cert.KernelIdeal Cert.KernelIdeal.Gen Cert.KernelIdeal.Hand Idealize.ShloMosaic Idealize.ShloMosaic.TcCoe Idealize.SL.Sem
open Idealize.ShloMosaic.ValueIdx Cert.KerRow
open Idealize.ShloMosaic.Pipeline (Dat)

variable (m : (ℓ : Loc nD τ sig) → Buf (Elt Ideal) ℓ) (ρ : Dev nD → PrngReg)

/-! ## The windows' index maps over the grid -/

/-- Decided over the 32 points: the feature window and the two result windows sit at block row t, column block 0;
    every other window at block 0 on every axis. -/
theorem idx_facts : ∀ t : Fin cfg0.N,
    win0_0.index t (0 : Fin 2) = t.val
    ∧ win0_0.index t (1 : Fin 2) = 0
    ∧ win0_12.index t (0 : Fin 2) = t.val
    ∧ win0_12.index t (1 : Fin 2) = 0
    ∧ win0_13.index t (0 : Fin 2) = t.val
    ∧ win0_13.index t (1 : Fin 2) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 1) = 0
    ∧ win0_10.index t (0 : Fin 2) = 0
    ∧ win0_10.index t (1 : Fin 2) = 0
    ∧ win0_11.index t (0 : Fin 1) = 0 :=
  (by decide +kernel : ∀ t : Fin grid0.N, _)

/-- Window 1 hands every point its whole array. -/
theorem iblk1 (c : Dev nD) (t : Fin cfg0.N) : (iblk m c 1 t : S261x1.Idx → EReal) = V m c main_v7 := by
  funext y
  show V m c main_v7 (((cfg0.win 1).blk t).view.emb y) = V m c main_v7 y
  refine congrArg _ (funext fun a => Fin.ext ?_)
  match a with
  | ⟨0, _⟩ => show win0_1.index t (0 : Fin 2) * 261 + 1 * (y 0).val = (y 0).val; rw [(idx_facts t).2.2.2.2.2.2.1]; omega
  | ⟨1, _⟩ => show win0_1.index t (1 : Fin 2) * 1 + 1 * (y 1).val = (y 1).val; rw [(idx_facts t).2.2.2.2.2.2.2.1]; omega

/-- Window 2 hands every point its whole array. -/
theorem iblk2 (c : Dev nD) (t : Fin cfg0.N) : (iblk m c 2 t : S1.Idx → EReal) = V m c main_arg2 := by
  funext y
  show V m c main_arg2 (((cfg0.win 2).blk t).view.emb y) = V m c main_arg2 y
  refine congrArg _ (funext fun a => Fin.ext ?_)
  match a with
  | ⟨0, _⟩ => show win0_2.index t (0 : Fin 1) * 1 + 1 * (y 0).val = (y 0).val; rw [(idx_facts t).2.2.2.2.2.2.2.2.1]; omega

/-- Window 3 hands every point its whole array. -/
theorem iblk3 (c : Dev nD) (t : Fin cfg0.N) : (iblk m c 3 t : S261x2.Idx → EReal) = V m c main_v24 := by
  funext y
  show V m c main_v24 (((cfg0.win 3).blk t).view.emb y) = V m c main_v24 y
  refine congrArg _ (funext fun a => Fin.ext ?_)
  match a with
  | ⟨0, _⟩ => show win0_3.index t (0 : Fin 2) * 261 + 1 * (y 0).val = (y 0).val; rw [(idx_facts t).2.2.2.2.2.2.2.2.2.1]; omega
  | ⟨1, _⟩ => show win0_3.index t (1 : Fin 2) * 2 + 1 * (y 1).val = (y 1).val; rw [(idx_facts t).2.2.2.2.2.2.2.2.2.2.1]; omega

/-- Window 4 hands every point its whole array. -/
theorem iblk4 (c : Dev nD) (t : Fin cfg0.N) : (iblk m c 4 t : S2.Idx → EReal) = V m c main_arg4 := by
  funext y
  show V m c main_arg4 (((cfg0.win 4).blk t).view.emb y) = V m c main_arg4 y
  refine congrArg _ (funext fun a => Fin.ext ?_)
  match a with
  | ⟨0, _⟩ => show win0_4.index t (0 : Fin 1) * 2 + 1 * (y 0).val = (y 0).val; rw [(idx_facts t).2.2.2.2.2.2.2.2.2.2.2.1]; omega

/-- Window 5 hands every point its whole array. -/
theorem iblk5 (c : Dev nD) (t : Fin cfg0.N) : (iblk m c 5 t : S261x4.Idx → EReal) = V m c main_v53 := by
  funext y
  show V m c main_v53 (((cfg0.win 5).blk t).view.emb y) = V m c main_v53 y
  refine congrArg _ (funext fun a => Fin.ext ?_)
  match a with
  | ⟨0, _⟩ => show win0_5.index t (0 : Fin 2) * 261 + 1 * (y 0).val = (y 0).val; rw [(idx_facts t).2.2.2.2.2.2.2.2.2.2.2.2.1]; omega
  | ⟨1, _⟩ => show win0_5.index t (1 : Fin 2) * 4 + 1 * (y 1).val = (y 1).val; rw [(idx_facts t).2.2.2.2.2.2.2.2.2.2.2.2.2.1]; omega

/-- Window 6 hands every point its whole array. -/
theorem iblk6 (c : Dev nD) (t : Fin cfg0.N) : (iblk m c 6 t : S4.Idx → EReal) = V m c main_arg6 := by
  funext y
  show V m c main_arg6 (((cfg0.win 6).blk t).view.emb y) = V m c main_arg6 y
  refine congrArg _ (funext fun a => Fin.ext ?_)
  match a with
  | ⟨0, _⟩ => show win0_6.index t (0 : Fin 1) * 4 + 1 * (y 0).val = (y 0).val; rw [(idx_facts t).2.2.2.2.2.2.2.2.2.2.2.2.2.2.1]; omega

/-- Window 7 hands every point its whole array. -/
theorem iblk7 (c : Dev nD) (t : Fin cfg0.N) : (iblk m c 7 t : S8x8.Idx → EReal) = V m c main_arg7 := by
  funext y
  show V m c main_arg7 (((cfg0.win 7).blk t).view.emb y) = V m c main_arg7 y
  refine congrArg _ (funext fun a => Fin.ext ?_)
  match a with
  | ⟨0, _⟩ => show win0_7.index t (0 : Fin 2) * 8 + 1 * (y 0).val = (y 0).val; rw [(idx_facts t).2.2.2.2.2.2.2.2.2.2.2.2.2.2.2.1]; omega
  | ⟨1, _⟩ => show win0_7.index t (1 : Fin 2) * 8 + 1 * (y 1).val = (y 1).val; rw [(idx_facts t).2.2.2.2.2.2.2.2.2.2.2.2.2.2.2.2.1]; omega

/-- Window 8 hands every point its whole array. -/
theorem iblk8 (c : Dev nD) (t : Fin cfg0.N) : (iblk m c 8 t : S261x128.Idx → EReal) = V m c main_arg8 := by
  funext y
  show V m c main_arg8 (((cfg0.win 8).blk t).view.emb y) = V m c main_arg8 y
  refine congrArg _ (funext fun a => Fin.ext ?_)
  match a with
  | ⟨0, _⟩ => show win0_8.index t (0 : Fin 2) * 261 + 1 * (y 0).val = (y 0).val; rw [(idx_facts t).2.2.2.2.2.2.2.2.2.2.2.2.2.2.2.2.2.1]; omega
  | ⟨1, _⟩ => show win0_8.index t (1 : Fin 2) * 128 + 1 * (y 1).val = (y 1).val; rw [(idx_facts t).2.2.2.2.2.2.2.2.2.2.2.2.2.2.2.2.2.2.1]; omega

/-- Window 9 hands every point its whole array. -/
theorem iblk9 (c : Dev nD) (t : Fin cfg0.N) : (iblk m c 9 t : S128.Idx → EReal) = V m c main_arg9 := by
  funext y
  show V m c main_arg9 (((cfg0.win 9).blk t).view.emb y) = V m c main_arg9 y
  refine congrArg _ (funext fun a => Fin.ext ?_)
  match a with
  | ⟨0, _⟩ => show win0_9.index t (0 : Fin 1) * 128 + 1 * (y 0).val = (y 0).val; rw [(idx_facts t).2.2.2.2.2.2.2.2.2.2.2.2.2.2.2.2.2.2.2.1]; omega

/-- Window 10 hands every point its whole array. -/
theorem iblk10 (c : Dev nD) (t : Fin cfg0.N) : (iblk m c 10 t : S128x1.Idx → EReal) = V m c main_arg10 := by
  funext y
  show V m c main_arg10 (((cfg0.win 10).blk t).view.emb y) = V m c main_arg10 y
  refine congrArg _ (funext fun a => Fin.ext ?_)
  match a with
  | ⟨0, _⟩ => show win0_10.index t (0 : Fin 2) * 128 + 1 * (y 0).val = (y 0).val; rw [(idx_facts t).2.2.2.2.2.2.2.2.2.2.2.2.2.2.2.2.2.2.2.2.1]; omega
  | ⟨1, _⟩ => show win0_10.index t (1 : Fin 2) * 1 + 1 * (y 1).val = (y 1).val; rw [(idx_facts t).2.2.2.2.2.2.2.2.2.2.2.2.2.2.2.2.2.2.2.2.2.1]; omega

/-- Window 11 hands every point its whole array. -/
theorem iblk11 (c : Dev nD) (t : Fin cfg0.N) : (iblk m c 11 t : S1.Idx → EReal) = V m c main_arg11 := by
  funext y
  show V m c main_arg11 (((cfg0.win 11).blk t).view.emb y) = V m c main_arg11 y
  refine congrArg _ (funext fun a => Fin.ext ?_)
  match a with
  | ⟨0, _⟩ => show win0_11.index t (0 : Fin 1) * 1 + 1 * (y 0).val = (y 0).val; rw [(idx_facts t).2.2.2.2.2.2.2.2.2.2.2.2.2.2.2.2.2.2.2.2.2.2]; omega

/-! ## The two results as functions of the whole arrays -/

/-- The tree's result array: the row-wise result of each feature row, on the arrays as the region finds them. -/
def GP (c : Dev nD) : S65536x8.Idx → EReal := fun i =>
  rowP ⟨V m c main_v7, V m c main_arg2, V m c main_v24, V m c main_arg4, V m c main_v53, V m c main_arg6, V m c main_arg7⟩
    (fun k => V m c main_arg0 (ix2 (⟨(i 0).val, idx2_lt0 i⟩ : Fin 65536) k)) ⟨(i 1).val, idx2_lt1 i⟩

/-- The critic's result array. -/
def GV (c : Dev nD) : S65536x1.Idx → EReal := fun i =>
  rowV (fun k => V m c main_arg0 (ix2 (⟨(i 0).val, idx2_lt0 i⟩ : Fin 65536) k))
    (V m c main_arg8) (V m c main_arg9) (V m c main_arg10) (V m c main_arg11)

/-- Row p of point t's feature block is row 2048·t + p of the features. -/
theorem row_blk (c : Dev nD) (t : Fin cfg0.N) (p : Fin 2048) (R : Fin 65536) (hR : R.val = t.val * 2048 + p.val) :
    KerPay.row (iblk m c 0 t) p = fun k => V m c main_arg0 (ix2 R k) := by
  funext k
  show V m c main_arg0 (((cfg0.win 0).blk t).view.emb (ix2 p k)) = V m c main_arg0 (ix2 R k)
  refine congrArg _ (funext fun a => Fin.ext ?_)
  match a with
  | ⟨0, _⟩ => show win0_0.index t (0 : Fin 2) * 2048 + 1 * p.val = R.val; rw [(idx_facts t).1]; omega
  | ⟨1, _⟩ => show win0_0.index t (1 : Fin 2) * 261 + 1 * k.val = k.val; rw [(idx_facts t).2.1]; omega

/-- WHAT POINT t WRITES BACK to the tree's result is block t of `GP`. -/
theorem flushedP_eq (c : Dev nD) (t : Fin cfg0.N) :
    (dats m 0 c).flushed 12 t = ((cfg0.win 12).blk t).view.read (Elt Ideal) (GP m c) := by
  show (cfg0.win 12).cut (grid0.coords t) ((dats m 0 c).after 12 t) = _
  rw [after0_12, outP_eq]
  funext j
  obtain ⟨p, cc, rfl⟩ : ∃ (p : Fin 2048) (cc : Fin 8), j = ix2 p cc := ⟨j 0, j 1, eq_ix2 j⟩
  refine (KerPay.blockP_at (iblk m c 0 t) (iblk m c 1 t) (iblk m c 2 t) (iblk m c 3 t) (iblk m c 4 t) (iblk m c 5 t)
    (iblk m c 6 t) (iblk m c 7 t) p cc).trans ?_
  rw [iblk1, iblk2, iblk3, iblk4, iblk5, iblk6, iblk7]
  show _ = GP m c (((cfg0.win 12).blk t).view.emb (ix2 p cc))
  unfold GP
  have h0 : ((((cfg0.win 12).blk t).view.emb (ix2 p cc)) 0).val = t.val * 2048 + p.val := by
    show win0_12.index t (0 : Fin 2) * 2048 + 1 * p.val = _; rw [(idx_facts t).2.2.1]; omega
  have h1 : ((((cfg0.win 12).blk t).view.emb (ix2 p cc)) 1).val = cc.val := by
    show win0_12.index t (1 : Fin 2) * 8 + 1 * cc.val = _; rw [(idx_facts t).2.2.2.1]; omega
  rw [row_blk m c t p ⟨((((cfg0.win 12).blk t).view.emb (ix2 p cc)) 0).val, idx2_lt0 (((cfg0.win 12).blk t).view.emb (ix2 p cc))⟩ h0]
  exact congrArg _ (Fin.ext h1.symm)

/-- WHAT POINT t WRITES BACK to the critic's result is block t of `GV`. -/
theorem flushedV_eq (c : Dev nD) (t : Fin cfg0.N) :
    (dats m 0 c).flushed 13 t = ((cfg0.win 13).blk t).view.read (Elt Ideal) (GV m c) := by
  show (cfg0.win 13).cut (grid0.coords t) ((dats m 0 c).after 13 t) = _
  rw [after0_13, outV_eq]
  funext j
  obtain ⟨p, u, rfl⟩ : ∃ (p : Fin 2048) (u : Fin 1), j = ix2 p u := ⟨j 0, j 1, eq_ix2 j⟩
  refine (KerPay.blockV_at (iblk m c 0 t) (iblk m c 8 t) (iblk m c 9 t) (iblk m c 10 t) (iblk m c 11 t) p u).trans ?_
  rw [iblk8, iblk9, iblk10, iblk11]
  show _ = GV m c (((cfg0.win 13).blk t).view.emb (ix2 p u))
  unfold GV
  have h0 : ((((cfg0.win 13).blk t).view.emb (ix2 p u)) 0).val = t.val * 2048 + p.val := by
    show win0_13.index t (0 : Fin 2) * 2048 + 1 * p.val = _; rw [(idx_facts t).2.2.2.2.1]; omega
  rw [row_blk m c t p ⟨((((cfg0.win 13).blk t).view.emb (ix2 p u)) 0).val, idx2_lt0 (((cfg0.win 13).blk t).view.emb (ix2 p u))⟩ h0]

/-! ## The blocks tile the arrays -/

theorem mem_blkP (t : Fin cfg0.N) (i : S65536x8.Idx) :
    i ∈ ((cfg0.win 12).blk t).view.set ↔ ∀ a : Fin 2, win0_12.index t a * S2048x8.size a ≤ (i a).val
      ∧ (i a).val < win0_12.index t a * S2048x8.size a + S2048x8.size a := by
  show i ∈ ((View.whole main_v54_0).slice (win0_12.rect t)).set ↔ _
  rw [View.set_slice_whole, Rect.mem_set_unit]
  exact Iff.rfl

theorem mem_blkV (t : Fin cfg0.N) (i : S65536x1.Idx) :
    i ∈ ((cfg0.win 13).blk t).view.set ↔ ∀ a : Fin 2, win0_13.index t a * S2048x1.size a ≤ (i a).val
      ∧ (i a).val < win0_13.index t a * S2048x1.size a + S2048x1.size a := by
  show i ∈ ((View.whole main_v54_1).slice (win0_13.rect t)).set ↔ _
  rw [View.set_slice_whole, Rect.mem_set_unit]
  exact Iff.rfl

/-- Row R of the tree's result lies in the block of point R / 2048. -/
theorem coverP (i : S65536x8.Idx) :
    ∃ t : Fin cfg0.N, (cfg0.win 12).flush t = true ∧ i ∈ ((cfg0.win 12).blk t).view.set := by
  have hi0 : (i 0).val < 65536 := (i 0).isLt
  have hi1 : (i 1).val < 8 := (i 1).isLt
  have hN : cfg0.N = 32 := N_0
  let t : Fin cfg0.N := ⟨(i 0).val / 2048, by rw [hN]; omega⟩
  refine ⟨t, flush0_12 t, ?_⟩
  rw [mem_blkP]
  have q0 : win0_12.index t (0 : Fin 2) = (i 0).val / 2048 := (idx_facts t).2.2.1
  have q1 : win0_12.index t (1 : Fin 2) = 0 := (idx_facts t).2.2.2.1
  intro a
  match a with
  | ⟨0, _⟩ => show win0_12.index t (0 : Fin 2) * 2048 ≤ (i 0).val ∧ (i 0).val < win0_12.index t (0 : Fin 2) * 2048 + 2048; omega
  | ⟨1, _⟩ => show win0_12.index t (1 : Fin 2) * 8 ≤ (i 1).val ∧ (i 1).val < win0_12.index t (1 : Fin 2) * 8 + 8; omega

/-- Row R of the critic's result lies in the block of point R / 2048. -/
theorem coverV (i : S65536x1.Idx) :
    ∃ t : Fin cfg0.N, (cfg0.win 13).flush t = true ∧ i ∈ ((cfg0.win 13).blk t).view.set := by
  have hi0 : (i 0).val < 65536 := (i 0).isLt
  have hi1 : (i 1).val < 1 := (i 1).isLt
  have hN : cfg0.N = 32 := N_0
  let t : Fin cfg0.N := ⟨(i 0).val / 2048, by rw [hN]; omega⟩
  refine ⟨t, flush0_13 t, ?_⟩
  rw [mem_blkV]
  have q0 : win0_13.index t (0 : Fin 2) = (i 0).val / 2048 := (idx_facts t).2.2.2.2.1
  have q1 : win0_13.index t (1 : Fin 2) = 0 := (idx_facts t).2.2.2.2.2.1
  intro a
  match a with
  | ⟨0, _⟩ => show win0_13.index t (0 : Fin 2) * 2048 ≤ (i 0).val ∧ (i 0).val < win0_13.index t (0 : Fin 2) * 2048 + 2048; omega
  | ⟨1, _⟩ => show win0_13.index t (1 : Fin 2) * 1 ≤ (i 1).val ∧ (i 1).val < win0_13.index t (1 : Fin 2) * 1 + 1; omega

/-! ## The arrays after the run -/

theorem finalP (c : Dev nD) : (dats m 0 c).arrAt 12 cfg0.N = GP m c :=
  (dats m 0 c).arrAt_eq_of_cover 12 (GP m c) (fun t _ => flushedP_eq m c t) coverP

theorem finalV (c : Dev nD) : (dats m 0 c).arrAt 13 cfg0.N = GV m c :=
  (dats m 0 c).arrAt_eq_of_cover 13 (GV m c) (fun t _ => flushedV_eq m c t) coverV

/-- After the run the tree's result array is what the bookkeeping computes for window 12, -/
theorem postP (r : PUnit × MemSt nD τ sig (Elt Ideal)) (h : Pipeline.FramePost cfgs (dats m) 0 (V m) r) (c : Dev nD) :
    r.2.mem ((c.tc : Thread nD τ).loc main_v54_0) = (dats m 0 c).arrAt 12 cfg0.N :=
  (h c).1 12

/-- and the critic's for window 13. -/
theorem postV (r : PUnit × MemSt nD τ sig (Elt Ideal)) (h : Pipeline.FramePost cfgs (dats m) 0 (V m) r) (c : Dev nD) :
    r.2.mem ((c.tc : Thread nD τ).loc main_v54_1) = (dats m 0 c).arrAt 13 cfg0.N :=
  (h c).1 13

/-- After the run argument 0 is as launched. -/
theorem kept_arg0 (r : PUnit × MemSt nD τ sig (Elt Ideal)) (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))

/-- After the run argument 1 is as launched. -/
theorem kept_arg1 (r : PUnit × MemSt nD τ sig (Elt Ideal)) (h : Pipeline.FramePost cfgs (dats m) 0 (V m) r) (c : Dev nD) :
    r.2.mem ((c.tc : Thread nD τ).loc main_arg1) = m ((c.tc : Thread nD τ).loc main_arg1) :=
  ((h c).2 main_arg1 (Pipeline.mem_restRefs_of main_arg1 (by decide) (by decide))).trans (V_main_arg1 m c)

/-- After the run argument 2 is as launched. -/
theorem kept_arg2 (r : PUnit × MemSt nD τ sig (Elt Ideal)) (h : Pipeline.FramePost cfgs (dats m) 0 (V m) r) (c : Dev nD) :
    r.2.mem ((c.tc : Thread nD τ).loc main_arg2) = m ((c.tc : Thread nD τ).loc main_arg2) :=
  ((h c).1 2).trans (((dats m 0 c).arrAt_in 2 rfl _).trans ((A_eq m c 2).trans (V_main_arg2 m c)))

/-- After the run argument 3 is as launched. -/
theorem kept_arg3 (r : PUnit × MemSt nD τ sig (Elt Ideal)) (h : Pipeline.FramePost cfgs (dats m) 0 (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_main_arg3 m c)

/-- After the run argument 4 is as launched. -/
theorem kept_arg4 (r : PUnit × MemSt nD τ sig (Elt Ideal)) (h : Pipeline.FramePost cfgs (dats m) 0 (V m) r) (c : Dev nD) :
    r.2.mem ((c.tc : Thread nD τ).loc main_arg4) = m ((c.tc : Thread nD τ).loc main_arg4) :=
  ((h c).1 4).trans (((dats m 0 c).arrAt_in 4 rfl _).trans ((A_eq m c 4).trans (V_main_arg4 m c)))

/-- After the run argument 5 is as launched. -/
theorem kept_arg5 (r : PUnit × MemSt nD τ sig (Elt Ideal)) (h : Pipeline.FramePost cfgs (dats m) 0 (V m) r) (c : Dev nD) :
    r.2.mem ((c.tc : Thread nD τ).loc main_arg5) = m ((c.tc : Thread nD τ).loc main_arg5) :=
  ((h c).2 main_arg5 (Pipeline.mem_restRefs_of main_arg5 (by decide) (by decide))).trans (V_main_arg5 m c)

/-- After the run argument 6 is as launched. -/
theorem kept_arg6 (r : PUnit × MemSt nD τ sig (Elt Ideal)) (h : Pipeline.FramePost cfgs (dats m) 0 (V m) r) (c : Dev nD) :
    r.2.mem ((c.tc : Thread nD τ).loc main_arg6) = m ((c.tc : Thread nD τ).loc main_arg6) :=
  ((h c).1 6).trans (((dats m 0 c).arrAt_in 6 rfl _).trans ((A_eq m c 6).trans (V_main_arg6 m c)))

/-- After the run argument 7 is as launched. -/
theorem kept_arg7 (r : PUnit × MemSt nD τ sig (Elt Ideal)) (h : Pipeline.FramePost cfgs (dats m) 0 (V m) r) (c : Dev nD) :
    r.2.mem ((c.tc : Thread nD τ).loc main_arg7) = m ((c.tc : Thread nD τ).loc main_arg7) :=
  ((h c).1 7).trans (((dats m 0 c).arrAt_in 7 rfl _).trans ((A_eq m c 7).trans (V_main_arg7 m c)))

/-- After the run argument 8 is as launched. -/
theorem kept_arg8 (r : PUnit × MemSt nD τ sig (Elt Ideal)) (h : Pipeline.FramePost cfgs (dats m) 0 (V m) r) (c : Dev nD) :
    r.2.mem ((c.tc : Thread nD τ).loc main_arg8) = m ((c.tc : Thread nD τ).loc main_arg8) :=
  ((h c).1 8).trans (((dats m 0 c).arrAt_in 8 rfl _).trans ((A_eq m c 8).trans (V_main_arg8 m c)))

/-- After the run argument 9 is as launched. -/
theorem kept_arg9 (r : PUnit × MemSt nD τ sig (Elt Ideal)) (h : Pipeline.FramePost cfgs (dats m) 0 (V m) r) (c : Dev nD) :
    r.2.mem ((c.tc : Thread nD τ).loc main_arg9) = m ((c.tc : Thread nD τ).loc main_arg9) :=
  ((h c).1 9).trans (((dats m 0 c).arrAt_in 9 rfl _).trans ((A_eq m c 9).trans (V_main_arg9 m c)))

/-- After the run argument 10 is as launched. -/
theorem kept_arg10 (r : PUnit × MemSt nD τ sig (Elt Ideal)) (h : Pipeline.FramePost cfgs (dats m) 0 (V m) r) (c : Dev nD) :
    r.2.mem ((c.tc : Thread nD τ).loc main_arg10) = m ((c.tc : Thread nD τ).loc main_arg10) :=
  ((h c).1 10).trans (((dats m 0 c).arrAt_in 10 rfl _).trans ((A_eq m c 10).trans (V_main_arg10 m c)))

/-- After the run argument 11 is as launched. -/
theorem kept_arg11 (r : PUnit × MemSt nD τ sig (Elt Ideal)) (h : Pipeline.FramePost cfgs (dats m) 0 (V m) r) (c : Dev nD) :
    r.2.mem ((c.tc : Thread nD τ).loc main_arg11) = m ((c.tc : Thread nD τ).loc main_arg11) :=
  ((h c).1 11).trans (((dats m 0 c).arrAt_in 11 rfl _).trans ((A_eq m c 11).trans (V_main_arg11 m c)))

/-- THE KERNEL'S RUN, read: every weakly fair execution terminates with the two result arrays at `GP` and `GV` of the
    arrays the region finds, and every argument as launched. -/
theorem run : θ_run defs (onTc (τ := τ) (main (F := Ideal))) ⟨m, fun _ => 0, ρ⟩ fun r => ∀ c : Dev nD,
      r.2.mem ((c.tc : Thread nD τ).loc main_v54_0) = GP m c
      ∧ r.2.mem ((c.tc : Thread nD τ).loc main_v54_1) = GV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨(postP m r h c).trans (finalP m c), (postV m r h c).trans (finalV m c),
      kept_arg0 m r h c, kept_arg1 m r h c, kept_arg2 m r h c, kept_arg3 m r h c, kept_arg4 m r h c, kept_arg5 m r h c, kept_arg6 m r h c, kept_arg7 m r h c, kept_arg8 m r h c, kept_arg9 m r h c, kept_arg10 m r h c, kept_arg11 m r h c⟩)
    (run_main m ρ)

end Cert.KernelIdeal.KerValue

end
-- ==== Proof.HostWSpec.lean ====
/-
  The combined weight matrix of one level, entry by entry.

  A level with C groups carries weights w of C rows and 5 + L columns: five columns that multiply five features
  shared by all groups, then L columns that multiply the group's own L features. All groups' own features lie side
  by side in one row of C·L entries, group n's in positions n·L … n·L + L − 1. The kernel wants ONE matrix of
  5 + C·L rows and C columns, so that a single product of the feature row with it evaluates all C groups at once. Its
  first five rows are the first five columns of w, transposed. Below them the remaining weights are laid out
  block-diagonally: column n is zero except on the rows of group n's own features, rows 5 + n·L … 5 + n·L + L − 1,
  where it carries w's row n from column 5 on. (With C·L = 256 the matrix has 261 rows.)
-/
import Idealize.ShloMosaic.Lib.ValueIdx

noncomputable section

namespace Cert.HostWSpec

open Idealize.ShloMosaic Idealize.ShloMosaic.ValueIdx

/-- Entry (k, n) of the combined matrix: for k < 5 the weight w(n, k); for k = 5 + j with j among group n's
    own positions n·L ≤ j < n·L + L the weight w(n, 5 + (j − n·L)); zero elsewhere. -/
def wcomb {C L : ℕ} (w : (⟨2, ![C, 5 + L]⟩ : Shape).Idx → EReal) : (⟨2, ![261, C]⟩ : Shape).Idx → EReal :=
  fun i =>
    if h5 : (i 0).val < 5 then w (ix2 (i 1) ⟨(i 0).val, by omega⟩)
    else if hb : (i 1).val * L ≤ (i 0).val - 5 ∧ (i 0).val - 5 < (i 1).val * L + L then
      w (ix2 (i 1) ⟨5 + ((i 0).val - 5 - (i 1).val * L), by omega⟩)
    else 0

/-- The upper five rows. -/
theorem wcomb_top {C L : ℕ} (w : (⟨2, ![C, 5 + L]⟩ : Shape).Idx → EReal) (k : Fin 261) (n : Fin C) (q : Fin (5 + L))
    (hk : k.val < 5) (hq : q.val = k.val) : wcomb w (ix2 k n) = w (ix2 n q) := by
  unfold wcomb
  rw [dif_pos (show ((ix2 k n : (⟨2, ![261, C]⟩ : Shape).Idx) 0).val < 5 from hk)]
  exact congrArg (fun t => w (ix2 n t)) (Fin.ext hq.symm)

/-- A row inside the column's own block. -/
theorem wcomb_block {C L : ℕ} (w : (⟨2, ![C, 5 + L]⟩ : Shape).Idx → EReal) (k : Fin 261) (n : Fin C) (q : Fin (5 + L))
    (hk : 5 ≤ k.val) (h1 : n.val * L ≤ k.val - 5) (h2 : k.val - 5 < n.val * L + L)
    (hq : q.val = 5 + (k.val - 5 - n.val * L)) : wcomb w (ix2 k n) = w (ix2 n q) := by
  unfold wcomb
  rw [dif_neg (show ¬ ((ix2 k n : (⟨2, ![261, C]⟩ : Shape).Idx) 0).val < 5 from by show ¬ k.val < 5; omega),
    dif_pos (show ((ix2 k n : (⟨2, ![261, C]⟩ : Shape).Idx) 1).val * L ≤ ((ix2 k n : (⟨2, ![261, C]⟩ : Shape).Idx) 0).val - 5 ∧
      ((ix2 k n : (⟨2, ![261, C]⟩ : Shape).Idx) 0).val - 5 < ((ix2 k n : (⟨2, ![261, C]⟩ : Shape).Idx) 1).val * L + L from ⟨h1, h2⟩)]
  exact congrArg (fun t => w (ix2 n t)) (Fin.ext hq.symm)

/-- A row below the first five and outside the column's block. -/
theorem wcomb_off {C L : ℕ} (w : (⟨2, ![C, 5 + L]⟩ : Shape).Idx → EReal) (k : Fin 261) (n : Fin C)
    (hk : 5 ≤ k.val) (h : ¬ (n.val * L ≤ k.val - 5 ∧ k.val - 5 < n.val * L + L)) : wcomb w (ix2 k n) = 0 := by
  unfold wcomb
  rw [dif_neg (show ¬ ((ix2 k n : (⟨2, ![261, C]⟩ : Shape).Idx) 0).val < 5 from by show ¬ k.val < 5; omega),
    dif_neg (show ¬ (((ix2 k n : (⟨2, ![261, C]⟩ : Shape).Idx) 1).val * L ≤ ((ix2 k n : (⟨2, ![261, C]⟩ : Shape).Idx) 0).val - 5 ∧
      ((ix2 k n : (⟨2, ![261, C]⟩ : Shape).Idx) 0).val - 5 < ((ix2 k n : (⟨2, ![261, C]⟩ : Shape).Idx) 1).val * L + L) from h)]

end Cert.HostWSpec

end
-- ==== Proof.LibScatterSet.lean ====
/-
  A scatter that SETS (its body returns the update) read at an index.

  `Host.scatter` is a left fold over the update indices in row-major order; each step whose target lies inside the
  operand overwrites ONE element. When the targets are pairwise distinct, the order does not matter to the
  value at an index: an index that is the target of update `j` ends at `upd j`, an index that is no update's
  target keeps the operand's element. The fold lemmas are stated for any list of steps, any index type and
  any combining function; the two scatter lemmas for any operand, index and update shapes.
-/
import Idealize.ShloMosaic.PureOps.ShapeOps

namespace Idealize.ShloMosaic.ScatterSet

/-- A fold of point updates, at an index NO step targets, keeps the starting function's value there. The step is any
    function that overwrites its target (`hsome`) or does nothing (`hnone`). -/
theorem foldl_apply_of_forall_ne {κ ι α : Type} [DecidableEq ι] (tgt : κ → Option ι) (f : α → α → α) (v : κ → α)
    (step : (ι → α) → κ → (ι → α))
    (hsome : ∀ r k i, tgt k = some i → step r k = fun j => if j = i then f (r i) (v k) else r j)
    (hnone : ∀ r k, tgt k = none → step r k = r) (i' : ι) :
    ∀ (l : List κ) (x : ι → α), (∀ k ∈ l, tgt k ≠ some i') → l.foldl step x i' = x i'
  | [], _, _ => rfl
  | k :: l, x, h => by
    rw [List.foldl_cons, foldl_apply_of_forall_ne tgt f v step hsome hnone i' l (step x k)
      (fun k' hk' => h k' (List.mem_cons_of_mem _ hk'))]
    cases ht : tgt k with
    | none => rw [hnone x k ht]
    | some i =>
      rw [hsome x k i ht]
      have hne : i' ≠ i := fun e => h k List.mem_cons_self (by rw [ht, e])
      exact if_neg hne

/-- A fold of point updates over a list without repetition, at the index that step `k` and no other step targets, ends
    at the combining function of the starting value there and step `k`'s value. -/
theorem foldl_apply_of_unique {κ ι α : Type} [DecidableEq ι] (tgt : κ → Option ι) (f : α → α → α) (v : κ → α)
    (step : (ι → α) → κ → (ι → α))
    (hsome : ∀ r k i, tgt k = some i → step r k = fun j => if j = i then f (r i) (v k) else r j)
    (hnone : ∀ r k, tgt k = none → step r k = r) (i' : ι) (k : κ) (hk : tgt k = some i') :
    ∀ (l : List κ) (x : ι → α), l.Nodup → k ∈ l → (∀ k' ∈ l, tgt k' = some i' → k' = k) →
      l.foldl step x i' = f (x i') (v k)
  | [], _, _, hm, _ => absurd hm List.not_mem_nil
  | a :: l, x, hnd, hm, huniq => by
    rw [List.foldl_cons]
    have hnd' := List.nodup_cons.mp hnd
    by_cases hak : a = k
    · subst hak
      rw [foldl_apply_of_forall_ne tgt f v step hsome hnone i' l (step x a) (fun k' hk' e =>
        hnd'.1 ((huniq k' (List.mem_cons_of_mem _ hk') e) ▸ hk')), hsome x a i' hk]
      exact if_pos rfl
    · have hkl : k ∈ l := (List.mem_cons.mp hm).resolve_left (fun e => hak e.symm)
      rw [foldl_apply_of_unique tgt f v step hsome hnone i' k hk l (step x a) hnd'.2 hkl
        (fun k' hk' e => huniq k' (List.mem_cons_of_mem _ hk') e)]
      have hta : tgt a ≠ some i' := fun e => hak (huniq a List.mem_cons_self e)
      cases ht : tgt a with
      | none => rw [hnone x a ht]
      | some i =>
        rw [hsome x a i ht]
        have hne : i' ≠ i := fun e => hta (by rw [ht, e])
        exact congrArg (f · (v k)) (if_neg hne)

variable {s si u : Shape} {α : Type} {w : Nat}

/-- The step of `Host.scatter`'s fold, as the fold lemmas want it: on a target inside the operand it overwrites. -/
private theorem step_some (d : ScatterDims s si u) (f : α → α → α) (idx : IVec si w) (upd : u.Idx → α)
    (r : s.Idx → α) (n : Fin u.numel) (i : s.Idx) (h : d.resultIdx? (u.rowMajor.symm n) idx = some i) :
    (match d.resultIdx? (u.rowMajor.symm n) idx with
      | some i => fun i' => if i' = i then f (r i) (upd (u.rowMajor.symm n)) else r i'
      | none => r) = fun j => if j = i then f (r i) (upd (u.rowMajor.symm n)) else r j := by
  rw [h]

/-- and on a target outside it does nothing. -/
private theorem step_none (d : ScatterDims s si u) (f : α → α → α) (idx : IVec si w) (upd : u.Idx → α)
    (r : s.Idx → α) (n : Fin u.numel) (h : d.resultIdx? (u.rowMajor.symm n) idx = none) :
    (match d.resultIdx? (u.rowMajor.symm n) idx with
      | some i => fun i' => if i' = i then f (r i) (upd (u.rowMajor.symm n)) else r i'
      | none => r) = r := by
  rw [h]

/-- A setting scatter whose update `j` lands at `g j`, `g` injective, read AT a landing index: the update's element. -/
theorem scatter_set_apply_target (d : ScatterDims s si u) (x : s.Idx → α) (idx : IVec si w) (upd : u.Idx → α)
    (g : u.Idx → s.Idx) (hg : Function.Injective g) (htgt : ∀ j, d.resultIdx? j idx = some (g j)) (j : u.Idx) :
    Host.scatter d (fun _ b => b) x idx upd (g j) = upd j := by
  unfold Host.scatter
  refine (foldl_apply_of_unique (fun n : Fin u.numel => d.resultIdx? (u.rowMajor.symm n) idx) (fun _ b => b)
    (fun n => upd (u.rowMajor.symm n)) _
    (fun r n i hn => step_some d (fun _ b => b) idx upd r n i hn)
    (fun r n hn => step_none d (fun _ b => b) idx upd r n hn)
    (g j) (u.rowMajor j) (by rw [Equiv.symm_apply_apply]; exact htgt j)
    (List.finRange u.numel) x (List.nodup_finRange _) (List.mem_finRange _)
    (fun n _ hn => by
      rw [htgt] at hn
      have e := hg (Option.some.inj hn)
      rw [← e, Equiv.apply_symm_apply])).trans ?_
  show upd (u.rowMajor.symm (u.rowMajor j)) = upd j
  rw [Equiv.symm_apply_apply]

/-- The same scatter read at an index that is NO update's landing index: the operand's element. -/
theorem scatter_set_apply_other (d : ScatterDims s si u) (x : s.Idx → α) (idx : IVec si w) (upd : u.Idx → α)
    (g : u.Idx → s.Idx) (htgt : ∀ j, d.resultIdx? j idx = some (g j)) (i : s.Idx) (hi : ∀ j, g j ≠ i) :
    Host.scatter d (fun _ b => b) x idx upd i = x i := by
  unfold Host.scatter
  exact foldl_apply_of_forall_ne (fun n : Fin u.numel => d.resultIdx? (u.rowMajor.symm n) idx) (fun _ b => b)
    (fun n => upd (u.rowMajor.symm n)) _
    (fun r n i hn => step_some d (fun _ b => b) idx upd r n i hn)
    (fun r n hn => step_none d (fun _ b => b) idx upd r n hn)
    i (List.finRange u.numel) x (fun n _ hn => by
      rw [htgt] at hn
      exact hi _ (Option.some.inj hn))

end Idealize.ShloMosaic.ScatterSet
-- ==== Proof.HostWCols.lean ====
/-
  Pieces of a block-diagonal weight matrix, each read at an index; all for arbitrary extents and element types.

  The matrix is put together from: the first five columns of a weight array, transposed; single rows of the remaining
  columns, each regarded as a vector; a vector of length N holding such a row at a given offset and a background value
  elsewhere (written by a scatter whose combining function returns the update, from one start index — or, when the
  row fills the whole vector, from no index at all); four such columns put side by side; and the five transposed
  rows put on top of the block of columns. Every lemma here says which entry of its operand an entry of the result is.
-/
import Idealize.ShloMosaic.Lib.ValueIdx
import Idealize.ShloMosaic.Lib.ValueLayout
import Idealize.ShloMosaic.Lib.Pipeline.Value
import proofs.«146547_j64330020159639_2_alg».proof.Proof.LibScatterSet

noncomputable section

namespace Cert.HostWCols

open Idealize.ShloMosaic Idealize.ShloMosaic.ValueIdx

variable {α : Type}

/-! ## A window written into a vector at a start index -/

/-- The dimension numbers of a scatter along the only axis of a vector from ONE start index: the update is a window. -/
abbrev winDims {N L : ℕ} (hwf : ScatterDims.WF ⟨1, ![N]⟩ ⟨1, ![1]⟩ ⟨1, ![L]⟩ [0] [] [0] 0) :
    ScatterDims ⟨1, ![N]⟩ ⟨1, ![1]⟩ ⟨1, ![L]⟩ :=
  { updateWindowDims := [0], insertedWindowDims := [], scatterDimsToOperandDims := [0], indexVectorDim := 0, wf := hwf }

/-- The window starts at the one start index, read as a signed number. -/
theorem winDims_start {N L : ℕ} (hwf : ScatterDims.WF ⟨1, ![N]⟩ ⟨1, ![1]⟩ ⟨1, ![L]⟩ [0] [] [0] 0)
    (idx : IVec ⟨1, ![1]⟩ 32) (j : (⟨1, ![L]⟩ : Shape).Idx) (a : Fin 1) :
    (winDims hwf).start j idx a = (idx (ix1 0)).toInt := by
  obtain rfl : a = 0 := Subsingleton.elim _ _
  unfold ScatterDims.start
  rw [dif_pos (show (0 : Fin 1) ∈ ([0] : List (Fin 1)) from List.mem_singleton.2 rfl)]
  refine congrArg (fun t => (idx t).toInt) (funext fun b => ?_)
  obtain rfl : b = 0 := Subsingleton.elim _ _
  exact (Subsingleton.elim _ _ : (_ : Fin 1) = _)

/-- The position inside the window is the update's coordinate. -/
theorem winDims_window {N L : ℕ} (hwf : ScatterDims.WF ⟨1, ![N]⟩ ⟨1, ![1]⟩ ⟨1, ![L]⟩ [0] [] [0] 0)
    (j : (⟨1, ![L]⟩ : Shape).Idx) (a : Fin 1) :
    (winDims hwf).window j a = (j 0).val := by
  obtain rfl : a = 0 := Subsingleton.elim _ _
  unfold ScatterDims.window
  have h0 : (0 : Fin (⟨1, ![N]⟩ : Shape).rank) ∈ (winDims hwf).sKept :=
    show (0 : Fin 1) ∈ (List.finRange 1).filter (fun x => x ∉ ([] : List (Fin 1))) from by decide
  rw [dif_pos h0]
  rfl

/-- Update element `j` lands at position start + j when the window fits. -/
theorem winDims_lands {N L : ℕ} (hwf : ScatterDims.WF ⟨1, ![N]⟩ ⟨1, ![1]⟩ ⟨1, ![L]⟩ [0] [] [0] 0)
    (idx : IVec ⟨1, ![1]⟩ 32) (st : ℕ) (hst : (idx (ix1 0)).toInt = (st : ℤ)) (hfit : st + L ≤ N) (j : Fin L) :
    (winDims hwf).resultIdx? (ix1 j) idx = some (ix1 ⟨st + j.val, by omega⟩) := by
  have H : ∀ a : Fin 1, (winDims hwf).start (ix1 j) idx a + (winDims hwf).window (ix1 j) a = ((st + j.val : ℕ) : ℤ) := by
    intro a
    rw [winDims_start, winDims_window, hst]
    show (st : ℤ) + ((j.val : ℕ) : ℤ) = _
    omega
  unfold ScatterDims.resultIdx?
  rw [dif_pos (fun a => by
    rw [H a]
    refine ⟨by omega, ?_⟩
    obtain rfl : a = 0 := Subsingleton.elim _ _
    show ((st + j.val : ℕ) : ℤ) < ((N : ℕ) : ℤ)
    have := j.isLt
    omega)]
  refine congrArg some (funext fun a => Fin.ext ?_)
  obtain rfl : a = 0 := Subsingleton.elim _ _
  show ((winDims hwf).start (ix1 j) idx 0 + (winDims hwf).window (ix1 j) 0).toNat = st + j.val
  rw [H 0]
  omega

/-- Where update element `j` of the window lands, as a function of the update index. -/
abbrev winTarget {N L : ℕ} (st : ℕ) (hfit : st + L ≤ N) (j : (⟨1, ![L]⟩ : Shape).Idx) : (⟨1, ![N]⟩ : Shape).Idx :=
  ix1 ⟨st + (j 0).val, by have hj : (j 0).val < L := (j 0).isLt; omega⟩

theorem winDims_targets {N L : ℕ} (hwf : ScatterDims.WF ⟨1, ![N]⟩ ⟨1, ![1]⟩ ⟨1, ![L]⟩ [0] [] [0] 0)
    (idx : IVec ⟨1, ![1]⟩ 32) (st : ℕ) (hst : (idx (ix1 0)).toInt = (st : ℤ)) (hfit : st + L ≤ N)
    (j : (⟨1, ![L]⟩ : Shape).Idx) : (winDims hwf).resultIdx? j idx = some (winTarget st hfit j) := by
  obtain ⟨a, rfl⟩ : ∃ a : Fin L, j = ix1 a := ⟨j 0, eq_ix1 j⟩
  exact winDims_lands hwf idx st hst hfit a

/-- A position inside the window holds the update's element. -/
theorem window_inside {N L : ℕ} (hwf : ScatterDims.WF ⟨1, ![N]⟩ ⟨1, ![1]⟩ ⟨1, ![L]⟩ [0] [] [0] 0)
    (x : (⟨1, ![N]⟩ : Shape).Idx → α) (idx : IVec ⟨1, ![1]⟩ 32) (upd : (⟨1, ![L]⟩ : Shape).Idx → α)
    (st : ℕ) (hst : (idx (ix1 0)).toInt = (st : ℤ)) (hfit : st + L ≤ N)
    (p : Fin N) (q : Fin L) (hq : st + q.val = p.val) :
    Host.scatter (winDims hwf) (fun _ b => b) x idx upd (ix1 p) = upd (ix1 q) := by
  have hinj : Function.Injective (winTarget (N := N) (L := L) st hfit) := by
    intro j j' e
    have e0 : st + (j 0).val = st + (j' 0).val := congrArg (fun t : (⟨1, ![N]⟩ : Shape).Idx => (t 0).val) e
    rw [eq_ix1 j, eq_ix1 j']
    exact congrArg ix1 (Fin.ext (by omega))
  have hp : (ix1 p : (⟨1, ![N]⟩ : Shape).Idx) = winTarget st hfit (ix1 q) :=
    congrArg ix1 (Fin.ext hq.symm)
  rw [hp]
  exact ScatterSet.scatter_set_apply_target (winDims hwf) x idx upd (winTarget st hfit) hinj
    (winDims_targets hwf idx st hst hfit) (ix1 q)

/-- A position outside the window keeps what was there. -/
theorem window_outside {N L : ℕ} (hwf : ScatterDims.WF ⟨1, ![N]⟩ ⟨1, ![1]⟩ ⟨1, ![L]⟩ [0] [] [0] 0)
    (x : (⟨1, ![N]⟩ : Shape).Idx → α) (idx : IVec ⟨1, ![1]⟩ 32) (upd : (⟨1, ![L]⟩ : Shape).Idx → α)
    (st : ℕ) (hst : (idx (ix1 0)).toInt = (st : ℤ)) (hfit : st + L ≤ N)
    (p : Fin N) (hp : ¬ (st ≤ p.val ∧ p.val < st + L)) :
    Host.scatter (winDims hwf) (fun _ b => b) x idx upd (ix1 p) = x (ix1 p) := by
  refine ScatterSet.scatter_set_apply_other (winDims hwf) x idx upd (winTarget st hfit)
    (winDims_targets hwf idx st hst hfit) (ix1 p) (fun j e => hp ?_)
  have e0 : st + (j 0).val = p.val := congrArg (fun t : (⟨1, ![N]⟩ : Shape).Idx => (t 0).val) e
  have hj : (j 0).val < L := (j 0).isLt
  omega

/-! ## The whole vector written, from no start index -/

/-- The dimension numbers of a scatter along the only axis of a vector with an EMPTY index array: the update is the
    whole vector, starting at zero. -/
abbrev wholeDims {N : ℕ} (hwf : ScatterDims.WF ⟨1, ![N]⟩ ⟨1, ![0]⟩ ⟨1, ![N]⟩ [0] [] [] 0) :
    ScatterDims ⟨1, ![N]⟩ ⟨1, ![0]⟩ ⟨1, ![N]⟩ :=
  { updateWindowDims := [0], insertedWindowDims := [], scatterDimsToOperandDims := [], indexVectorDim := 0, wf := hwf }

theorem wholeDims_targets {N : ℕ} (hwf : ScatterDims.WF ⟨1, ![N]⟩ ⟨1, ![0]⟩ ⟨1, ![N]⟩ [0] [] [] 0)
    (idx : IVec ⟨1, ![0]⟩ 32) (j : (⟨1, ![N]⟩ : Shape).Idx) : (wholeDims hwf).resultIdx? j idx = some (id j) := by
  have hs : ∀ a : Fin 1, (wholeDims hwf).start j idx a = 0 := by
    intro a
    unfold ScatterDims.start
    rw [dif_neg (show a ∉ ([] : List (Fin 1)) from List.not_mem_nil)]
  have hw : ∀ a : Fin 1, (wholeDims hwf).window j a = (j 0).val := by
    intro a
    obtain rfl : a = 0 := Subsingleton.elim _ _
    unfold ScatterDims.window
    have h0 : (0 : Fin (⟨1, ![N]⟩ : Shape).rank) ∈ (wholeDims hwf).sKept :=
      show (0 : Fin 1) ∈ (List.finRange 1).filter (fun x => x ∉ ([] : List (Fin 1))) from by decide
    rw [dif_pos h0]
    rfl
  unfold ScatterDims.resultIdx?
  rw [dif_pos (fun a => by
    rw [hs a, hw a]
    refine ⟨by omega, ?_⟩
    obtain rfl : a = 0 := Subsingleton.elim _ _
    show (0 : ℤ) + (((j 0).val : ℕ) : ℤ) < ((N : ℕ) : ℤ)
    have : (j 0).val < N := (j 0).isLt
    omega)]
  refine congrArg some (funext fun a => Fin.ext ?_)
  obtain rfl : a = 0 := Subsingleton.elim _ _
  show ((wholeDims hwf).start j idx 0 + (wholeDims hwf).window j 0).toNat = (j 0).val
  rw [hs 0, hw 0]
  omega

/-- Every position holds the update's element. -/
theorem whole_written {N : ℕ} (hwf : ScatterDims.WF ⟨1, ![N]⟩ ⟨1, ![0]⟩ ⟨1, ![N]⟩ [0] [] [] 0)
    (x : (⟨1, ![N]⟩ : Shape).Idx → α) (idx : IVec ⟨1, ![0]⟩ 32) (upd : (⟨1, ![N]⟩ : Shape).Idx → α)
    (i : (⟨1, ![N]⟩ : Shape).Idx) :
    Host.scatter (wholeDims hwf) (fun _ b => b) x idx upd i = upd i :=
  ScatterSet.scatter_set_apply_target (wholeDims hwf) x idx upd id Function.injective_id
    (wholeDims_targets hwf idx) i

/-! ## The pieces cut out of the weight array -/

/-- The first five columns, transposed: entry (k, n) is the array's entry (n, k). -/
theorem head_transposed {C W : ℕ} (w : (⟨2, ![C, W]⟩ : Shape).Idx → α)
    (h1 : (⟨2, ![C, W]⟩ : Shape).Slices ![0, 0] ⟨2, ![C, 5]⟩)
    (h2 : (⟨2, ![C, 5]⟩ : Shape).Transposes [1, 0] ⟨2, ![5, C]⟩) (k : Fin 5) (n : Fin C) (q : Fin W) (hq : q.val = k.val) :
    transpose ⟨2, ![5, C]⟩ [1, 0] (extractStridedSlice ⟨2, ![C, 5]⟩ ![0, 0] w h1) h2 (ix2 k n) = w (ix2 n q) := by
  refine (transpose_apply [1, 0] _ h2 (ix2 k n) (ix2 n k) (fun b => ?_)).trans ?_
  · match b with
    | ⟨0, _⟩ => rfl
    | ⟨1, _⟩ => rfl
  refine extractStridedSlice_apply _ w h1 (ix2 n k) (ix2 n q) (fun a => ?_)
  match a with
  | ⟨0, _⟩ => show n.val = 0 + n.val; omega
  | ⟨1, _⟩ => show q.val = 0 + k.val; omega

/-- Row `o` of the columns from the sixth on, as a vector: entry j is the array's entry (o, 5 + j). -/
theorem tail_row {C L W : ℕ} (w : (⟨2, ![C, W]⟩ : Shape).Idx → α) (o : ℕ)
    (h1 : (⟨2, ![C, W]⟩ : Shape).Slices ![0, 5] ⟨2, ![C, L]⟩)
    (h2 : (⟨2, ![C, L]⟩ : Shape).Slices ![o, 0] ⟨2, ![1, L]⟩)
    (h3 : (⟨2, ![1, L]⟩ : Shape).ShapeCasts ⟨1, ![L]⟩) (j : Fin L) (n : Fin C) (hn : n.val = o) (q : Fin W)
    (hq : q.val = 5 + j.val) :
    shapeCast ⟨1, ![L]⟩ (extractStridedSlice ⟨2, ![1, L]⟩ ![o, 0] (extractStridedSlice ⟨2, ![C, L]⟩ ![0, 5] w h1) h2) h3 (ix1 j)
      = w (ix2 n q) := by
  refine (shapeCast_apply _ h3 (ix1 j) (ix2 (0 : Fin 1) j) ?_).trans ?_
  · rw [Shape.rowMajor_val_two, Shape.rowMajor_val_one]
    show 0 * L + j.val = j.val
    omega
  refine (extractStridedSlice_apply _ _ h2 (ix2 (0 : Fin 1) j) (ix2 n j) (fun a => ?_)).trans ?_
  · match a with
    | ⟨0, _⟩ => show n.val = o + 0; omega
    | ⟨1, _⟩ => show j.val = 0 + j.val; omega
  refine extractStridedSlice_apply _ w h1 (ix2 n j) (ix2 n q) (fun a => ?_)
  match a with
  | ⟨0, _⟩ => show n.val = 0 + n.val; omega
  | ⟨1, _⟩ => show q.val = 5 + j.val; exact hq

/-- The same for an array of ONE row, where no row is cut out first. -/
theorem tail_only_row {L W : ℕ} (w : (⟨2, ![1, W]⟩ : Shape).Idx → α)
    (h1 : (⟨2, ![1, W]⟩ : Shape).Slices ![0, 5] ⟨2, ![1, L]⟩)
    (h3 : (⟨2, ![1, L]⟩ : Shape).ShapeCasts ⟨1, ![L]⟩) (j : Fin L) (q : Fin W) (hq : q.val = 5 + j.val) :
    shapeCast ⟨1, ![L]⟩ (extractStridedSlice ⟨2, ![1, L]⟩ ![0, 5] w h1) h3 (ix1 j) = w (ix2 (0 : Fin 1) q) := by
  refine (shapeCast_apply _ h3 (ix1 j) (ix2 (0 : Fin 1) j) ?_).trans ?_
  · rw [Shape.rowMajor_val_two, Shape.rowMajor_val_one]
    show 0 * L + j.val = j.val
    omega
  refine extractStridedSlice_apply _ w h1 (ix2 (0 : Fin 1) j) (ix2 (0 : Fin 1) q) (fun a => ?_)
  match a with
  | ⟨0, _⟩ => rfl
  | ⟨1, _⟩ => show q.val = 5 + j.val; exact hq

/-! ## Putting the pieces together -/

/-- Two blocks of rows, one on top of the other: a row of the upper block. -/
theorem rows_upper {m1 m2 mt n : ℕ} (x1 : (⟨2, ![m1, n]⟩ : Shape).Idx → α) (x2 : (⟨2, ![m2, n]⟩ : Shape).Idx → α)
    (h : Shape.Concatenates [⟨2, ![m1, n]⟩, ⟨2, ![m2, n]⟩] ⟨2, ![mt, n]⟩ 0)
    (q : Fin mt) (c : Fin n) (r : Fin m1) (hr : r.val = q.val) :
    concatenate ⟨2, ![mt, n]⟩ 0 [⟨⟨2, ![m1, n]⟩, x1⟩, ⟨⟨2, ![m2, n]⟩, x2⟩] h (ix2 q c) = x1 (ix2 r c) :=
  concatenate_pair_apply_left 0 x1 x2 h (ix2 q c) rfl (ix2 r c) (fun b => by
    match b with
    | ⟨0, _⟩ => exact hr
    | ⟨1, _⟩ => rfl)

/-- A row of the lower block. -/
theorem rows_lower {m1 m2 mt n : ℕ} (x1 : (⟨2, ![m1, n]⟩ : Shape).Idx → α) (x2 : (⟨2, ![m2, n]⟩ : Shape).Idx → α)
    (h : Shape.Concatenates [⟨2, ![m1, n]⟩, ⟨2, ![m2, n]⟩] ⟨2, ![mt, n]⟩ 0)
    (q : Fin mt) (c : Fin n) (r : Fin m2) (hr : r.val + m1 = q.val) :
    concatenate ⟨2, ![mt, n]⟩ 0 [⟨⟨2, ![m1, n]⟩, x1⟩, ⟨⟨2, ![m2, n]⟩, x2⟩] h (ix2 q c) = x2 (ix2 r c) :=
  concatenate_pair_apply_right 0 x1 x2 h (ix2 q c) rfl rfl (ix2 r c) (fun b hb => by
    match b with
    | ⟨0, _⟩ => exact absurd rfl hb
    | ⟨1, _⟩ => rfl) hr

/-- Four columns side by side. -/
theorem four_columns {N : ℕ} (u0 u1 u2 u3 : (⟨2, ![N, 1]⟩ : Shape).Idx → α)
    (h : Shape.Concatenates [(⟨2, ![N, 1]⟩ : Shape), ⟨2, ![N, 1]⟩, ⟨2, ![N, 1]⟩, ⟨2, ![N, 1]⟩] ⟨2, ![N, 4]⟩ 1) (p : Fin N) (c : Fin 4) :
    concatenate (⟨2, ![N, 4]⟩ : Shape) 1 [⟨⟨2, ![N, 1]⟩, u0⟩, ⟨⟨2, ![N, 1]⟩, u1⟩, ⟨⟨2, ![N, 1]⟩, u2⟩, ⟨⟨2, ![N, 1]⟩, u3⟩] h (ix2 p c)
      = (![u0, u1, u2, u3] c) (ix2 p (0 : Fin 1)) := by
  have hi : ∀ b : Fin (⟨2, ![N, 1]⟩ : Shape).rank, b.cast (rfl : (⟨2, ![N, 1]⟩ : Shape).rank = (⟨2, ![N, 4]⟩ : Shape).rank) ≠ (1 : Fin 2) →
      ((ix2 p (0 : Fin 1) : (⟨2, ![N, 1]⟩ : Shape).Idx) b).val = ((ix2 p c : (⟨2, ![N, 4]⟩ : Shape).Idx) (b.cast rfl)).val := by
    intro b hb
    match b with
    | ⟨0, _⟩ => rfl
    | ⟨1, _⟩ => exact absurd rfl hb
  match c with
  | ⟨0, _⟩ => exact concatenate_apply_piece 1 [⟨⟨2, ![N, 1]⟩, u0⟩, ⟨⟨2, ![N, 1]⟩, u1⟩, ⟨⟨2, ![N, 1]⟩, u2⟩, ⟨⟨2, ![N, 1]⟩, u3⟩] h _ 0 (by simp) _ u0 rfl rfl 0 (by simp) (ix2 p 0) hi (by rfl)
  | ⟨1, _⟩ => exact concatenate_apply_piece 1 [⟨⟨2, ![N, 1]⟩, u0⟩, ⟨⟨2, ![N, 1]⟩, u1⟩, ⟨⟨2, ![N, 1]⟩, u2⟩, ⟨⟨2, ![N, 1]⟩, u3⟩] h _ 1 (by simp) _ u1 rfl rfl 1 (by simp) (ix2 p 0) hi (by rfl)
  | ⟨2, _⟩ => exact concatenate_apply_piece 1 [⟨⟨2, ![N, 1]⟩, u0⟩, ⟨⟨2, ![N, 1]⟩, u1⟩, ⟨⟨2, ![N, 1]⟩, u2⟩, ⟨⟨2, ![N, 1]⟩, u3⟩] h _ 2 (by simp) _ u2 rfl rfl 2 (by simp) (ix2 p 0) hi (by rfl)
  | ⟨3, _⟩ => exact concatenate_apply_piece 1 [⟨⟨2, ![N, 1]⟩, u0⟩, ⟨⟨2, ![N, 1]⟩, u1⟩, ⟨⟨2, ![N, 1]⟩, u2⟩, ⟨⟨2, ![N, 1]⟩, u3⟩] h _ 3 (by simp) _ u3 rfl rfl 3 (by simp) (ix2 p 0) hi (by rfl)

/-! The same, at each literal column. -/

theorem four_columns_at0 {N : ℕ} (u0 u1 u2 u3 : (⟨2, ![N, 1]⟩ : Shape).Idx → α)
    (h : Shape.Concatenates [(⟨2, ![N, 1]⟩ : Shape), ⟨2, ![N, 1]⟩, ⟨2, ![N, 1]⟩, ⟨2, ![N, 1]⟩] ⟨2, ![N, 4]⟩ 1) (p : Fin N) :
    concatenate (⟨2, ![N, 4]⟩ : Shape) 1 [⟨⟨2, ![N, 1]⟩, u0⟩, ⟨⟨2, ![N, 1]⟩, u1⟩, ⟨⟨2, ![N, 1]⟩, u2⟩, ⟨⟨2, ![N, 1]⟩, u3⟩] h (ix2 p (0 : Fin 4))
      = u0 (ix2 p (0 : Fin 1)) := four_columns u0 u1 u2 u3 h p 0
theorem four_columns_at1 {N : ℕ} (u0 u1 u2 u3 : (⟨2, ![N, 1]⟩ : Shape).Idx → α)
    (h : Shape.Concatenates [(⟨2, ![N, 1]⟩ : Shape), ⟨2, ![N, 1]⟩, ⟨2, ![N, 1]⟩, ⟨2, ![N, 1]⟩] ⟨2, ![N, 4]⟩ 1) (p : Fin N) :
    concatenate (⟨2, ![N, 4]⟩ : Shape) 1 [⟨⟨2, ![N, 1]⟩, u0⟩, ⟨⟨2, ![N, 1]⟩, u1⟩, ⟨⟨2, ![N, 1]⟩, u2⟩, ⟨⟨2, ![N, 1]⟩, u3⟩] h (ix2 p (1 : Fin 4))
      = u1 (ix2 p (0 : Fin 1)) := four_columns u0 u1 u2 u3 h p 1
theorem four_columns_at2 {N : ℕ} (u0 u1 u2 u3 : (⟨2, ![N, 1]⟩ : Shape).Idx → α)
    (h : Shape.Concatenates [(⟨2, ![N, 1]⟩ : Shape), ⟨2, ![N, 1]⟩, ⟨2, ![N, 1]⟩, ⟨2, ![N, 1]⟩] ⟨2, ![N, 4]⟩ 1) (p : Fin N) :
    concatenate (⟨2, ![N, 4]⟩ : Shape) 1 [⟨⟨2, ![N, 1]⟩, u0⟩, ⟨⟨2, ![N, 1]⟩, u1⟩, ⟨⟨2, ![N, 1]⟩, u2⟩, ⟨⟨2, ![N, 1]⟩, u3⟩] h (ix2 p (2 : Fin 4))
      = u2 (ix2 p (0 : Fin 1)) := four_columns u0 u1 u2 u3 h p 2
theorem four_columns_at3 {N : ℕ} (u0 u1 u2 u3 : (⟨2, ![N, 1]⟩ : Shape).Idx → α)
    (h : Shape.Concatenates [(⟨2, ![N, 1]⟩ : Shape), ⟨2, ![N, 1]⟩, ⟨2, ![N, 1]⟩, ⟨2, ![N, 1]⟩] ⟨2, ![N, 4]⟩ 1) (p : Fin N) :
    concatenate (⟨2, ![N, 4]⟩ : Shape) 1 [⟨⟨2, ![N, 1]⟩, u0⟩, ⟨⟨2, ![N, 1]⟩, u1⟩, ⟨⟨2, ![N, 1]⟩, u2⟩, ⟨⟨2, ![N, 1]⟩, u3⟩] h (ix2 p (3 : Fin 4))
      = u3 (ix2 p (0 : Fin 1)) := four_columns u0 u1 u2 u3 h p 3

end Cert.HostWCols

end
-- ==== Proof.LibColumns.lean ====
/-
  Columns, single entries and small stacks read at an index, for any extents and any element type.

  Reading a kernel's re-laid values at an index. The kernel cuts single columns out of a block of rows, views a
  column as a vector and back, reads single entries of the small rotation and translation arrays, and stacks
  per-Gaussian scalars into rows of three and into 2×2 matrices. Each lemma says which entry of the operand an
  entry of the result is; all are about positions only, for any extents and any element type.
-/
import Idealize.ShloMosaic.Lib.Pipeline.Value
import Idealize.ShloMosaic.Lib.ValueIdx
import Idealize.ShloMosaic.Lib.ValueLayout

namespace Cert.Splat.Lay

open Idealize.ShloMosaic Idealize.ShloMosaic.ValueIdx

variable {α : Type}

/-- Column `o` of an `[N, C]` array, cut out as `[N, 1]` and viewed as a vector of length `N`: entry `p` is the
    array's entry `(p, o)`. -/
theorem col_at {N C : ℕ} (o : ℕ) (X : (⟨2, ![N, C]⟩ : Shape).Idx → α)
    (h1 : (⟨2, ![N, C]⟩ : Shape).Slices ![0, o] ⟨2, ![N, 1]⟩)
    (h2 : (⟨2, ![N, 1]⟩ : Shape).ShapeCasts ⟨1, ![N]⟩) (p : Fin N) (k : Fin C) (hk : k.val = o) :
    shapeCast ⟨1, ![N]⟩ (extractStridedSlice ⟨2, ![N, 1]⟩ ![0, o] X h1) h2 (ix1 p) = X (ix2 p k) := by
  refine (shapeCast_apply _ h2 (ix1 p) (ix2 p (0 : Fin 1)) ?_).trans
    (slice2_axis1_apply o X h1 p 0 k (by simpa using hk))
  rw [Shape.rowMajor_val_two, Shape.rowMajor_val_one]
  show p.val * 1 + 0 = p.val
  omega

/-- A vector of length `N` viewed as one column `[N, 1]`: entry `(p, 0)` is the vector's entry `p`. -/
theorem ucol_at {N : ℕ} (v : (⟨1, ![N]⟩ : Shape).Idx → α) (h : (⟨1, ![N]⟩ : Shape).ShapeCasts ⟨2, ![N, 1]⟩)
    (p : Fin N) (z : Fin 1) : shapeCast ⟨2, ![N, 1]⟩ v h (ix2 p z) = v (ix1 p) := by
  refine shapeCast_apply _ h (ix2 p z) (ix1 p) ?_
  rw [Shape.rowMajor_val_two, Shape.rowMajor_val_one]
  show p.val = p.val * 1 + z.val
  have := z.isLt
  omega

/-- An `[N, 2]` array viewed as `[N, 1, 2]`: entry `(p, 0, b)` is entry `(p, b)`. -/
theorem umid_at {N : ℕ} (v : (⟨2, ![N, 2]⟩ : Shape).Idx → α) (h : (⟨2, ![N, 2]⟩ : Shape).ShapeCasts ⟨3, ![N, 1, 2]⟩)
    (p : Fin N) (z : Fin 1) (b : Fin 2) : shapeCast ⟨3, ![N, 1, 2]⟩ v h (ix3 p z b) = v (ix2 p b) := by
  refine shapeCast_apply _ h (ix3 p z b) (ix2 p b) ?_
  rw [Shape.rowMajor_val_three, Shape.rowMajor_val_two]
  show p.val * 2 + b.val = (p.val * 1 + z.val) * 2 + b.val
  have := z.isLt
  omega

/-- One entry of a matrix, taken as a 1×1 cut and then its only element. -/
theorem ent2_at {n0 n1 : ℕ} (o0 o1 : ℕ) (X : (⟨2, ![n0, n1]⟩ : Shape).Idx → α)
    (h : (⟨2, ![n0, n1]⟩ : Shape).Slices ![o0, o1] ⟨2, ![1, 1]⟩)
    (h' : ∀ a, (![0, 0] : Fin 2 → ℕ) a < (⟨2, ![1, 1]⟩ : Shape).size a)
    (a : Fin n0) (b : Fin n1) (ha : a.val = o0) (hb : b.val = o1) :
    extractAt ![0, 0] (extractStridedSlice ⟨2, ![1, 1]⟩ ![o0, o1] X h) h' = X (ix2 a b) := by
  unfold extractAt
  refine extractStridedSlice_apply _ X h _ (ix2 a b) (fun ax => ?_)
  match ax with
  | ⟨0, _⟩ => show a.val = o0 + 0; omega
  | ⟨1, _⟩ => show b.val = o1 + 0; omega

/-- One entry of a vector, taken as a cut of length one and then its only element. -/
theorem ent1_at {n0 : ℕ} (o0 : ℕ) (X : (⟨1, ![n0]⟩ : Shape).Idx → α)
    (h : (⟨1, ![n0]⟩ : Shape).Slices ![o0] ⟨1, ![1]⟩)
    (h' : ∀ a, (![0] : Fin 1 → ℕ) a < (⟨1, ![1]⟩ : Shape).size a)
    (a : Fin n0) (ha : a.val = o0) :
    extractAt ![0] (extractStridedSlice ⟨1, ![1]⟩ ![o0] X h) h' = X (ix1 a) := by
  unfold extractAt
  refine extractStridedSlice_apply _ X h _ (ix1 a) (fun ax => ?_)
  match ax with
  | ⟨0, _⟩ => show a.val = o0 + 0; omega

/-- Three columns side by side: entry `(p, c)` of the row of three is entry `(p, 0)` of column `c`. -/
theorem cat3_at {N : ℕ} (u0 u1 u2 : (⟨2, ![N, 1]⟩ : Shape).Idx → α)
    (h : Shape.Concatenates [(⟨2, ![N, 1]⟩ : Shape), ⟨2, ![N, 1]⟩, ⟨2, ![N, 1]⟩] ⟨2, ![N, 3]⟩ 1) (p : Fin N) (c : Fin 3) :
    concatenate (⟨2, ![N, 3]⟩ : Shape) 1 [⟨⟨2, ![N, 1]⟩, u0⟩, ⟨⟨2, ![N, 1]⟩, u1⟩, ⟨⟨2, ![N, 1]⟩, u2⟩] h (ix2 p c)
      = (![u0, u1, u2] c) (ix2 p (0 : Fin 1)) := by
  have hi : ∀ b : Fin (⟨2, ![N, 1]⟩ : Shape).rank, b.cast (rfl : (⟨2, ![N, 1]⟩ : Shape).rank = (⟨2, ![N, 3]⟩ : Shape).rank) ≠ (1 : Fin 2) →
      ((ix2 p (0 : Fin 1) : (⟨2, ![N, 1]⟩ : Shape).Idx) b).val = ((ix2 p c : (⟨2, ![N, 3]⟩ : Shape).Idx) (b.cast rfl)).val := by
    intro b hb
    match b with
    | ⟨0, _⟩ => rfl
    | ⟨1, _⟩ => exact absurd rfl hb
  match c with
  | ⟨0, _⟩ => exact concatenate_apply_piece 1 [⟨⟨2, ![N, 1]⟩, u0⟩, ⟨⟨2, ![N, 1]⟩, u1⟩, ⟨⟨2, ![N, 1]⟩, u2⟩] h _ 0 (by simp) _ u0 rfl rfl 0 (by simp) (ix2 p 0) hi (by rfl)
  | ⟨1, _⟩ => exact concatenate_apply_piece 1 [⟨⟨2, ![N, 1]⟩, u0⟩, ⟨⟨2, ![N, 1]⟩, u1⟩, ⟨⟨2, ![N, 1]⟩, u2⟩] h _ 1 (by simp) _ u1 rfl rfl 1 (by simp) (ix2 p 0) hi (by rfl)
  | ⟨2, _⟩ => exact concatenate_apply_piece 1 [⟨⟨2, ![N, 1]⟩, u0⟩, ⟨⟨2, ![N, 1]⟩, u1⟩, ⟨⟨2, ![N, 1]⟩, u2⟩] h _ 2 (by simp) _ u2 rfl rfl 2 (by simp) (ix2 p 0) hi (by rfl)

/-- Two columns side by side. -/
theorem cat2_at {N : ℕ} (u0 u1 : (⟨2, ![N, 1]⟩ : Shape).Idx → α)
    (h : Shape.Concatenates [(⟨2, ![N, 1]⟩ : Shape), ⟨2, ![N, 1]⟩] ⟨2, ![N, 2]⟩ 1) (p : Fin N) (c : Fin 2) :
    concatenate (⟨2, ![N, 2]⟩ : Shape) 1 [⟨⟨2, ![N, 1]⟩, u0⟩, ⟨⟨2, ![N, 1]⟩, u1⟩] h (ix2 p c)
      = (![u0, u1] c) (ix2 p (0 : Fin 1)) := by
  have hi : ∀ b : Fin (⟨2, ![N, 1]⟩ : Shape).rank, b.cast (rfl : (⟨2, ![N, 1]⟩ : Shape).rank = (⟨2, ![N, 2]⟩ : Shape).rank) ≠ (1 : Fin 2) →
      ((ix2 p (0 : Fin 1) : (⟨2, ![N, 1]⟩ : Shape).Idx) b).val = ((ix2 p c : (⟨2, ![N, 2]⟩ : Shape).Idx) (b.cast rfl)).val := by
    intro b hb
    match b with
    | ⟨0, _⟩ => rfl
    | ⟨1, _⟩ => exact absurd rfl hb
  match c with
  | ⟨0, _⟩ => exact concatenate_apply_piece 1 [⟨⟨2, ![N, 1]⟩, u0⟩, ⟨⟨2, ![N, 1]⟩, u1⟩] h _ 0 (by simp) _ u0 rfl rfl 0 (by simp) (ix2 p 0) hi (by rfl)
  | ⟨1, _⟩ => exact concatenate_apply_piece 1 [⟨⟨2, ![N, 1]⟩, u0⟩, ⟨⟨2, ![N, 1]⟩, u1⟩] h _ 1 (by simp) _ u1 rfl rfl 1 (by simp) (ix2 p 0) hi (by rfl)

/-- Two rows of two stacked into a 2×2 matrix per Gaussian: entry `(p, a, b)` is entry `(p, 0, b)` of row `a`. -/
theorem stack2_at {N : ℕ} (u0 u1 : (⟨3, ![N, 1, 2]⟩ : Shape).Idx → α)
    (h : Shape.Concatenates [(⟨3, ![N, 1, 2]⟩ : Shape), ⟨3, ![N, 1, 2]⟩] ⟨3, ![N, 2, 2]⟩ 1) (p : Fin N) (a b : Fin 2) :
    concatenate (⟨3, ![N, 2, 2]⟩ : Shape) 1 [⟨⟨3, ![N, 1, 2]⟩, u0⟩, ⟨⟨3, ![N, 1, 2]⟩, u1⟩] h (ix3 p a b)
      = (![u0, u1] a) (ix3 p (0 : Fin 1) b) := by
  have hi : ∀ x : Fin (⟨3, ![N, 1, 2]⟩ : Shape).rank, x.cast (rfl : (⟨3, ![N, 1, 2]⟩ : Shape).rank = (⟨3, ![N, 2, 2]⟩ : Shape).rank) ≠ (1 : Fin 3) →
      ((ix3 p (0 : Fin 1) b : (⟨3, ![N, 1, 2]⟩ : Shape).Idx) x).val = ((ix3 p a b : (⟨3, ![N, 2, 2]⟩ : Shape).Idx) (x.cast rfl)).val := by
    intro x hx
    match x with
    | ⟨0, _⟩ => rfl
    | ⟨1, _⟩ => exact absurd rfl hx
    | ⟨2, _⟩ => rfl
  match a with
  | ⟨0, _⟩ => exact concatenate_apply_piece 1 [⟨⟨3, ![N, 1, 2]⟩, u0⟩, ⟨⟨3, ![N, 1, 2]⟩, u1⟩] h _ 0 (by simp) _ u0 rfl rfl 0 (by simp) (ix3 p 0 b) hi (by rfl)
  | ⟨1, _⟩ => exact concatenate_apply_piece 1 [⟨⟨3, ![N, 1, 2]⟩, u0⟩, ⟨⟨3, ![N, 1, 2]⟩, u1⟩] h _ 1 (by simp) _ u1 rfl rfl 1 (by simp) (ix3 p 0 b) hi (by rfl)

/-! The same, at each literal position. -/

theorem cat3_at0 {N : ℕ} (u0 u1 u2 : (⟨2, ![N, 1]⟩ : Shape).Idx → α)
    (h : Shape.Concatenates [(⟨2, ![N, 1]⟩ : Shape), ⟨2, ![N, 1]⟩, ⟨2, ![N, 1]⟩] ⟨2, ![N, 3]⟩ 1) (p : Fin N) :
    concatenate (⟨2, ![N, 3]⟩ : Shape) 1 [⟨⟨2, ![N, 1]⟩, u0⟩, ⟨⟨2, ![N, 1]⟩, u1⟩, ⟨⟨2, ![N, 1]⟩, u2⟩] h (ix2 p (0 : Fin 3))
      = u0 (ix2 p (0 : Fin 1)) := cat3_at u0 u1 u2 h p 0
theorem cat3_at1 {N : ℕ} (u0 u1 u2 : (⟨2, ![N, 1]⟩ : Shape).Idx → α)
    (h : Shape.Concatenates [(⟨2, ![N, 1]⟩ : Shape), ⟨2, ![N, 1]⟩, ⟨2, ![N, 1]⟩] ⟨2, ![N, 3]⟩ 1) (p : Fin N) :
    concatenate (⟨2, ![N, 3]⟩ : Shape) 1 [⟨⟨2, ![N, 1]⟩, u0⟩, ⟨⟨2, ![N, 1]⟩, u1⟩, ⟨⟨2, ![N, 1]⟩, u2⟩] h (ix2 p (1 : Fin 3))
      = u1 (ix2 p (0 : Fin 1)) := cat3_at u0 u1 u2 h p 1
theorem cat3_at2 {N : ℕ} (u0 u1 u2 : (⟨2, ![N, 1]⟩ : Shape).Idx → α)
    (h : Shape.Concatenates [(⟨2, ![N, 1]⟩ : Shape), ⟨2, ![N, 1]⟩, ⟨2, ![N, 1]⟩] ⟨2, ![N, 3]⟩ 1) (p : Fin N) :
    concatenate (⟨2, ![N, 3]⟩ : Shape) 1 [⟨⟨2, ![N, 1]⟩, u0⟩, ⟨⟨2, ![N, 1]⟩, u1⟩, ⟨⟨2, ![N, 1]⟩, u2⟩] h (ix2 p (2 : Fin 3))
      = u2 (ix2 p (0 : Fin 1)) := cat3_at u0 u1 u2 h p 2

theorem cat2_at0 {N : ℕ} (u0 u1 : (⟨2, ![N, 1]⟩ : Shape).Idx → α)
    (h : Shape.Concatenates [(⟨2, ![N, 1]⟩ : Shape), ⟨2, ![N, 1]⟩] ⟨2, ![N, 2]⟩ 1) (p : Fin N) :
    concatenate (⟨2, ![N, 2]⟩ : Shape) 1 [⟨⟨2, ![N, 1]⟩, u0⟩, ⟨⟨2, ![N, 1]⟩, u1⟩] h (ix2 p (0 : Fin 2))
      = u0 (ix2 p (0 : Fin 1)) := cat2_at u0 u1 h p 0
theorem cat2_at1 {N : ℕ} (u0 u1 : (⟨2, ![N, 1]⟩ : Shape).Idx → α)
    (h : Shape.Concatenates [(⟨2, ![N, 1]⟩ : Shape), ⟨2, ![N, 1]⟩] ⟨2, ![N, 2]⟩ 1) (p : Fin N) :
    concatenate (⟨2, ![N, 2]⟩ : Shape) 1 [⟨⟨2, ![N, 1]⟩, u0⟩, ⟨⟨2, ![N, 1]⟩, u1⟩] h (ix2 p (1 : Fin 2))
      = u1 (ix2 p (0 : Fin 1)) := cat2_at u0 u1 h p 1

theorem stack2_at0 {N : ℕ} (u0 u1 : (⟨3, ![N, 1, 2]⟩ : Shape).Idx → α)
    (h : Shape.Concatenates [(⟨3, ![N, 1, 2]⟩ : Shape), ⟨3, ![N, 1, 2]⟩] ⟨3, ![N, 2, 2]⟩ 1) (p : Fin N) (b : Fin 2) :
    concatenate (⟨3, ![N, 2, 2]⟩ : Shape) 1 [⟨⟨3, ![N, 1, 2]⟩, u0⟩, ⟨⟨3, ![N, 1, 2]⟩, u1⟩] h (ix3 p (0 : Fin 2) b)
      = u0 (ix3 p (0 : Fin 1) b) := stack2_at u0 u1 h p 0 b
theorem stack2_at1 {N : ℕ} (u0 u1 : (⟨3, ![N, 1, 2]⟩ : Shape).Idx → α)
    (h : Shape.Concatenates [(⟨3, ![N, 1, 2]⟩ : Shape), ⟨3, ![N, 1, 2]⟩] ⟨3, ![N, 2, 2]⟩ 1) (p : Fin N) (b : Fin 2) :
    concatenate (⟨3, ![N, 2, 2]⟩ : Shape) 1 [⟨⟨3, ![N, 1, 2]⟩, u0⟩, ⟨⟨3, ![N, 1, 2]⟩, u1⟩] h (ix3 p (1 : Fin 2) b)
      = u1 (ix3 p (0 : Fin 1) b) := stack2_at u0 u1 h p 1 b

end Cert.Splat.Lay
-- ==== Proof.LibHostColumn.lean ====
/-
  A row statistic spread back over the rows, on the host; and a fold that does not mind its starting value twice.

  A host reduction along the rows of an `[n, d]` array comes back as an `[n]` vector. To combine it with the array again
  the host spreads it into a column `[n, 1]` and the column along the rows to `[n, d]` (two `broadcast_in_dim`s, with
  dimension maps `[0]` and `[0, 1]`): entry (r, q) of the result is entry r of the vector. Both steps are stated for
  arbitrary extents. The last lemma: the maximum of a value with a fold of the maximum that started from that same value is
  the fold (what `max(x, axis, initial=-inf)` adds to a reduce that already started from −∞).
-/
import Idealize.ShloMosaic.Lib.Pipeline.Value
import Idealize.ShloMosaic.Lib.ValueIdx
import Idealize.ShloMosaic.PureOps.Ideal

noncomputable section

namespace Cert.LibHostColumn

open Idealize.ShloMosaic Idealize.ShloMosaic.ValueIdx

/-- A vector spread into a column reads, at (r, 0), the vector's entry r. -/
theorem column_apply {α : Type} {n : ℕ} (x : (⟨1, ![n]⟩ : Shape).Idx → α)
    (h : (⟨1, ![n]⟩ : Shape).BroadcastsInDim ⟨2, ![n, 1]⟩ (![0] : Fin 1 → Fin 2)) (r : Fin n) (u : Fin 1) :
    broadcastInDim ⟨2, ![n, 1]⟩ ![0] h x (ix2 r u) = x (ix1 r) := by
  refine broadcastInDim_apply _ h x (ix2 r u) (ix1 r) fun a => ?_
  match a with
  | ⟨0, _⟩ =>
    show r.val = if n = 1 then 0 else r.val
    split
    · have := r.isLt; omega
    · rfl

/-- A column spread along the rows reads, at (r, q), the column's entry r. -/
theorem spread_apply {α : Type} {n d : ℕ} (x : (⟨2, ![n, 1]⟩ : Shape).Idx → α)
    (h : (⟨2, ![n, 1]⟩ : Shape).BroadcastsInDim ⟨2, ![n, d]⟩ (![0, 1] : Fin 2 → Fin 2)) (r : Fin n) (q : Fin d) :
    broadcastInDim ⟨2, ![n, d]⟩ ![0, 1] h x (ix2 r q) = x (ix2 r (0 : Fin 1)) := by
  refine broadcastInDim_apply _ h x (ix2 r q) (ix2 r (0 : Fin 1)) fun a => ?_
  match a with
  | ⟨0, _⟩ =>
    show r.val = if n = 1 then 0 else r.val
    split
    · have := r.isLt; omega
    · rfl
  | ⟨1, _⟩ => rfl

/-- One more maximum with the fold's starting value changes nothing. -/
theorem max_start_fold {ι : Type} (s : Finset ι) (a : EReal) (f : ι → EReal) : max a (s.fold max a f) = s.fold max a f :=
  max_eq_right (Finset.le_fold_max a |>.mpr (Or.inl le_rfl))

end Cert.LibHostColumn

end
-- ==== Proof.HostWRead.lean ====
/-
  The three weight matrices built before the kernel runs, as explicit terms of the weight arrays, read entry by entry.

  For each of the three widths (one, two and four columns) the combined matrix is the composition of cuts,
  a transpose, casts, scatters of a row into a zero vector and concatenations spelled out below as `build0`,
  `build1`, `build2`; each is shown to be the block-diagonal matrix `Cert.HostWSpec.wcomb` of its weight array.
  The one fact used for every column: a zero vector of length 256 into which row n of the trailing columns is written
  at offset n·L holds, at position r, the entry (5 + r, n) of the block-diagonal matrix.
-/
import proofs.«146547_j64330020159639_2_alg».proof.Proof.Gen.KernelIdeal
import proofs.«146547_j64330020159639_2_alg».proof.Proof.HostWSpec
import proofs.«146547_j64330020159639_2_alg».proof.Proof.HostWCols
import proofs.«146547_j64330020159639_2_alg».proof.Proof.LibColumns
import proofs.«146547_j64330020159639_2_alg».proof.Proof.LibHostColumn
import Idealize.ShloMosaic.Lib.IdealHost

noncomputable section

namespace Cert.KernelIdeal.HostW

open Idealize.ShloMosaic Idealize.ShloMosaic.ValueIdx
open Cert.KernelIdeal.Gen Cert.HostWSpec Cert.HostWCols

/-- A column of the lower block, read at a row: the zero vector with row `o` of the trailing columns written at
    offset `st = n·L` is column n of the block-diagonal matrix below its fifth row. -/
theorem column_entry {C L : ℕ} (w : (⟨2, ![C, 5 + L]⟩ : Shape).Idx → EReal) (o : ℕ) (n : Fin C) (hn : n.val = o)
    (hwf : ScatterDims.WF ⟨1, ![256]⟩ ⟨1, ![1]⟩ ⟨1, ![L]⟩ [0] [] [0] 0)
    (x : (⟨1, ![256]⟩ : Shape).Idx → EReal) (hx : ∀ i, x i = 0) (idx : IVec ⟨1, ![1]⟩ 32)
    (st : ℕ) (hst : (idx (ix1 0)).toInt = (st : ℤ)) (hfit : st + L ≤ 256) (hstn : n.val * L = st)
    (h1 : (⟨2, ![C, 5 + L]⟩ : Shape).Slices ![0, 5] ⟨2, ![C, L]⟩)
    (h2 : (⟨2, ![C, L]⟩ : Shape).Slices ![o, 0] ⟨2, ![1, L]⟩)
    (h3 : (⟨2, ![1, L]⟩ : Shape).ShapeCasts ⟨1, ![L]⟩)
    (r : Fin 256) (k : Fin 261) (hk : k.val = r.val + 5) :
    Host.scatter (winDims hwf) (fun _ b => b) x idx
        (shapeCast ⟨1, ![L]⟩ (extractStridedSlice ⟨2, ![1, L]⟩ ![o, 0] (extractStridedSlice ⟨2, ![C, L]⟩ ![0, 5] w h1) h2) h3)
        (ix1 r) = wcomb w (ix2 k n) := by
  by_cases hb : st ≤ r.val ∧ r.val < st + L
  · refine (window_inside hwf x idx _ st hst hfit r ⟨r.val - st, by omega⟩ (by show st + (r.val - st) = r.val; omega)).trans ?_
    refine (tail_row w o h1 h2 h3 ⟨r.val - st, by omega⟩ n hn ⟨5 + (r.val - st), by omega⟩ rfl).trans ?_
    exact (wcomb_block w k n ⟨5 + (r.val - st), by omega⟩ (by omega) (by omega) (by omega)
      (by show 5 + (r.val - st) = 5 + (k.val - 5 - n.val * L); omega)).symm
  · refine (window_outside hwf x idx _ st hst hfit r hb).trans ?_
    rw [hx, wcomb_off w k n (by omega) (by omega)]

/-- The zero vector every column starts from. -/
abbrev zeros : S256.Idx → EReal := broadcastInDim S256 ![] bcast_S_S256 (constant (F := Ideal) S_ .f32 0x00000000#32)

theorem zeros_apply (i : S256.Idx) : zeros i = 0 := by
  unfold zeros
  rw [broadcastInDim_scalar_apply, constant_apply]
  exact Ideal.ofBits_zero_f32

/-- The start index of a column's window, as one word. -/
abbrev startAt (b : BitVec 32) : IVec S1 32 := broadcastInDim S1 ![] bcast_S_S1 (constantI S_ 32 b)

theorem startAt_toInt (b : BitVec 32) (st : ℕ) (h : b.toInt = (st : ℤ)) : ((startAt b) (ix1 0)).toInt = (st : ℤ) := by
  unfold startAt
  rw [broadcastInDim_scalar_apply]
  exact h

/-! ## Two columns -/

/-- The matrix for the weight array of two rows, as the host builds it. -/
def build1 (w : S2x133.Idx → EReal) : S261x2.Idx → EReal :=
  concatenate S261x2 0
    [⟨S5x2, transpose S5x2 [1, 0] (extractStridedSlice S2x5 ![0, 0] w slices_S2x133_S2x5_0_0) transposes_S2x5_S5x2_1_0⟩,
     ⟨S256x2, concatenate S256x2 1
        [⟨S256x1, broadcastInDim S256x1 ![0] bcast_S256_S256x1_0
            (Host.scatter scatter_S256_S1_S128_0_n_0_0 (fun _ b => b) zeros (startAt 0#32)
              (shapeCast S128 (extractStridedSlice S1x128 ![0, 0]
                (extractStridedSlice S2x128 ![0, 5] w slices_S2x133_S2x128_0_5) slices_S2x128_S1x128_0_0) shapeCasts_S1x128_S128))⟩,
         ⟨S256x1, broadcastInDim S256x1 ![0] bcast_S256_S256x1_0
            (Host.scatter scatter_S256_S1_S128_0_n_0_0 (fun _ b => b) zeros (startAt 128#32)
              (shapeCast S128 (extractStridedSlice S1x128 ![1, 0]
                (extractStridedSlice S2x128 ![0, 5] w slices_S2x133_S2x128_0_5) slices_S2x128_S1x128_1_0) shapeCasts_S1x128_S128))⟩]
        concatenates_S256x1_S256x1_S256x2_d1⟩]
    concatenates_S5x2_S256x2_S261x2_d0

theorem build1_eq (w : S2x133.Idx → EReal) : build1 w = wcomb (C := 2) (L := 128) w := by
  funext i
  obtain ⟨k, n, rfl⟩ : ∃ (k : Fin 261) (n : Fin 2), i = ix2 k n := ⟨i 0, i 1, eq_ix2 i⟩
  unfold build1
  by_cases hk : k.val < 5
  · refine (rows_upper _ _ _ k n ⟨k.val, hk⟩ rfl).trans ?_
    refine (head_transposed w _ _ ⟨k.val, hk⟩ n ⟨k.val, by omega⟩ rfl).trans ?_
    exact (wcomb_top (C := 2) (L := 128) w k n ⟨k.val, by omega⟩ hk rfl).symm
  · have hk261 : k.val < 261 := k.isLt
    refine (rows_lower _ _ _ k n ⟨k.val - 5, by omega⟩ (by show k.val - 5 + 5 = k.val; omega)).trans ?_
    match n with
    | ⟨0, _⟩ =>
      refine (Cert.Splat.Lay.cat2_at0 _ _ _ (⟨k.val - 5, by omega⟩ : Fin 256)).trans ?_
      refine (Cert.LibHostColumn.column_apply _ _ (⟨k.val - 5, by omega⟩ : Fin 256) 0).trans ?_
      exact column_entry (C := 2) (L := 128) w 0 0 rfl scatter_S256_S1_S128_0_n_0_0_wf zeros zeros_apply (startAt 0#32) 0
        (startAt_toInt _ _ (by decide)) (by omega) rfl _ _ _ ⟨k.val - 5, by omega⟩ k (by show k.val = k.val - 5 + 5; omega)
    | ⟨1, _⟩ =>
      refine (Cert.Splat.Lay.cat2_at1 _ _ _ (⟨k.val - 5, by omega⟩ : Fin 256)).trans ?_
      refine (Cert.LibHostColumn.column_apply _ _ (⟨k.val - 5, by omega⟩ : Fin 256) 0).trans ?_
      exact column_entry (C := 2) (L := 128) w 1 1 rfl scatter_S256_S1_S128_0_n_0_0_wf zeros zeros_apply (startAt 128#32) 128
        (startAt_toInt _ _ (by decide)) (by omega) rfl _ _ _ ⟨k.val - 5, by omega⟩ k (by show k.val = k.val - 5 + 5; omega)

/-! ## One column -/

/-- The only column when the weight array has one row: the whole vector is that row's trailing columns. -/
theorem only_column_entry (w : (⟨2, ![1, 5 + 256]⟩ : Shape).Idx → EReal)
    (hwf : ScatterDims.WF ⟨1, ![256]⟩ ⟨1, ![0]⟩ ⟨1, ![256]⟩ [0] [] [] 0)
    (x : (⟨1, ![256]⟩ : Shape).Idx → EReal) (idx : IVec ⟨1, ![0]⟩ 32)
    (h1 : (⟨2, ![1, 5 + 256]⟩ : Shape).Slices ![0, 5] ⟨2, ![1, 256]⟩)
    (h3 : (⟨2, ![1, 256]⟩ : Shape).ShapeCasts ⟨1, ![256]⟩)
    (r : Fin 256) (k : Fin 261) (hk : k.val = r.val + 5) :
    Host.scatter (wholeDims hwf) (fun _ b => b) x idx
        (shapeCast ⟨1, ![256]⟩ (extractStridedSlice ⟨2, ![1, 256]⟩ ![0, 5] w h1) h3) (ix1 r)
      = wcomb (C := 1) (L := 256) w (ix2 k 0) := by
  have hr : r.val < 256 := r.isLt
  refine (whole_written hwf x idx _ (ix1 r)).trans ?_
  refine (tail_only_row w h1 h3 r ⟨5 + r.val, by omega⟩ rfl).trans ?_
  exact (wcomb_block (C := 1) (L := 256) w k 0 ⟨5 + r.val, by omega⟩ (by omega)
    (by show 0 * 256 ≤ k.val - 5; omega) (by show k.val - 5 < 0 * 256 + 256; omega)
    (by show 5 + r.val = 5 + (k.val - 5 - 0 * 256); omega)).symm

/-- The matrix for the weight array of one row, as the host builds it. -/
def build0 (w : S1x261.Idx → EReal) : S261x1.Idx → EReal :=
  concatenate S261x1 0
    [⟨S5x1, transpose S5x1 [1, 0] (extractStridedSlice S1x5 ![0, 0] w slices_S1x261_S1x5_0_0) transposes_S1x5_S5x1_1_0⟩,
     ⟨S256x1, broadcastInDim S256x1 ![0] bcast_S256_S256x1_0
        (Host.scatter scatter_S256_S0_S256_0_n_n_0 (fun _ b => b) zeros (emptyVec S0 hz_S0 : IVec S0 32)
          (shapeCast S256 (extractStridedSlice S1x256 ![0, 5] w slices_S1x261_S1x256_0_5) shapeCasts_S1x256_S256))⟩]
    concatenates_S5x1_S256x1_S261x1_d0

theorem build0_eq (w : S1x261.Idx → EReal) : build0 w = wcomb (C := 1) (L := 256) w := by
  funext i
  obtain ⟨k, n, rfl⟩ : ∃ (k : Fin 261) (n : Fin 1), i = ix2 k n := ⟨i 0, i 1, eq_ix2 i⟩
  obtain rfl : n = 0 := Subsingleton.elim _ _
  unfold build0
  by_cases hk : k.val < 5
  · refine (rows_upper _ _ _ k (0 : Fin 1) ⟨k.val, hk⟩ rfl).trans ?_
    refine (head_transposed w _ _ ⟨k.val, hk⟩ (0 : Fin 1) ⟨k.val, by omega⟩ rfl).trans ?_
    exact (wcomb_top (C := 1) (L := 256) w k (0 : Fin 1) ⟨k.val, by omega⟩ hk rfl).symm
  · have hk261 : k.val < 261 := k.isLt
    refine (rows_lower _ _ _ k (0 : Fin 1) (⟨k.val - 5, by omega⟩ : Fin 256) (by show k.val - 5 + 5 = k.val; omega)).trans ?_
    refine (Cert.LibHostColumn.column_apply _ _ (⟨k.val - 5, by omega⟩ : Fin 256) 0).trans ?_
    exact only_column_entry w scatter_S256_S0_S256_0_n_n_0_wf zeros (emptyVec S0 hz_S0 : IVec S0 32) _ _ ⟨k.val - 5, by omega⟩ k
      (by show k.val = k.val - 5 + 5; omega)

/-! ## Four columns -/

/-- The matrix for the weight array of four rows, as the host builds it. -/
def build2 (w : S4x69.Idx → EReal) : S261x4.Idx → EReal :=
  concatenate S261x4 0
    [⟨S5x4, transpose S5x4 [1, 0] (extractStridedSlice S4x5 ![0, 0] w slices_S4x69_S4x5_0_0) transposes_S4x5_S5x4_1_0⟩,
     ⟨S256x4, concatenate S256x4 1
        [⟨S256x1, broadcastInDim S256x1 ![0] bcast_S256_S256x1_0
            (Host.scatter scatter_S256_S1_S64_0_n_0_0 (fun _ b => b) zeros (startAt 0#32)
              (shapeCast S64 (extractStridedSlice S1x64 ![0, 0]
                (extractStridedSlice S4x64 ![0, 5] w slices_S4x69_S4x64_0_5) slices_S4x64_S1x64_0_0) shapeCasts_S1x64_S64))⟩,
         ⟨S256x1, broadcastInDim S256x1 ![0] bcast_S256_S256x1_0
            (Host.scatter scatter_S256_S1_S64_0_n_0_0 (fun _ b => b) zeros (startAt 64#32)
              (shapeCast S64 (extractStridedSlice S1x64 ![1, 0]
                (extractStridedSlice S4x64 ![0, 5] w slices_S4x69_S4x64_0_5) slices_S4x64_S1x64_1_0) shapeCasts_S1x64_S64))⟩,
         ⟨S256x1, broadcastInDim S256x1 ![0] bcast_S256_S256x1_0
            (Host.scatter scatter_S256_S1_S64_0_n_0_0 (fun _ b => b) zeros (startAt 128#32)
              (shapeCast S64 (extractStridedSlice S1x64 ![2, 0]
                (extractStridedSlice S4x64 ![0, 5] w slices_S4x69_S4x64_0_5) slices_S4x64_S1x64_2_0) shapeCasts_S1x64_S64))⟩,
         ⟨S256x1, broadcastInDim S256x1 ![0] bcast_S256_S256x1_0
            (Host.scatter scatter_S256_S1_S64_0_n_0_0 (fun _ b => b) zeros (startAt 192#32)
              (shapeCast S64 (extractStridedSlice S1x64 ![3, 0]
                (extractStridedSlice S4x64 ![0, 5] w slices_S4x69_S4x64_0_5) slices_S4x64_S1x64_3_0) shapeCasts_S1x64_S64))⟩]
        concatenates_S256x1_S256x1_S256x1_S256x1_S256x4_d1⟩]
    concatenates_S5x4_S256x4_S261x4_d0

theorem build2_eq (w : S4x69.Idx → EReal) : build2 w = wcomb (C := 4) (L := 64) w := by
  funext i
  obtain ⟨k, n, rfl⟩ : ∃ (k : Fin 261) (n : Fin 4), i = ix2 k n := ⟨i 0, i 1, eq_ix2 i⟩
  unfold build2
  by_cases hk : k.val < 5
  · refine (rows_upper _ _ _ k n ⟨k.val, hk⟩ rfl).trans ?_
    refine (head_transposed w _ _ ⟨k.val, hk⟩ n ⟨k.val, by omega⟩ rfl).trans ?_
    exact (wcomb_top (C := 4) (L := 64) w k n ⟨k.val, by omega⟩ hk rfl).symm
  · have hk261 : k.val < 261 := k.isLt
    refine (rows_lower _ _ _ k n ⟨k.val - 5, by omega⟩ (by show k.val - 5 + 5 = k.val; omega)).trans ?_
    match n with
    | ⟨0, _⟩ =>
      refine (four_columns_at0 _ _ _ _ _ (⟨k.val - 5, by omega⟩ : Fin 256)).trans ?_
      refine (Cert.LibHostColumn.column_apply _ _ (⟨k.val - 5, by omega⟩ : Fin 256) 0).trans ?_
      exact column_entry (C := 4) (L := 64) w 0 0 rfl scatter_S256_S1_S64_0_n_0_0_wf zeros zeros_apply (startAt 0#32) 0
        (startAt_toInt _ _ (by decide)) (by omega) rfl _ _ _ ⟨k.val - 5, by omega⟩ k (by show k.val = k.val - 5 + 5; omega)
    | ⟨1, _⟩ =>
      refine (four_columns_at1 _ _ _ _ _ (⟨k.val - 5, by omega⟩ : Fin 256)).trans ?_
      refine (Cert.LibHostColumn.column_apply _ _ (⟨k.val - 5, by omega⟩ : Fin 256) 0).trans ?_
      exact column_entry (C := 4) (L := 64) w 1 1 rfl scatter_S256_S1_S64_0_n_0_0_wf zeros zeros_apply (startAt 64#32) 64
        (startAt_toInt _ _ (by decide)) (by omega) rfl _ _ _ ⟨k.val - 5, by omega⟩ k (by show k.val = k.val - 5 + 5; omega)
    | ⟨2, _⟩ =>
      refine (four_columns_at2 _ _ _ _ _ (⟨k.val - 5, by omega⟩ : Fin 256)).trans ?_
      refine (Cert.LibHostColumn.column_apply _ _ (⟨k.val - 5, by omega⟩ : Fin 256) 0).trans ?_
      exact column_entry (C := 4) (L := 64) w 2 2 rfl scatter_S256_S1_S64_0_n_0_0_wf zeros zeros_apply (startAt 128#32) 128
        (startAt_toInt _ _ (by decide)) (by omega) rfl _ _ _ ⟨k.val - 5, by omega⟩ k (by show k.val = k.val - 5 + 5; omega)
    | ⟨3, _⟩ =>
      refine (four_columns_at3 _ _ _ _ _ (⟨k.val - 5, by omega⟩ : Fin 256)).trans ?_
      refine (Cert.LibHostColumn.column_apply _ _ (⟨k.val - 5, by omega⟩ : Fin 256) 0).trans ?_
      exact column_entry (C := 4) (L := 64) w 3 3 rfl scatter_S256_S1_S64_0_n_0_0_wf zeros zeros_apply (startAt 192#32) 192
        (startAt_toInt _ _ (by decide)) (by omega) rfl _ _ _ ⟨k.val - 5, by omega⟩ k (by show k.val = k.val - 5 + 5; omega)

end Cert.KernelIdeal.HostW

end
-- ==== Proof.HostW.lean ====
/-
  What the kernel finds for its three combined weight matrices.

  Before the kernel runs, the program builds each combined matrix from a weight array by a chain of cuts, casts,
  scatters and concatenations. Running that chain on the launch contents gives, for each matrix, the explicit term of
  HostWRead, and that term is the block-diagonal matrix of HostWSpec.
-/
import proofs.«146547_j64330020159639_2_alg».proof.Proof.Gen.KernelIdeal.Launch
import proofs.«146547_j64330020159639_2_alg».proof.Proof.HostWRead

set_option maxRecDepth 4096

noncomputable section

namespace Cert.KernelIdeal.HostW

open Idealize.ShloMosaic Idealize.ShloMosaic.TcCoe Idealize.ShloMosaic.StableHlo
open Cert.KernelIdeal.Gen

set_option maxHeartbeats 4000000 in
/-- The one-column matrix after the operations, from any contents: the explicit term of the one-row weight array. -/
theorem after_one (V : Valuation τ sig (Elt Ideal)) :
    (StableHlo.after (hostOps0 (F := Ideal)) V (Proc.devRef .tc main_v7) : S261x1.Idx → EReal)
      = build0 (V (Proc.devRef .tc main_arg1)) := by
  dsimp only [hostOps0]
  after_results
  rfl

set_option maxHeartbeats 4000000 in
/-- The two-column matrix after the operations, from any contents: the explicit term of the two-row weight array. -/
theorem after_two (V : Valuation τ sig (Elt Ideal)) :
    (StableHlo.after (hostOps0 (F := Ideal)) V (Proc.devRef .tc main_v24) : S261x2.Idx → EReal)
      = build1 (V (Proc.devRef .tc main_arg3)) := by
  dsimp only [hostOps0]
  after_results
  rfl

set_option maxHeartbeats 4000000 in
/-- The four-column matrix after the operations, from any contents: the explicit term of the four-row weight array. -/
theorem after_four (V : Valuation τ sig (Elt Ideal)) :
    (StableHlo.after (hostOps0 (F := Ideal)) V (Proc.devRef .tc main_v53) : S261x4.Idx → EReal)
      = build2 (V (Proc.devRef .tc main_arg5)) := by
  dsimp only [hostOps0]
  after_results
  rfl

/-- The one-column matrix is the block-diagonal matrix of the one-row weight array as launched. -/
theorem wcomb0_eq (m : (ℓ : Loc nD τ sig) → Buf (Elt Ideal) ℓ) (c : Dev nD) :
    (StableHlo.after (hostOps0 (F := Ideal)) (fun b => m (c, b)) main_v7 : S261x1.Idx → EReal)
      = Cert.HostWSpec.wcomb (C := 1) (L := 256) (m ((c : Thread nD τ).loc main_arg1) : S1x261.Idx → EReal) :=
  (after_one _).trans (build0_eq _)

/-- The two-column matrix is the block-diagonal matrix of the two-row weight array as launched. -/
theorem wcomb1_eq (m : (ℓ : Loc nD τ sig) → Buf (Elt Ideal) ℓ) (c : Dev nD) :
    (StableHlo.after (hostOps0 (F := Ideal)) (fun b => m (c, b)) main_v24 : S261x2.Idx → EReal)
      = Cert.HostWSpec.wcomb (C := 2) (L := 128) (m ((c : Thread nD τ).loc main_arg3) : S2x133.Idx → EReal) :=
  (after_two _).trans (build1_eq _)

/-- The four-column matrix is the block-diagonal matrix of the four-row weight array as launched. -/
theorem wcomb2_eq (m : (ℓ : Loc nD τ sig) → Buf (Elt Ideal) ℓ) (c : Dev nD) :
    (StableHlo.after (hostOps0 (F := Ideal)) (fun b => m (c, b)) main_v53 : S261x4.Idx → EReal)
      = Cert.HostWSpec.wcomb (C := 4) (L := 64) (m ((c : Thread nD τ).loc main_arg5) : S4x69.Idx → EReal) :=
  (after_four _).trans (build2_eq _)

end Cert.KernelIdeal.HostW

end
-- ==== Proof.RefSpec.lean ====
/-
  What the plain reference computes, at the exact instance, one row at a time.

  A row of features `x r` (261 numbers: five shared ones, then four per device for 64 devices) is routed down a
  binary tree of depth three. At depth `d` the row sits at a node `n` (one of `2^d`) that owns `64 / 2^d`
  consecutive devices starting at device `n * (64 / 2^d)`. The node's gate is an affine form of the five shared
  features and of the owned devices' features; its value is the logistic function of the gate, written as the host
  writes it, `1 / (1 + exp (-gate))`. The running product of the values is carried along, and the row moves to child
  `2 n` or `2 n + 1` as the value is below one half or not. After three steps the row's result is the running
  product times the reached leaf's row of an 8 x 8 table. Independently, a two-layer perceptron with a rectifier
  scores the row.

  Everything is stated index by index over literal extents. The node is kept as the 32-bit word the host computes
  (`node0 … node3`), and wherever the host uses such a word to pick a row of a table it is read the way the host's
  indexing reads it: a negative word is first raised by the table's height, then the word is read as a signed integer
  and clamped into the table (`rowOf`). Nothing here says the word is small; that the clamp never acts is a separate
  fact about these words.
-/
import Idealize.ShloMosaic.PureOps.Ideal
import Idealize.ShloMosaic.Lib.ValueIdx

noncomputable section

open scoped BigOperators

namespace Cert.RefSpec

open Idealize.ShloMosaic Idealize.ShloMosaic.ValueIdx

/-- The float words the host writes out: one, one half, zero. -/
abbrev one : Ideal .f32 := Ideal.ofBits .f32 0x3F800000#32
abbrev half : Ideal .f32 := Ideal.ofBits .f32 0x3F000000#32
abbrev zero : Ideal .f32 := Ideal.ofBits .f32 0x00000000#32

/-- The logistic function as the host spells it. -/
def sig (g : EReal) : EReal := Ideal.div one (one + Ideal.exp (-g))

/-- A 32-bit word read as a row of a table with `N` rows, the way the host indexes: a negative word is raised by
    `N`, then the word is read signed and clamped into `0 … N − 1`. -/
def rowOf (N : Nat) (hN : 0 < N) (n : BitVec 32) : Fin N :=
  ⟨min (Scalar.select (IntOp.cmpi .slt n 0#32) (IntOp.addi n (BitVec.ofNat 32 N)) n).toInt.toNat (N - 1), by omega⟩

/-- The column of `x` that meets weight column `5 + j` at a node whose first device is the word `off`: device
    `off + j / 4` (read as the host indexes the 64 devices), feature `j % 4`. -/
def devCol (off : BitVec 32) (j : Nat) : Fin 261 :=
  ⟨5 + 4 * (rowOf 64 (by decide) (IntOp.addi off (BitVec.ofNat 32 (j / 4)))).val + j % 4, by
    have := (rowOf 64 (by decide) (IntOp.addi off (BitVec.ofNat 32 (j / 4)))).isLt; omega⟩

/-- The child a node moves to: twice the node, plus one when the gate's value is at least one half. -/
def child (n : BitVec 32) (v : EReal) : BitVec 32 :=
  IntOp.addi (IntOp.muli n 2#32) ((Ideal.cmp .oge v half).setWidth 32)

variable (x : FVec Ideal ⟨2, ![65536, 261]⟩ .f32)
  (w0 : FVec Ideal ⟨2, ![1, 261]⟩ .f32) (b0 : FVec Ideal ⟨1, ![1]⟩ .f32)
  (w1 : FVec Ideal ⟨2, ![2, 133]⟩ .f32) (b1 : FVec Ideal ⟨1, ![2]⟩ .f32)
  (w2 : FVec Ideal ⟨2, ![4, 69]⟩ .f32) (b2 : FVec Ideal ⟨1, ![4]⟩ .f32)
  (leaf : FVec Ideal ⟨2, ![8, 8]⟩ .f32)
  (Wc1 : FVec Ideal ⟨2, ![261, 128]⟩ .f32) (bc1 : FVec Ideal ⟨1, ![128]⟩ .f32)
  (Wc2 : FVec Ideal ⟨2, ![128, 1]⟩ .f32) (bc2 : FVec Ideal ⟨1, ![1]⟩ .f32)

/-! ## Depth 0: the root, 64 devices -/

/-- Every row starts at the root. -/
def node0 (_r : Fin 65536) : BitVec 32 := 0#32

def gate0 (r : Fin 65536) : EReal :=
  (∑ k : Fin 5, x (ix2 r (Fin.castLE (by decide : 5 ≤ 261) k))
      * w0 (ix2 (rowOf 1 (by decide) (node0 r)) (Fin.castLE (by decide : 5 ≤ 261) k)))
  + (∑ j : Fin 256, x (ix2 r (devCol (IntOp.muli (node0 r) 64#32) j.val))
      * w0 (ix2 (rowOf 1 (by decide) (node0 r)) (⟨5 + j.val, by have := j.isLt; omega⟩ : Fin 261)))
  + b0 (ix1 (rowOf 1 (by decide) (node0 r)))

def val0 (r : Fin 65536) : EReal := sig (gate0 x w0 b0 r)

def cum1 (r : Fin 65536) : EReal := one * val0 x w0 b0 r

def node1 (r : Fin 65536) : BitVec 32 := child (node0 r) (val0 x w0 b0 r)

/-! ## Depth 1: two nodes, 32 devices each -/

def gate1 (r : Fin 65536) : EReal :=
  (∑ k : Fin 5, x (ix2 r (Fin.castLE (by decide : 5 ≤ 261) k))
      * w1 (ix2 (rowOf 2 (by decide) (node1 x w0 b0 r)) (Fin.castLE (by decide : 5 ≤ 133) k)))
  + (∑ j : Fin 128, x (ix2 r (devCol (IntOp.muli (node1 x w0 b0 r) 32#32) j.val))
      * w1 (ix2 (rowOf 2 (by decide) (node1 x w0 b0 r)) (⟨5 + j.val, by have := j.isLt; omega⟩ : Fin 133)))
  + b1 (ix1 (rowOf 2 (by decide) (node1 x w0 b0 r)))

def val1 (r : Fin 65536) : EReal := sig (gate1 x w0 b0 w1 b1 r)

def cum2 (r : Fin 65536) : EReal := cum1 x w0 b0 r * val1 x w0 b0 w1 b1 r

def node2 (r : Fin 65536) : BitVec 32 := child (node1 x w0 b0 r) (val1 x w0 b0 w1 b1 r)

/-! ## Depth 2: four nodes, 16 devices each -/

def gate2 (r : Fin 65536) : EReal :=
  (∑ k : Fin 5, x (ix2 r (Fin.castLE (by decide : 5 ≤ 261) k))
      * w2 (ix2 (rowOf 4 (by decide) (node2 x w0 b0 w1 b1 r)) (Fin.castLE (by decide : 5 ≤ 69) k)))
  + (∑ j : Fin 64, x (ix2 r (devCol (IntOp.muli (node2 x w0 b0 w1 b1 r) 16#32) j.val))
      * w2 (ix2 (rowOf 4 (by decide) (node2 x w0 b0 w1 b1 r)) (⟨5 + j.val, by have := j.isLt; omega⟩ : Fin 69)))
  + b2 (ix1 (rowOf 4 (by decide) (node2 x w0 b0 w1 b1 r)))

def val2 (r : Fin 65536) : EReal := sig (gate2 x w0 b0 w1 b1 w2 b2 r)

def cum3 (r : Fin 65536) : EReal := cum2 x w0 b0 w1 b1 r * val2 x w0 b0 w1 b1 w2 b2 r

def node3 (r : Fin 65536) : BitVec 32 := child (node2 x w0 b0 w1 b1 r) (val2 x w0 b0 w1 b1 w2 b2 r)

/-! ## The two results -/

/-- Row `r`, column `c` of the first result: the product of the three gate values times the reached leaf's entry. -/
def pAt (r : Fin 65536) (c : Fin 8) : EReal :=
  cum3 x w0 b0 w1 b1 w2 b2 r * leaf (ix2 (rowOf 8 (by decide) (node3 x w0 b0 w1 b1 w2 b2 r)) c)

/-- The first result, `[65536, 8]`. -/
def p : FVec Ideal ⟨2, ![65536, 8]⟩ .f32 :=
  fun i => pAt x w0 b0 w1 b1 w2 b2 leaf ⟨(i 0).val, idx2_lt0 i⟩ ⟨(i 1).val, idx2_lt1 i⟩

/-- Row `r` of the second result: the rectified hidden layer against the output weights, plus the output bias. -/
def vAt (r : Fin 65536) : EReal :=
  (∑ h : Fin 128, max ((∑ k : Fin 261, x (ix2 r k) * Wc1 (ix2 k h)) + bc1 (ix1 h)) zero * Wc2 (ix2 h (0 : Fin 1)))
  + bc2 (ix1 (0 : Fin 1))

/-- The second result, `[65536, 1]`. -/
def v : FVec Ideal ⟨2, ![65536, 1]⟩ .f32 :=
  fun i => vAt x Wc1 bc1 Wc2 bc2 ⟨(i 0).val, idx2_lt0 i⟩

end Cert.RefSpec

end
-- ==== Proof.RefRange.lean ====
/-
  The routing words stay small, so the host's indexing never wraps or clamps.

  A row's node at depth `d` is built from zero by `d` steps `n ↦ 2 n + bit` on 32-bit words, with `bit` a one-bit
  word widened with zeros; so as a natural number it is below `2^d`, and the word arithmetic never overflows. A word
  below `2^31` is not negative when read signed, so the host's "raise a negative index by the height" step leaves it
  alone, its signed reading is its value, and when the value is below the table's height the clamp leaves it alone as
  well: the row the host reads is the node's number. The same holds for the device a node addresses, `node * nd + q`
  with `q < nd` and `node < 64 / nd`: it is below 64.
-/
import proofs.«146547_j64330020159639_2_alg».proof.Proof.RefSpec

noncomputable section

namespace Cert.RefSpec

open Idealize.ShloMosaic Idealize.ShloMosaic.ValueIdx

/-! ## Words below `2^31` -/

/-- Read signed, a word below `2^31` is its value. -/
theorem toInt_of_small (w : BitVec 32) (h : w.toNat < 2147483648) : w.toInt = (w.toNat : Int) :=
  BitVec.toInt_eq_toNat_of_lt (by omega)

/-- A word below `2^31` is not negative. -/
theorem cmpi_slt_zero (w : BitVec 32) (h : w.toNat < 2147483648) : IntOp.cmpi .slt w 0#32 = 0#1 := by
  have hb : w.slt 0#32 = false := by
    simp only [BitVec.slt, toInt_of_small w h, BitVec.toInt_zero, decide_eq_false_iff_not]; omega
  show BitVec.ofBool (w.slt 0#32) = 0#1
  rw [hb]; rfl

/-- A word below `2^31` is at least zero. -/
theorem cmpi_sge_zero (w : BitVec 32) (h : w.toNat < 2147483648) : IntOp.cmpi .sge w 0#32 = 1#1 := by
  have hb : (0#32 : BitVec 32).sle w = true := by
    simp only [BitVec.sle, toInt_of_small w h, BitVec.toInt_zero, decide_eq_true_eq]; omega
  show BitVec.ofBool ((0#32 : BitVec 32).sle w) = 1#1
  rw [hb]; rfl

/-- A word below 64 is at most 63. -/
theorem cmpi_sle_63 (w : BitVec 32) (h : w.toNat < 64) : IntOp.cmpi .sle w 63#32 = 1#1 := by
  have hb : w.sle 63#32 = true := by
    simp only [BitVec.sle, toInt_of_small w (by omega), toInt_of_small 63#32 (by decide), decide_eq_true_eq]
    have : (63#32 : BitVec 32).toNat = 63 := by decide
    omega
  show BitVec.ofBool (w.sle 63#32) = 1#1
  rw [hb]; rfl

/-- The host's "raise a negative index" step leaves a word below `2^31` alone. -/
theorem wrap_small (N w : BitVec 32) (h : w.toNat < 2147483648) :
    Scalar.select (IntOp.cmpi .slt w 0#32) (IntOp.addi w N) w = w := by
  rw [cmpi_slt_zero w h]; exact select_zero _ _

/-- A sum of words that does not overflow. -/
theorem addi_toNat (a b : BitVec 32) (h : a.toNat + b.toNat < 4294967296) :
    (IntOp.addi a b).toNat = a.toNat + b.toNat := by
  unfold IntOp.addi
  rw [BitVec.toNat_add]; omega

/-- A product of a word with a literal that does not overflow. -/
theorem muli_toNat (a : BitVec 32) (k : Nat) (hk : k < 4294967296) (h : a.toNat * k < 4294967296) :
    (IntOp.muli a (BitVec.ofNat 32 k)).toNat = a.toNat * k := by
  unfold IntOp.muli
  rw [BitVec.toNat_mul, BitVec.toNat_ofNat, Nat.mod_eq_of_lt (show k < 2 ^ 32 by omega), Nat.mod_eq_of_lt (by omega)]

/-- A one-bit word widened with zeros keeps its value. -/
theorem setWidth_bit_toNat (b : BitVec 1) : (b.setWidth 32).toNat = b.toNat := by
  rw [BitVec.toNat_setWidth]; have := b.isLt; omega

/-! ## Reading a small word as a row -/

/-- A word below the table's height is read as its own value. -/
theorem rowOf_val (N : Nat) (hN : 0 < N) (n : BitVec 32) (h : n.toNat < N) (hN' : N ≤ 2147483648) :
    (rowOf N hN n).val = n.toNat := by
  show min (Scalar.select (IntOp.cmpi .slt n 0#32) (IntOp.addi n (BitVec.ofNat 32 N)) n).toInt.toNat (N - 1) = n.toNat
  rw [wrap_small _ n (by omega), toInt_of_small n (by omega)]
  omega

/-- The device column of `x` addressed from a first-device word `off`, when the device stays among the 64. -/
theorem devCol_val (off : BitVec 32) (j : Nat) (h : off.toNat + j / 4 < 64) :
    (devCol off j).val = 5 + 4 * off.toNat + j := by
  have hq : (BitVec.ofNat 32 (j / 4)).toNat = j / 4 := by
    rw [BitVec.toNat_ofNat]; exact Nat.mod_eq_of_lt (by omega)
  have hs : (IntOp.addi off (BitVec.ofNat 32 (j / 4))).toNat = off.toNat + j / 4 := by
    rw [addi_toNat _ _ (by omega), hq]
  show 5 + 4 * (rowOf 64 (by decide) (IntOp.addi off (BitVec.ofNat 32 (j / 4)))).val + j % 4 = _
  rw [rowOf_val 64 (by decide) _ (by omega) (by decide), hs]
  omega

/-! ## The step to a child -/

/-- The child's number: twice the node's, plus the bit. -/
theorem child_toNat (n : BitVec 32) (v : EReal) (h : n.toNat < 1073741824) :
    (child n v).toNat = 2 * n.toNat + (Ideal.cmp .oge v half).toNat := by
  have hb := (Ideal.cmp .oge v half).isLt
  unfold child
  rw [addi_toNat _ _ (by rw [muli_toNat n 2 (by decide) (by omega), setWidth_bit_toNat]; omega),
    muli_toNat n 2 (by decide) (by omega), setWidth_bit_toNat]
  omega

/-- A child of a node below `k` is below `2 k`. -/
theorem child_lt (n : BitVec 32) (v : EReal) (k : Nat) (h : n.toNat < k) (hk : k ≤ 1073741824) :
    (child n v).toNat < 2 * k := by
  have hb := (Ideal.cmp .oge v half).isLt
  rw [child_toNat n v (by omega)]
  omega

variable (x : FVec Ideal ⟨2, ![65536, 261]⟩ .f32)
  (w0 : FVec Ideal ⟨2, ![1, 261]⟩ .f32) (b0 : FVec Ideal ⟨1, ![1]⟩ .f32)
  (w1 : FVec Ideal ⟨2, ![2, 133]⟩ .f32) (b1 : FVec Ideal ⟨1, ![2]⟩ .f32)
  (w2 : FVec Ideal ⟨2, ![4, 69]⟩ .f32) (b2 : FVec Ideal ⟨1, ![4]⟩ .f32)

/-! ## The nodes of a row -/

theorem node0_toNat (r : Fin 65536) : (node0 r).toNat = 0 := rfl

theorem node1_lt (r : Fin 65536) : (node1 x w0 b0 r).toNat < 2 :=
  child_lt _ _ 1 (by rw [node0_toNat]; omega) (by decide)

theorem node2_lt (r : Fin 65536) : (node2 x w0 b0 w1 b1 r).toNat < 4 :=
  child_lt _ _ 2 (node1_lt x w0 b0 r) (by decide)

theorem node3_lt (r : Fin 65536) : (node3 x w0 b0 w1 b1 w2 b2 r).toNat < 8 :=
  child_lt _ _ 4 (node2_lt x w0 b0 w1 b1 r) (by decide)

/-! ## The rows and columns the host reads, as numbers -/

theorem row0_val (r : Fin 65536) : (rowOf 1 (by decide) (node0 r)).val = 0 := by
  rw [rowOf_val 1 (by decide) _ (by rw [node0_toNat]; omega) (by decide), node0_toNat]

theorem row1_val (r : Fin 65536) : (rowOf 2 (by decide) (node1 x w0 b0 r)).val = (node1 x w0 b0 r).toNat :=
  rowOf_val 2 (by decide) _ (node1_lt x w0 b0 r) (by decide)

theorem row2_val (r : Fin 65536) :
    (rowOf 4 (by decide) (node2 x w0 b0 w1 b1 r)).val = (node2 x w0 b0 w1 b1 r).toNat :=
  rowOf_val 4 (by decide) _ (node2_lt x w0 b0 w1 b1 r) (by decide)

theorem row3_val (r : Fin 65536) :
    (rowOf 8 (by decide) (node3 x w0 b0 w1 b1 w2 b2 r)).val = (node3 x w0 b0 w1 b1 w2 b2 r).toNat :=
  rowOf_val 8 (by decide) _ (node3_lt x w0 b0 w1 b1 w2 b2 r) (by decide)

/-- The first device of a node, as a number (the three depths: 64, 32 and 16 devices per node). -/
theorem off0_toNat (r : Fin 65536) : (IntOp.muli (node0 r) 64#32).toNat = 0 := by
  rw [muli_toNat _ 64 (by decide) (by rw [node0_toNat]; omega), node0_toNat]

theorem off1_toNat (r : Fin 65536) :
    (IntOp.muli (node1 x w0 b0 r) 32#32).toNat = (node1 x w0 b0 r).toNat * 32 :=
  muli_toNat _ 32 (by decide) (by have := node1_lt x w0 b0 r; omega)

theorem off2_toNat (r : Fin 65536) :
    (IntOp.muli (node2 x w0 b0 w1 b1 r) 16#32).toNat = (node2 x w0 b0 w1 b1 r).toNat * 16 :=
  muli_toNat _ 16 (by decide) (by have := node2_lt x w0 b0 w1 b1 r; omega)

theorem devCol0_val (r : Fin 65536) (j : Nat) (hj : j < 256) :
    (devCol (IntOp.muli (node0 r) 64#32) j).val = 5 + j := by
  rw [devCol_val _ _ (by rw [off0_toNat]; omega), off0_toNat]

theorem devCol1_val (r : Fin 65536) (j : Nat) (hj : j < 128) :
    (devCol (IntOp.muli (node1 x w0 b0 r) 32#32) j).val = 5 + 128 * (node1 x w0 b0 r).toNat + j := by
  have := node1_lt x w0 b0 r
  rw [devCol_val _ _ (by rw [off1_toNat]; omega), off1_toNat]
  omega

theorem devCol2_val (r : Fin 65536) (j : Nat) (hj : j < 64) :
    (devCol (IntOp.muli (node2 x w0 b0 w1 b1 r) 16#32) j).val = 5 + 64 * (node2 x w0 b0 w1 b1 r).toNat + j := by
  have := node2_lt x w0 b0 w1 b1 r
  rw [devCol_val _ _ (by rw [off2_toNat]; omega), off2_toNat]
  omega

end Cert.RefSpec

end
-- ==== Proof.Bridge.lean ====
/-
  The two arrangements of one computation, row by row.

  The kernel evaluates every node's gate on the whole feature row against a weight matrix in which each node's
  column is zero outside that node's own devices, and then keeps its own node's value by an indicator-weighted sum.
  The reference gathers its node's weights and its node's devices' features and multiplies only those. On the
  extended reals the two agree with no condition on the numbers: a product with the zero weight is zero whatever
  the other factor, an indicator-weighted sum keeps exactly the term of the node the routing word names (the word
  is below the number of nodes), and what is left of the 261-term sum is the five shared features plus the window
  of the node's own device features, in the same grouping as the reference adds them. The logistic function is one
  function in both spellings, the step to a child is one formula, and the leaf row is taken the same way.
-/
import proofs.«146547_j64330020159639_2_alg».proof.Proof.KerRow
import proofs.«146547_j64330020159639_2_alg».proof.Proof.HostWSpec
import proofs.«146547_j64330020159639_2_alg».proof.Proof.RefSpec
import proofs.«146547_j64330020159639_2_alg».proof.Proof.RefRange
import Idealize.ShloMosaic.Lib.FinSumWindow
import Idealize.ShloMosaic.Lib.IdealHost

noncomputable section

open scoped BigOperators

namespace Cert.Bridge

open Idealize.ShloMosaic Idealize.ShloMosaic.ValueIdx Cert.KerRow Cert.HostWSpec

/-! ## The indicator -/

/-- The indicator of the column the routing word names is one … -/
theorem hot_self (node : BitVec 32) (n : ℕ) (h : BitVec.ofNat 32 n = node) : hot node n = 1 := by
  subst h
  show (((((BitVec.ofBool (BitVec.ofNat 32 n == BitVec.ofNat 32 n)).setWidth 32).toInt : ℝ)) : EReal) = 1
  rw [beq_self_eq_true, show ((BitVec.ofBool true).setWidth 32).toInt = 1 from by decide]
  norm_num

/-- … and of every other column zero. -/
theorem hot_ne (node : BitVec 32) (n : ℕ) (h : BitVec.ofNat 32 n ≠ node) : hot node n = 0 := by
  show (((((BitVec.ofBool (BitVec.ofNat 32 n == node)).setWidth 32).toInt : ℝ)) : EReal) = 0
  rw [show (BitVec.ofNat 32 n == node) = false from beq_false_of_ne h,
    show ((BitVec.ofBool false).setWidth 32).toInt = 0 from by decide]
  norm_num

/-- A small number is the word exactly when the word reads as that number. -/
theorem ofNat_eq_iff (node : BitVec 32) (n : ℕ) (hn : n < 4294967296) : BitVec.ofNat 32 n = node ↔ node.toNat = n := by
  constructor
  · intro h; subst h; rw [BitVec.toNat_ofNat]; exact Nat.mod_eq_of_lt hn
  · intro h; apply BitVec.eq_of_toNat_eq; rw [BitVec.toNat_ofNat, h]; exact Nat.mod_eq_of_lt hn

/-- An indicator-weighted sum over the columns keeps the term of the column the word names. -/
theorem pick_sum {C : ℕ} (hC : C ≤ 256) (f : Fin C → EReal) (node : BitVec 32) (n0 : Fin C) (hn : node.toNat = n0.val) :
    ∑ n : Fin C, f n * hot node n.val = f n0 := by
  rw [Finset.sum_eq_single n0]
  · rw [hot_self node n0.val ((ofNat_eq_iff node n0.val (by have := n0.isLt; omega)).2 hn), mul_one]
  · intro n _ hne
    rw [hot_ne node n.val (fun h => hne (Fin.ext (((ofNat_eq_iff node n.val (by have := n.isLt; omega)).1 h).symm.trans hn))), mul_zero]
  · intro h; exact absurd (Finset.mem_univ _) h

/-- The same with the indicator written first. -/
theorem pick_sum' {C : ℕ} (hC : C ≤ 256) (f : Fin C → EReal) (node : BitVec 32) (n0 : Fin C) (hn : node.toNat = n0.val) :
    ∑ n : Fin C, hot node n.val * f n = f n0 := by
  rw [← pick_sum hC f node n0 hn]
  exact Finset.sum_congr rfl fun n _ => mul_comm _ _

/-! ## The row against one column of the combined weight matrix -/

/-- Against column `n0` of the combined matrix the 261 products reduce to the five shared features against the node's
    first five weights, plus the node's own window of device features against its remaining weights: every other
    product has the zero weight as a factor. -/
theorem dot_wcomb {C L : ℕ} (xr : Fin 261 → EReal) (w : (⟨2, ![C, 5 + L]⟩ : Shape).Idx → EReal) (n0 : Fin C)
    (hL : n0.val * L + L ≤ 256) :
    ∑ k : Fin 261, xr k * wcomb w (ix2 k n0)
      = (∑ k : Fin 5, xr ⟨k.val, by have := k.isLt; omega⟩ * w (ix2 n0 ⟨k.val, by have := k.isLt; omega⟩))
        + ∑ j : Fin L, xr ⟨5 + (n0.val * L + j.val), by have := j.isLt; omega⟩
            * w (ix2 n0 ⟨5 + j.val, by have := j.isLt; omega⟩) := by
  have h261 : 5 + 256 = 261 := by norm_num
  rw [← Equiv.sum_comp (finCongr h261) (fun k : Fin 261 => xr k * wcomb w (ix2 k n0)), Fin.sum_univ_add]
  refine congrArg₂ (· + ·) (Finset.sum_congr rfl fun i _ => ?_) ?_
  · refine congrArg₂ (· * ·) (congrArg xr (Fin.ext rfl)) ?_
    exact wcomb_top w _ n0 _ (show i.val < 5 from i.isLt) rfl
  · rw [Idealize.ShloMosaic.FinSumWindow.sum_window (N := 256) (W := L) (n0.val * L) hL
      (fun P : Fin 256 => xr (finCongr h261 (Fin.natAdd 5 P)) * wcomb w (ix2 (finCongr h261 (Fin.natAdd 5 P)) n0))]
    · refine Finset.sum_congr rfl fun j _ => ?_
      refine congrArg₂ (· * ·) (congrArg xr (Fin.ext rfl)) ?_
      refine wcomb_block w _ n0 _ ?_ ?_ ?_ ?_
      · show 5 ≤ 5 + (n0.val * L + j.val); omega
      · show n0.val * L ≤ 5 + (n0.val * L + j.val) - 5; omega
      · show 5 + (n0.val * L + j.val) - 5 < n0.val * L + L; have := j.isLt; omega
      · show 5 + j.val = 5 + (5 + (n0.val * L + j.val) - 5 - n0.val * L); omega
    · intro P hP
      have hd : (finCongr h261 (Fin.natAdd 5 P)).val = 5 + P.val := rfl
      show xr _ * wcomb w (ix2 (finCongr h261 (Fin.natAdd 5 P)) n0) = 0
      rw [wcomb_off w _ n0 (by rw [hd]; omega) (fun h => hP ⟨by have := h.1; omega, by have := h.2; omega⟩), mul_zero]

/-- The kernel's gate value of the row's own node, in the reference's arrangement. -/
theorem gate_eq {C L : ℕ} (hC : C ≤ 256) (xr : Fin 261 → EReal) (w : (⟨2, ![C, 5 + L]⟩ : Shape).Idx → EReal) (b : Vct C)
    (node : BitVec 32) (n0 : Fin C) (hn : node.toNat = n0.val) (hL : n0.val * L + L ≤ 256) :
    gateSel xr (wcomb w) b node
      = ((∑ k : Fin 5, xr ⟨k.val, by have := k.isLt; omega⟩ * w (ix2 n0 ⟨k.val, by have := k.isLt; omega⟩))
          + ∑ j : Fin L, xr ⟨5 + (n0.val * L + j.val), by have := j.isLt; omega⟩
              * w (ix2 n0 ⟨5 + j.val, by have := j.isLt; omega⟩))
        + b (ix1 n0) := by
  unfold gateSel
  rw [pick_sum hC _ node n0 hn]
  unfold gateAll
  rw [dot_wcomb xr w n0 hL]

/-! ## The logistic function and the step to a child, in both spellings -/

theorem sig_eq (g : EReal) : KerRow.sig g = Cert.RefSpec.sig g := by
  show Ideal.logistic g = Ideal.div (Ideal.ofBits .f32 0x3F800000#32) (Ideal.ofBits .f32 0x3F800000#32 + Ideal.exp (-g))
  rw [Ideal.ofBits_one_f32]
  rfl

theorem next_eq (node : BitVec 32) (v : EReal) : KerRow.next node v = Cert.RefSpec.child node v := rfl

/-! ## The three depths, and the rows' results -/

section Rows
open Cert.RefSpec

variable (x : FVec Ideal ⟨2, ![65536, 261]⟩ .f32)
  (w0 : FVec Ideal ⟨2, ![1, 261]⟩ .f32) (b0 : FVec Ideal ⟨1, ![1]⟩ .f32)
  (w1 : FVec Ideal ⟨2, ![2, 133]⟩ .f32) (b1 : FVec Ideal ⟨1, ![2]⟩ .f32)
  (w2 : FVec Ideal ⟨2, ![4, 69]⟩ .f32) (b2 : FVec Ideal ⟨1, ![4]⟩ .f32)
  (leaf : FVec Ideal ⟨2, ![8, 8]⟩ .f32)
  (Wc1 : FVec Ideal ⟨2, ![261, 128]⟩ .f32) (bc1 : FVec Ideal ⟨1, ![128]⟩ .f32)
  (Wc2 : FVec Ideal ⟨2, ![128, 1]⟩ .f32) (bc2 : FVec Ideal ⟨1, ![1]⟩ .f32)

/-- Row `r` of the features. -/
abbrev xrow (r : Fin 65536) : Fin 261 → EReal := fun k => x (ix2 r k)

/-- The tree the kernel is handed: the three combined weight matrices, the biases and the leaf table. -/
abbrev tree : Tree :=
  ⟨wcomb (C := 1) (L := 256) w0, b0, wcomb (C := 2) (L := 128) w1, b1, wcomb (C := 4) (L := 64) w2, b2, leaf⟩

/-- Depth 0: the kernel's root gate is the reference's. -/
theorem gate0_eq (r : Fin 65536) :
    gateSel (xrow x r) (wcomb (C := 1) (L := 256) w0) b0 (node0 r) = gate0 x w0 b0 r := by
  have hrow := row0_val r
  rw [gate_eq (by decide) _ _ b0 _ (rowOf 1 (by decide) (node0 r)) (by rw [hrow]; exact node0_toNat r) (by rw [hrow])]
  unfold gate0
  refine congrArg₂ (· + ·) (congrArg₂ (· + ·) rfl (Finset.sum_congr rfl fun j _ => ?_)) rfl
  refine congrArg (fun t => x (ix2 r t) * _) (Fin.ext ?_)
  rw [devCol0_val r j.val j.isLt]
  show 5 + ((rowOf 1 (by decide) (node0 r)).val * 256 + j.val) = 5 + j.val
  rw [hrow]; omega

/-- Depth 1. -/
theorem gate1_eq (r : Fin 65536) :
    gateSel (xrow x r) (wcomb (C := 2) (L := 128) w1) b1 (node1 x w0 b0 r) = gate1 x w0 b0 w1 b1 r := by
  have hrow := row1_val x w0 b0 r
  have hlt := node1_lt x w0 b0 r
  rw [gate_eq (by decide) _ _ b1 _ (rowOf 2 (by decide) (node1 x w0 b0 r)) hrow.symm (by rw [hrow]; omega)]
  unfold gate1
  refine congrArg₂ (· + ·) (congrArg₂ (· + ·) rfl (Finset.sum_congr rfl fun j _ => ?_)) rfl
  refine congrArg (fun t => x (ix2 r t) * _) (Fin.ext ?_)
  rw [devCol1_val x w0 b0 r j.val j.isLt]
  show 5 + ((rowOf 2 (by decide) (node1 x w0 b0 r)).val * 128 + j.val) = 5 + 128 * (node1 x w0 b0 r).toNat + j.val
  rw [hrow]; omega

/-- Depth 2. -/
theorem gate2_eq (r : Fin 65536) :
    gateSel (xrow x r) (wcomb (C := 4) (L := 64) w2) b2 (node2 x w0 b0 w1 b1 r) = gate2 x w0 b0 w1 b1 w2 b2 r := by
  have hrow := row2_val x w0 b0 w1 b1 r
  have hlt := node2_lt x w0 b0 w1 b1 r
  rw [gate_eq (by decide) _ _ b2 _ (rowOf 4 (by decide) (node2 x w0 b0 w1 b1 r)) hrow.symm (by rw [hrow]; omega)]
  unfold gate2
  refine congrArg₂ (· + ·) (congrArg₂ (· + ·) rfl (Finset.sum_congr rfl fun j _ => ?_)) rfl
  refine congrArg (fun t => x (ix2 r t) * _) (Fin.ext ?_)
  rw [devCol2_val x w0 b0 w1 b1 r j.val j.isLt]
  show 5 + ((rowOf 4 (by decide) (node2 x w0 b0 w1 b1 r)).val * 64 + j.val) = 5 + 64 * (node2 x w0 b0 w1 b1 r).toNat + j.val
  rw [hrow]; omega

theorem val0_eq (r : Fin 65536) : KerRow.val0 (tree w0 b0 w1 b1 w2 b2 leaf) (xrow x r) = RefSpec.val0 x w0 b0 r := by
  unfold KerRow.val0 RefSpec.val0
  rw [sig_eq]
  exact congrArg _ (gate0_eq x w0 b0 r)

theorem node1_eq (r : Fin 65536) : KerRow.node1 (tree w0 b0 w1 b1 w2 b2 leaf) (xrow x r) = RefSpec.node1 x w0 b0 r := by
  unfold KerRow.node1 RefSpec.node1
  rw [val0_eq, next_eq]
  rfl

theorem val1_eq (r : Fin 65536) : KerRow.val1 (tree w0 b0 w1 b1 w2 b2 leaf) (xrow x r) = RefSpec.val1 x w0 b0 w1 b1 r := by
  unfold KerRow.val1 RefSpec.val1
  rw [node1_eq, sig_eq]
  exact congrArg _ (gate1_eq x w0 b0 w1 b1 r)

theorem node2_eq (r : Fin 65536) :
    KerRow.node2 (tree w0 b0 w1 b1 w2 b2 leaf) (xrow x r) = RefSpec.node2 x w0 b0 w1 b1 r := by
  unfold KerRow.node2 RefSpec.node2
  rw [val1_eq, node1_eq, next_eq]

theorem val2_eq (r : Fin 65536) :
    KerRow.val2 (tree w0 b0 w1 b1 w2 b2 leaf) (xrow x r) = RefSpec.val2 x w0 b0 w1 b1 w2 b2 r := by
  unfold KerRow.val2 RefSpec.val2
  rw [node2_eq, sig_eq]
  exact congrArg _ (gate2_eq x w0 b0 w1 b1 w2 b2 r)

theorem node3_eq (r : Fin 65536) :
    KerRow.node3 (tree w0 b0 w1 b1 w2 b2 leaf) (xrow x r) = RefSpec.node3 x w0 b0 w1 b1 w2 b2 r := by
  unfold KerRow.node3 RefSpec.node3
  rw [val2_eq, node2_eq, next_eq]

theorem cum3_eq (r : Fin 65536) :
    KerRow.cum3 (tree w0 b0 w1 b1 w2 b2 leaf) (xrow x r) = RefSpec.cum3 x w0 b0 w1 b1 w2 b2 r := by
  unfold KerRow.cum3 KerRow.cum2 RefSpec.cum3 RefSpec.cum2 RefSpec.cum1
  rw [val0_eq, val1_eq, val2_eq]
  rfl

/-- THE TREE, row by row: the kernel's row result on the combined matrices is the reference's entry. -/
theorem rowP_eq (r : Fin 65536) (c : Fin 8) :
    rowP (tree w0 b0 w1 b1 w2 b2 leaf) (xrow x r) c = pAt x w0 b0 w1 b1 w2 b2 leaf r c := by
  unfold rowP pAt
  rw [cum3_eq, node3_eq]
  refine congrArg (fun t : EReal => RefSpec.cum3 x w0 b0 w1 b1 w2 b2 r * t) ?_
  exact pick_sum' (by decide) (fun n : Fin 8 => leaf (ix2 n c)) _ (rowOf 8 (by decide) (node3 x w0 b0 w1 b1 w2 b2 r))
    (row3_val x w0 b0 w1 b1 w2 b2 r).symm

/-- THE CRITIC, row by row: the two programs write the same formula. -/
theorem rowV_eq (r : Fin 65536) : rowV (xrow x r) Wc1 bc1 Wc2 bc2 = vAt x Wc1 bc1 Wc2 bc2 r := rfl

end Rows

end Cert.Bridge

end
-- ==== Proof.KerFinal.lean ====
/-
  The kernel's two results as the reference's functions of the launch contents of the arguments.

  The region finds the feature array, the biases, the leaf table and the critic's arrays as launched (no host
  operation writes them), and the three gate weight matrices as the combined matrices of the launched gate weights.
  On those, row by row, the kernel's row-wise results are the reference's entries (Bridge.lean). So the kernel's run
  ends with both result arrays at the reference's functions of what the arguments held at launch.
-/
import proofs.«146547_j64330020159639_2_alg».proof.Proof.KerValue
import proofs.«146547_j64330020159639_2_alg».proof.Proof.HostW
import proofs.«146547_j64330020159639_2_alg».proof.Proof.Bridge

set_option maxRecDepth 16384

noncomputable section

namespace Cert.KernelIdeal.KerFinal

open Cert.KernelIdeal Cert.KernelIdeal.Gen Cert.KernelIdeal.Hand Idealize.ShloMosaic Idealize.ShloMosaic.TcCoe Idealize.SL.Sem
open Idealize.ShloMosaic.ValueIdx Cert.KerRow

variable (m : (ℓ : Loc nD τ sig) → Buf (Elt Ideal) ℓ) (ρ : Dev nD → PrngReg)

/-- The tree's result array is the reference's first result of the launched arguments. -/
theorem GP_eq (c : Dev nD) :
    KerValue.GP m c = Cert.RefSpec.p (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  funext i
  unfold KerValue.GP
  rw [V_main_arg0 m c, V_main_arg2 m c, V_main_arg4 m c, V_main_arg6 m c, V_main_arg7 m c]
  rw [show (V m c main_v7 : S261x1.Idx → EReal) = _ from Cert.KernelIdeal.HostW.wcomb0_eq m c,
    show (V m c main_v24 : S261x2.Idx → EReal) = _ from Cert.KernelIdeal.HostW.wcomb1_eq m c,
    show (V m c main_v53 : S261x4.Idx → EReal) = _ from Cert.KernelIdeal.HostW.wcomb2_eq m c]
  exact Cert.Bridge.rowP_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) ⟨(i 0).val, idx2_lt0 i⟩ ⟨(i 1).val, idx2_lt1 i⟩

/-- The critic's result array is the reference's second result of the launched arguments. -/
theorem GV_eq (c : Dev nD) :
    KerValue.GV m c = Cert.RefSpec.v (m ((c.tc : Thread nD τ).loc main_arg0)) (m ((c.tc : Thread nD τ).loc main_arg8)) (m ((c.tc : Thread nD τ).loc main_arg9)) (m ((c.tc : Thread nD τ).loc main_arg10)) (m ((c.tc : Thread nD τ).loc main_arg11)) := by
  funext i
  unfold KerValue.GV
  rw [V_main_arg0 m c, V_main_arg8 m c, V_main_arg9 m c, V_main_arg10 m c, V_main_arg11 m c]
  exact Cert.Bridge.rowV_eq (m ((c.tc : Thread nD τ).loc main_arg0)) (m ((c.tc : Thread nD τ).loc main_arg8)) (m ((c.tc : Thread nD τ).loc main_arg9)) (m ((c.tc : Thread nD τ).loc main_arg10)) (m ((c.tc : Thread nD τ).loc main_arg11)) ⟨(i 0).val, idx2_lt0 i⟩

/-- THE KERNEL'S RUN against the reference's functions: both results named, every argument as launched. -/
theorem run : θ_run defs (onTc (τ := τ) (main (F := Ideal))) ⟨m, fun _ => 0, ρ⟩ fun r => ∀ c : Dev nD,
      r.2.mem ((c.tc : Thread nD τ).loc main_v54_0) = Cert.RefSpec.p (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v54_1) = Cert.RefSpec.v (m ((c.tc : Thread nD τ).loc main_arg0)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨(h c).1.trans (GP_eq m c), (h c).2.1.trans (GV_eq m c), (h c).2.2⟩)
    (KerValue.run m ρ)

end Cert.KernelIdeal.KerFinal

end
-- ==== Proof.LibTRef.lean ====
/-
  Typed references: writing through one and reading back.

  A typed reference is a buffer together with the fact that the buffer's type is a given one; contents at the given type are
  carried to contents of the buffer, and back, along that fact. For any typed reference the round trip is the identity,
  in both orders: the fact is an equation between two types, and along an equation of a type with itself carrying is the
  identity.
-/
import Idealize.ShloMosaic.Lib.StableHlo

namespace Cert.LibTRef

open Idealize.ShloMosaic Idealize.ShloMosaic.StableHlo

variable {sig : RefSig} {Val : EltTy → Type} {T : BufTy}

/-- Carrying contents along an equation of types and back along the same equation is the identity. -/
theorem cast_cast_symm {α β : Type} (h : α = β) (h' : β = α) (v : α) : cast h' (cast h v) = v := by
  subst h; rfl

/-- Contents written through a typed reference read back through it unchanged. -/
theorem ofBuf_toBuf (x : TRef sig T) (v : T.Contents Val) : x.ofBuf (x.toBuf v) = v :=
  cast_cast_symm _ _ v

/-- A buffer's contents read through a typed reference write back through it unchanged. -/
theorem toBuf_ofBuf (x : TRef sig T) (u : x.ref.ty.Contents Val) : x.toBuf (x.ofBuf u) = u :=
  cast_cast_symm _ _ u

end Cert.LibTRef
-- ==== Proof.RefV.lean ====
/-
  The critic: the second result of the reference is the specification's.

  The second result does not route: it is a two-layer perceptron of the row, a 261-term dot product per hidden unit, a
  bias, a rectifier (the maximum with zero), a 128-term dot product, a bias. Each host operation is read at an index,
  from the result back to the arguments, and what is left is the specification's expression once the composed index
  functions are written out by coordinates.
-/
import proofs.«146547_j64330020159639_2_alg».proof.Proof.RefReadP
import proofs.«146547_j64330020159639_2_alg».proof.Proof.RefSpec

noncomputable section

open scoped BigOperators

namespace Cert.ReferenceIdeal.RefSide

open Cert.ReferenceIdeal Cert.ReferenceIdeal.Gen Cert.ReferenceIdeal.ReadP Idealize.ShloMosaic Idealize.ShloMosaic.TcCoe
  Idealize.ShloMosaic.ValueIdx

/-- The critic's result is the specification's: a dot product with the first weights, the bias, the rectifier, a dot
    product with the output weights, the output bias — read entry by entry. -/
theorem v_eq (x0 : (⟨S65536x261, .f32⟩ : BufTy).Contents (Elt Ideal)) (x8 : (⟨S261x128, .f32⟩ : BufTy).Contents (Elt Ideal))
    (x9 : (⟨S128, .f32⟩ : BufTy).Contents (Elt Ideal)) (x10 : (⟨S128x1, .f32⟩ : BufTy).Contents (Elt Ideal))
    (x11 : (⟨S1, .f32⟩ : BufTy).Contents (Elt Ideal)) :
    val_main_v161 (F := Ideal) x0 x8 x9 x10 x11 = Cert.RefSpec.v x0 x8 x9 x10 x11 := by
  funext i
  obtain ⟨r, z, rfl⟩ : ∃ (r : Fin 65536) (z : Fin 1), i = ix2 r z := ⟨i 0, i 1, eq_ix2 i⟩
  obtain rfl : z = 0 := Subsingleton.elim _ _
  show _ = Cert.RefSpec.vAt x0 x8 x9 x10 x11 r
  unfold Cert.RefSpec.vAt
  rw [val_main_v161_apply, val_main_v158_apply, val_main_v160_apply, val_main_v159_apply]
  simp only [val_main_v157_apply, val_main_v156_apply, val_main_v153_apply, val_main_v155_apply, val_main_v154_apply,
    val_main_call3_v0_apply, val_main_call3_cst_apply, Ideal.addf_def, Ideal.maximumf_def, Ideal.ofBits_def]
  -- the index functions the stages compose are the coordinates written out
  have e1 : ∀ (h : Fin 128) (k : Fin 261),
      lidx_main_v153 (lidx_main_v158 (ix2 r (0 : Fin 1)) h) k = ix2 r k := fun h k =>
    funext fun a => Fin.ext (by match a with | ⟨0, _⟩ => rfl | ⟨1, _⟩ => rfl)
  have e2 : ∀ (h : Fin 128) (k : Fin 261),
      ridx_main_v153 (lidx_main_v158 (ix2 r (0 : Fin 1)) h) k = ix2 k h := fun h k =>
    funext fun a => Fin.ext (by match a with | ⟨0, _⟩ => rfl | ⟨1, _⟩ => rfl)
  have e3 : ∀ h : Fin 128, idx_main_v154 (idx_main_v155 (lidx_main_v158 (ix2 r (0 : Fin 1)) h)) = ix1 h := fun h =>
    funext fun a => Fin.ext (by match a with | ⟨0, _⟩ => rfl)
  have e4 : ∀ h : Fin 128, ridx_main_v158 (ix2 r (0 : Fin 1)) h = ix2 h (0 : Fin 1) := fun h =>
    funext fun a => Fin.ext (by match a with | ⟨0, _⟩ => rfl | ⟨1, _⟩ => rfl)
  have e5 : idx_main_v159 (idx_main_v160 (ix2 r (0 : Fin 1))) = ix1 (0 : Fin 1) :=
    funext fun a => Fin.ext (by match a with | ⟨0, _⟩ => rfl)
  simp only [e1, e2, e3, e4, e5]

end Cert.ReferenceIdeal.RefSide

end
-- ==== Proof.LibGatherBatched.lean ====
/-
  A batched gather along the middle axis of whole last-axis slices, read at an index, for any extents.

  What `take_along_axis (a, pos[:, :, None], axis = 1)` lowers to for an array `a : [B, N, C]` and positions
  `[B, M]` held as a `[B, M, 1]` array: axis 0 of the array is a batching axis paired with axis 0 of the positions,
  axis 1 of the array is collapsed and is the one axis the position addresses, the slices are `[1, 1, C]`, and the
  result's last axis is the one offset axis. Result entry `(r, q, c)` is `a (r, n, c)` where `n` is the position
  `pos (r, q, 0)` read as a signed integer and clamped into `0 … N − 1`; the batch row and the last coordinate pass
  through.
-/
import Idealize.ShloMosaic.Lib.ValueIdx

noncomputable section

namespace Cert.LibGatherBatched

open Idealize.ShloMosaic Idealize.ShloMosaic.ValueIdx

variable {α : Type}

/-- The dimension numbers of that gather; their conditions are decided on a program's literal shapes. -/
abbrev alongDims (B N M C : Nat)
    (wf : GatherDims.WF ⟨3, ![B, N, C]⟩ ⟨3, ![B, M, 1]⟩ ⟨3, ![B, M, C]⟩ [2] [1] [0] [1] [0] 2 ![1, 1, C]) :
    GatherDims ⟨3, ![B, N, C]⟩ ⟨3, ![B, M, 1]⟩ ⟨3, ![B, M, C]⟩ where
  offsetDims := [2]
  collapsedSliceDims := [1]
  operandBatchingDims := [0]
  startIndicesBatchingDims := [0]
  startIndexMap := [1]
  indexVectorDim := 2
  sliceSizes := ![1, 1, C]
  wf := wf

/-- The gather read at `(r, q, c)`: entry `c` of the slice of batch row `r` at the position `pos (r, q, 0)`, read
    signed and clamped into `0 … N − 1`. -/
theorem gather_along_apply {B N M C w : Nat} (hN : 0 < N)
    (wf : GatherDims.WF ⟨3, ![B, N, C]⟩ ⟨3, ![B, M, 1]⟩ ⟨3, ![B, M, C]⟩ [2] [1] [0] [1] [0] 2 ![1, 1, C])
    (x : (⟨3, ![B, N, C]⟩ : Shape).Idx → α) (pos : IVec ⟨3, ![B, M, 1]⟩ w) (r : Fin B) (q : Fin M) (c : Fin C) :
    Host.gather (alongDims B N M C wf) x pos (ix3 r q c)
      = x (ix3 r ⟨min (pos (ix3 r q (0 : Fin 1))).toInt.toNat (N - 1), by omega⟩ c) := by
  unfold Host.gather
  refine congrArg x (funext fun a => Fin.ext ?_)
  match a with
  | ⟨0, _⟩ =>
    show (alongDims B N M C wf).start (ix3 r q c) pos 0 + (alongDims B N M C wf).batchCoord (ix3 r q c) 0
      + (alongDims B N M C wf).offCoord (ix3 r q c) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin 3) ∈ (alongDims B N M C wf).operandBatchingDims from List.mem_singleton.mpr rfl)]
    rfl
  | ⟨1, _⟩ =>
    show (alongDims B N M C wf).start (ix3 r q c) pos 1 + (alongDims B N M C wf).batchCoord (ix3 r q c) 1
      + (alongDims B N M C wf).offCoord (ix3 r q c) 1 = _
    rw [GatherDims.batchCoord_eq_zero _ _ _ (fun h => Nat.one_ne_zero (congrArg Fin.val (List.mem_singleton.mp h))),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (alongDims B N M C wf).startIndexMap from List.mem_singleton.mpr rfl)]
    have hsi : (alongDims B N M C wf).siIdx (ix3 r q c) ⟨List.idxOf (1 : Fin 3) (alongDims B N M C wf).startIndexMap,
        List.idxOf_lt_length_iff.2 (List.mem_singleton.mpr rfl)⟩ = ix3 r q (0 : Fin 1) := by
      funext b; refine Fin.ext ?_
      match b with
      | ⟨0, _⟩ => rfl
      | ⟨1, _⟩ => rfl
      | ⟨2, _⟩ => rfl
    rw [hsi]
    rfl
  | ⟨2, _⟩ =>
    show (alongDims B N M C wf).start (ix3 r q c) pos 2 + (alongDims B N M C wf).batchCoord (ix3 r q c) 2
      + (alongDims B N M C wf).offCoord (ix3 r q c) 2 = c.val
    rw [GatherDims.batchCoord_eq_zero _ _ _ (fun h => by
      have h20 : (2 : Nat) = 0 := congrArg Fin.val (List.mem_singleton.mp h); omega)]
    unfold GatherDims.start
    rw [dif_neg (show ¬ (2 : Fin 3) ∈ (alongDims B N M C wf).startIndexMap from
      fun h => by have h21 : (2 : Nat) = 1 := congrArg Fin.val (List.mem_singleton.mp h); omega)]
    simp only [Nat.add_zero, Nat.zero_add]
    rfl

end Cert.LibGatherBatched

end
-- ==== Proof.LibGatherRows.lean ====
/-
  Whole rows of a table gathered at a column of row numbers, read at an index, for any extents.

  What `table[rows]` lowers to for a table `[N, C]` and row numbers `[R]` held as an `[R, 1]` array: a gather with one
  offset axis (the columns), the row axis collapsed, slices of one row. Result entry `(r, k)` is the table at column `k`
  of the row whose number is `rows (r, 0)`, read as a signed integer and clamped into `0 … N − 1`; the column passes
  through.
-/
import Idealize.ShloMosaic.Lib.ValueIdx

noncomputable section

namespace Cert.LibGatherRows

open Idealize.ShloMosaic Idealize.ShloMosaic.ValueIdx

variable {α : Type}

/-- The dimension numbers of that gather; their conditions are decided on a program's literal shapes. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gather read at `(r, k)`: column `k` of the row numbered `rows (r, 0)`, read signed and clamped into the table. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowDims N R C wf) x idx (ix2 r k)
      = x (ix2 ⟨min (idx (ix2 r (0 : Fin 1))).toInt.toNat (N - 1), by omega⟩ k) := by
  unfold Host.gather
  refine congrArg x (funext fun a => Fin.ext ?_)
  match a with
  | ⟨0, _⟩ =>
    show (rowDims N R C wf).start (ix2 r k) idx 0 + (rowDims N R C wf).batchCoord (ix2 r k) 0
      + (rowDims N R C wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r k) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r k) idx 1 + (rowDims N R C wf).batchCoord (ix2 r k) 1
      + (rowDims N R C wf).offCoord (ix2 r k) 1 = k.val
    rw [GatherDims.batchCoord_eq_zero _ _ _ List.not_mem_nil]
    unfold GatherDims.start
    rw [dif_neg (show ¬ (1 : Fin 2) ∈ (rowDims N R C wf).startIndexMap from
      fun h => Nat.one_ne_zero (congrArg Fin.val (List.mem_singleton.mp h)))]
    simp only [Nat.add_zero, Nat.zero_add]
    rfl

end Cert.LibGatherRows

end
-- ==== Proof.LibGatherVec.lean ====
/-
  A vector gathered at a column of positions, read at an index, for any extents.

  What `vec[pos]` lowers to for a vector `[N]` and positions `[R]` held as an `[R, 1]` array: a gather with no offset
  axis, the vector's one axis collapsed, slices of one element. Result entry `r` is the vector at the position
  `pos (r, 0)`, read as a signed integer and clamped into `0 … N − 1`.
-/
import Idealize.ShloMosaic.Lib.ValueIdx

noncomputable section

namespace Cert.LibGatherVec

open Idealize.ShloMosaic Idealize.ShloMosaic.ValueIdx

variable {α : Type}

/-- The dimension numbers of that gather; their conditions are decided on a program's literal shapes. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at `r`: the vector at the position `pos (r, 0)`, read signed and clamped into the vector. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 ⟨min (idx (ix2 r (0 : Fin 1))).toInt.toNat (N - 1), by omega⟩) := by
  unfold Host.gather
  refine congrArg x (funext fun a => Fin.ext ?_)
  match a with
  | ⟨0, _⟩ =>
    show (vecDims N R wf).start (ix1 r) idx 0 + (vecDims N R wf).batchCoord (ix1 r) 0
      + (vecDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N R wf).startIndexMap from List.mem_singleton.mpr rfl)]
    have hsi : (vecDims N R wf).siIdx (ix1 r) ⟨List.idxOf (0 : Fin 1) (vecDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

end Cert.LibGatherVec

end
-- ==== Proof.RefGather.lean ====
/-
  The host's gathers of this program, read at an index.

  Three kinds occur. Whole rows of a weight table picked by a column of row words (depth by depth: tables of 1, 2 and 4
  rows, and the 8 x 8 leaf table); single entries of a bias vector picked the same way; and, inside the "take along an
  axis" helper, whole four-feature slices of the `[65536, 64, 4]` device array picked, row by row, by a `[65536, nd, 1]`
  array of device words. In each the word is read signed and clamped into the table; the other coordinates pass
  through.
-/
import proofs.«146547_j64330020159639_2_alg».proof.Proof.Gen.ReferenceIdeal
import proofs.«146547_j64330020159639_2_alg».proof.Proof.LibGatherBatched
import proofs.«146547_j64330020159639_2_alg».proof.Proof.LibGatherRows
import proofs.«146547_j64330020159639_2_alg».proof.Proof.LibGatherVec

noncomputable section

namespace Cert.ReferenceIdeal.RefSide

open Cert.ReferenceIdeal Cert.ReferenceIdeal.Gen Idealize.ShloMosaic Idealize.ShloMosaic.ValueIdx

variable {α : Type}

/-! ## Device slices, 64 / 32 / 16 per row -/

theorem gather_dev64 (a : S65536x64x4.Idx → α) (pos : IVec S65536x64x1 32) (r : Fin 65536) (q : Fin 64) (c : Fin 4) :
    Host.gather gather_S65536x64x4_S65536x64x1_S65536x64x4_2_1_0_0_1_2_114 a pos (ix3 r q c)
      = a (ix3 r (⟨min (pos (ix3 r q (0 : Fin 1))).toInt.toNat 63, by omega⟩ : Fin 64) c) :=
  Cert.LibGatherBatched.gather_along_apply (by decide)
    gather_S65536x64x4_S65536x64x1_S65536x64x4_2_1_0_0_1_2_114_wf a pos r q c

theorem gather_dev32 (a : S65536x64x4.Idx → α) (pos : IVec S65536x32x1 32) (r : Fin 65536) (q : Fin 32) (c : Fin 4) :
    Host.gather gather_S65536x64x4_S65536x32x1_S65536x32x4_2_1_0_0_1_2_114 a pos (ix3 r q c)
      = a (ix3 r (⟨min (pos (ix3 r q (0 : Fin 1))).toInt.toNat 63, by omega⟩ : Fin 64) c) :=
  Cert.LibGatherBatched.gather_along_apply (by decide)
    gather_S65536x64x4_S65536x32x1_S65536x32x4_2_1_0_0_1_2_114_wf a pos r q c

theorem gather_dev16 (a : S65536x64x4.Idx → α) (pos : IVec S65536x16x1 32) (r : Fin 65536) (q : Fin 16) (c : Fin 4) :
    Host.gather gather_S65536x64x4_S65536x16x1_S65536x16x4_2_1_0_0_1_2_114 a pos (ix3 r q c)
      = a (ix3 r (⟨min (pos (ix3 r q (0 : Fin 1))).toInt.toNat 63, by omega⟩ : Fin 64) c) :=
  Cert.LibGatherBatched.gather_along_apply (by decide)
    gather_S65536x64x4_S65536x16x1_S65536x16x4_2_1_0_0_1_2_114_wf a pos r q c

/-! ## Rows of the weight tables and of the leaf table -/

theorem gather_rows1 (t : S1x261.Idx → α) (rows : IVec S65536x1 32) (r : Fin 65536) (k : Fin 261) :
    Host.gather gather_S1x261_S65536x1_S65536x261_1_0_n_n_0_1_1261 t rows (ix2 r k)
      = t (ix2 (⟨min (rows (ix2 r (0 : Fin 1))).toInt.toNat 0, by omega⟩ : Fin 1) k) :=
  Cert.LibGatherRows.gather_rows_apply (by decide) gather_S1x261_S65536x1_S65536x261_1_0_n_n_0_1_1261_wf t rows r k

theorem gather_rows2 (t : S2x133.Idx → α) (rows : IVec S65536x1 32) (r : Fin 65536) (k : Fin 133) :
    Host.gather gather_S2x133_S65536x1_S65536x133_1_0_n_n_0_1_1133 t rows (ix2 r k)
      = t (ix2 (⟨min (rows (ix2 r (0 : Fin 1))).toInt.toNat 1, by omega⟩ : Fin 2) k) :=
  Cert.LibGatherRows.gather_rows_apply (by decide) gather_S2x133_S65536x1_S65536x133_1_0_n_n_0_1_1133_wf t rows r k

theorem gather_rows4 (t : S4x69.Idx → α) (rows : IVec S65536x1 32) (r : Fin 65536) (k : Fin 69) :
    Host.gather gather_S4x69_S65536x1_S65536x69_1_0_n_n_0_1_169 t rows (ix2 r k)
      = t (ix2 (⟨min (rows (ix2 r (0 : Fin 1))).toInt.toNat 3, by omega⟩ : Fin 4) k) :=
  Cert.LibGatherRows.gather_rows_apply (by decide) gather_S4x69_S65536x1_S65536x69_1_0_n_n_0_1_169_wf t rows r k

theorem gather_rows8 (t : S8x8.Idx → α) (rows : IVec S65536x1 32) (r : Fin 65536) (k : Fin 8) :
    Host.gather gather_S8x8_S65536x1_S65536x8_1_0_n_n_0_1_18 t rows (ix2 r k)
      = t (ix2 (⟨min (rows (ix2 r (0 : Fin 1))).toInt.toNat 7, by omega⟩ : Fin 8) k) :=
  Cert.LibGatherRows.gather_rows_apply (by decide) gather_S8x8_S65536x1_S65536x8_1_0_n_n_0_1_18_wf t rows r k

/-! ## Entries of the bias vectors -/

theorem gather_vec1 (t : S1.Idx → α) (rows : IVec S65536x1 32) (r : Fin 65536) :
    Host.gather gather_S1_S65536x1_S65536_n_0_n_n_0_1_1 t rows (ix1 r)
      = t (ix1 (⟨min (rows (ix2 r (0 : Fin 1))).toInt.toNat 0, by omega⟩ : Fin 1)) :=
  Cert.LibGatherVec.gather_vec_apply (by decide) gather_S1_S65536x1_S65536_n_0_n_n_0_1_1_wf t rows r

theorem gather_vec2 (t : S2.Idx → α) (rows : IVec S65536x1 32) (r : Fin 65536) :
    Host.gather gather_S2_S65536x1_S65536_n_0_n_n_0_1_1 t rows (ix1 r)
      = t (ix1 (⟨min (rows (ix2 r (0 : Fin 1))).toInt.toNat 1, by omega⟩ : Fin 2)) :=
  Cert.LibGatherVec.gather_vec_apply (by decide) gather_S2_S65536x1_S65536_n_0_n_n_0_1_1_wf t rows r

theorem gather_vec4 (t : S4.Idx → α) (rows : IVec S65536x1 32) (r : Fin 65536) :
    Host.gather gather_S4_S65536x1_S65536_n_0_n_n_0_1_1 t rows (ix1 r)
      = t (ix1 (⟨min (rows (ix2 r (0 : Fin 1))).toInt.toNat 3, by omega⟩ : Fin 4)) :=
  Cert.LibGatherVec.gather_vec_apply (by decide) gather_S4_S65536x1_S65536_n_0_n_n_0_1_1_wf t rows r

end Cert.ReferenceIdeal.RefSide

end
-- ==== Proof.LibAllOnes.lean ====
/-
  An `and`-reduction of ones is one.

  A one-operand reduce by `and` over one-bit words folds the operand's elements that drop to a result index into the
  initial value; when the initial value and every element are `1` the fold never leaves `1`. (The converse — a result
  of `1` had only ones — is the library's.)
-/
import Idealize.ShloMosaic.Lib.ReduceAll

namespace Cert.LibAllOnes

open Idealize.ShloMosaic

/-- A left fold by `and` from `1` over words that are all `1` is `1`. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- A reduce by `and` of an array of ones from an initial value of ones is `1` at every result index. -/
theorem reduce_andi_one {s t u : Shape} {axes : List (Fin s.rank)} (x : s.Idx → BitVec 1) (init : u.Idx → BitVec 1)
    (h : s.ReducesTo axes t) (hu : 0 < u.numel) (j : t.Idx) (hinit : ∀ k, init k = 1#1) (hx : ∀ i, x i = 1#1) :
    Host.reduce IntOp.andi x init h hu j = 1#1 := by
  rw [Host.reduce_eq_foldl, hinit]
  exact foldl_andi_one x _ fun n _ => hx n

end Cert.LibAllOnes
-- ==== Proof.RefD0.lean ====
/-
  Depth 0 of the routing, read off the host program.

  Every row is at the root, which owns all 64 devices. The device words `0 * 64 + q` are below 64, so the "take along
  an axis" helper's in-range mask is all ones, its gather reads device `q`, and the flattened slice is the row's own
  device features; the weight row and the bias are the table's only row. So the gate, its value, the running product
  and the next node are the specification's.
-/
import proofs.«146547_j64330020159639_2_alg».proof.Proof.RefReadP
import proofs.«146547_j64330020159639_2_alg».proof.Proof.RefSpec
import proofs.«146547_j64330020159639_2_alg».proof.Proof.RefRange
import proofs.«146547_j64330020159639_2_alg».proof.Proof.RefGather
import proofs.«146547_j64330020159639_2_alg».proof.Proof.LibAllOnes

noncomputable section

open scoped BigOperators

namespace Cert.ReferenceIdeal.RefSide

open Cert.ReferenceIdeal Cert.ReferenceIdeal.Gen Cert.ReferenceIdeal.ReadP Idealize.ShloMosaic Idealize.ShloMosaic.TcCoe
  Idealize.ShloMosaic.ValueIdx

/-! ## Words -/

/-- The sum of a first-device word and a slot, when the device stays among the 64. -/
theorem dword_toNat (off : BitVec 32) (q : Nat) (h : off.toNat + q < 64) :
    (IntOp.addi off (BitVec.ofNat 32 q)).toNat = off.toNat + q := by
  have hq : (BitVec.ofNat 32 q).toNat = q := by rw [BitVec.toNat_ofNat]; exact Nat.mod_eq_of_lt (by omega)
  rw [Cert.RefSpec.addi_toNat _ _ (by omega), hq]

/-! ## The device words and the in-range mask -/

/-- The device word of row `r`, slot `q`: the node's first device plus the slot. -/
theorem word0 : val_main_v13 (F := Ideal)
    = fun i => IntOp.addi (IntOp.muli (Cert.RefSpec.node0 ⟨(i 0).val, (i 0).isLt⟩) 64#32) (BitVec.ofNat 32 (i 1).val) := by
  funext i
  rw [val_main_v13_apply, val_main_v12_apply, val_main_v10_apply, val_main_v11_apply, val_main_v7_apply,
    val_main_v9_apply, val_main_v6_apply, val_main_v8_apply, val_main_v3_apply, val_main_v5_apply, val_main_c_apply,
    val_main_c_0_apply]
  rfl

theorem word0_lt (i : S65536x64x1.Idx) : (val_main_v13 (F := Ideal) i).toNat < 64 := by
  rw [congrFun word0 i]
  have h1 : (i 1).val < 64 := (i 1).isLt
  show (IntOp.addi (IntOp.muli (Cert.RefSpec.node0 ⟨(i 0).val, (i 0).isLt⟩) 64#32) (BitVec.ofNat 32 (i 1).val)).toNat < 64
  rw [dword_toNat _ _ (by rw [Cert.RefSpec.off0_toNat]; omega), Cert.RefSpec.off0_toNat]
  omega

/-- No device word is negative, so the helper's wrap leaves it alone. -/
theorem wrapped0 : val_main_call0_v4 (F := Ideal) = val_main_v13 (F := Ideal) := by
  funext i
  rw [val_main_call0_v4_apply, val_main_call0_v1_apply, val_main_call0_v0_apply, val_main_call0_c_apply]
  exact Cert.RefSpec.wrap_small _ _ (by have := word0_lt i; omega)

theorem inrange0 (i : S65536x64x1.Idx) : val_main_call0_v10 (F := Ideal) i = 1#1 := by
  rw [val_main_call0_v10_apply, val_main_call0_v6_apply, val_main_call0_v9_apply, val_main_call0_v5_apply,
    val_main_call0_c_2_apply, val_main_call0_v8_apply, val_main_call0_v7_apply, val_main_call0_c_1_apply, wrapped0,
    Cert.RefSpec.cmpi_sge_zero _ (by have := word0_lt i; omega), Cert.RefSpec.cmpi_sle_63 _ (word0_lt i)]
  rfl

theorem mask0 (i : S65536x64x4.Idx) : val_main_call0_v13 (F := Ideal) i = 1#1 := by
  rw [val_main_call0_v13_apply]
  unfold val_main_call0_v11
  exact Cert.LibAllOnes.reduce_andi_one _ _ _ _ _ (fun _ => rfl) inrange0

/-! ## What the gathers read -/

/-- The helper's result at `(r, q, c)`: feature `c` of the device the word of `(r, q)` addresses. -/
theorem dslice0 (x0 : (⟨S65536x261, .f32⟩ : BufTy).Contents (Elt Ideal)) (r : Fin 65536) (q : Fin 64) (c : Fin 4) :
    val_main_v14 (F := Ideal) x0 (ix3 r q c)
      = x0 (ix2 r (⟨5 + 4 * (Cert.RefSpec.rowOf 64 (by decide)
          (IntOp.addi (IntOp.muli (Cert.RefSpec.node0 r) 64#32) (BitVec.ofNat 32 q.val))).val + c.val, by
            have := (Cert.RefSpec.rowOf 64 (by decide)
              (IntOp.addi (IntOp.muli (Cert.RefSpec.node0 r) 64#32) (BitVec.ofNat 32 q.val))).isLt
            omega⟩ : Fin 261)) := by
  have hrow : min (val_main_call0_v4 (F := Ideal) (ix3 r q (0 : Fin 1))).toInt.toNat 63
      = (Cert.RefSpec.rowOf 64 (by decide)
          (IntOp.addi (IntOp.muli (Cert.RefSpec.node0 r) 64#32) (BitVec.ofNat 32 q.val))).val := by
    rw [val_main_call0_v4_apply, val_main_call0_v1_apply, val_main_call0_v3_apply, val_main_call0_v0_apply,
      val_main_call0_c_apply, val_main_call0_v2_apply, val_main_call0_c_0_apply, congrFun word0 _]
    rfl
  have hlt := (Cert.RefSpec.rowOf 64 (by decide)
    (IntOp.addi (IntOp.muli (Cert.RefSpec.node0 r) 64#32) (BitVec.ofNat 32 q.val))).isLt
  rw [val_main_v14_apply, mask0, select_one]
  unfold val_main_call0_v12
  rw [gather_dev64, val_main_v2_apply, val_main_v1_apply]
  refine congrArg x0 (funext fun a => Fin.ext ?_)
  match a with
  | ⟨0, _⟩ =>
    show ((r.val * 64 + min (val_main_call0_v4 (F := Ideal) (ix3 r q (0 : Fin 1))).toInt.toNat 63) * 4 + c.val) / 256 = r.val
    rw [hrow]; have := c.isLt; omega
  | ⟨1, _⟩ =>
    show 5 + ((r.val * 64 + min (val_main_call0_v4 (F := Ideal) (ix3 r q (0 : Fin 1))).toInt.toNat 63) * 4 + c.val) % 256
      = 5 + 4 * _ + c.val
    rw [hrow]; have := c.isLt; omega

/-- The flattened slice at `(r, k)`: the column of `x` the specification names. -/
theorem flat0 (x0 : (⟨S65536x261, .f32⟩ : BufTy).Contents (Elt Ideal)) (r : Fin 65536) (k : Fin 256) :
    val_main_v25 (F := Ideal) x0 (ix2 r k)
      = x0 (ix2 r (Cert.RefSpec.devCol (IntOp.muli (Cert.RefSpec.node0 r) 64#32) k.val)) := by
  have e : idx_main_v25 (ix2 r k) = ix3 r (⟨k.val / 4, by have := k.isLt; omega⟩ : Fin 64) (⟨k.val % 4, by omega⟩ : Fin 4) :=
    funext fun a => Fin.ext (by
      have := k.isLt
      match a with
      | ⟨0, _⟩ => show (r.val * 256 + k.val) / 256 = r.val; omega
      | ⟨1, _⟩ => show (r.val * 256 + k.val) / 4 % 64 = k.val / 4; omega
      | ⟨2, _⟩ => show (r.val * 256 + k.val) % 4 = k.val % 4; omega)
  rw [val_main_v25_apply, e, dslice0]
  rfl

/-- The gathered weight row at `(r, k)`. -/
theorem wrow0 (x1 : (⟨S1x261, .f32⟩ : BufTy).Contents (Elt Ideal)) (r : Fin 65536) (k : Fin 261) :
    val_main_v21 (F := Ideal) x1 (ix2 r k) = x1 (ix2 (Cert.RefSpec.rowOf 1 (by decide) (Cert.RefSpec.node0 r)) k) := by
  unfold val_main_v21
  rw [gather_rows1]
  refine congrArg (fun n => x1 (ix2 n k)) (Fin.ext ?_)
  show min (val_main_v20 (F := Ideal) (ix2 r (0 : Fin 1))).toInt.toNat 0 = _
  rw [val_main_v20_apply, val_main_v19_apply, val_main_v16_apply, val_main_v18_apply, val_main_v15_apply,
    val_main_v17_apply, val_main_v3_apply, val_main_c_apply, val_main_c_1_apply, val_main_c_2_apply]
  rfl

/-- The gathered bias at `r`. -/
theorem bias0 (x2 : (⟨S1, .f32⟩ : BufTy).Contents (Elt Ideal)) (r : Fin 65536) :
    val_main_v36 (F := Ideal) x2 (ix1 r) = x2 (ix1 (Cert.RefSpec.rowOf 1 (by decide) (Cert.RefSpec.node0 r))) := by
  unfold val_main_v36
  rw [gather_vec1]
  refine congrArg (fun n => x2 (ix1 n)) (Fin.ext ?_)
  show min (val_main_v35 (F := Ideal) (ix2 r (0 : Fin 1))).toInt.toNat 0 = _
  rw [val_main_v35_apply, val_main_v34_apply, val_main_v31_apply, val_main_v33_apply, val_main_v30_apply,
    val_main_v32_apply, val_main_v3_apply, val_main_c_apply, val_main_c_5_apply, val_main_c_6_apply]
  rfl

/-! ## The gate, its value, the running product, the next node -/

/-- One term of the shared-feature sum. -/
theorem term_x0 (x0 : (⟨S65536x261, .f32⟩ : BufTy).Contents (Elt Ideal)) (x1 : (⟨S1x261, .f32⟩ : BufTy).Contents (Elt Ideal))
    (r : Fin 65536) (k : Fin 5) :
    val_main_v23 (F := Ideal) x0 x1 (idx_main_v24 (ix1 r) k)
      = x0 (ix2 r (Fin.castLE (by decide : 5 ≤ 261) k))
        * x1 (ix2 (Cert.RefSpec.rowOf 1 (by decide) (Cert.RefSpec.node0 r)) (Fin.castLE (by decide : 5 ≤ 261) k)) := by
  have e24 : idx_main_v24 (ix1 r) k = ix2 r k :=
    funext fun a => Fin.ext (by match a with | ⟨0, _⟩ => rfl | ⟨1, _⟩ => rfl)
  have e0 : idx_main_v0 (ix2 r k) = ix2 r (Fin.castLE (by decide : 5 ≤ 261) k) :=
    funext fun a => Fin.ext (by match a with | ⟨0, _⟩ => rfl | ⟨1, _⟩ => rfl)
  have e22 : idx_main_v22 (ix2 r k) = ix2 r (Fin.castLE (by decide : 5 ≤ 261) k) :=
    funext fun a => Fin.ext (by match a with | ⟨0, _⟩ => rfl | ⟨1, _⟩ => rfl)
  rw [e24, val_main_v23_apply, val_main_v0_apply, val_main_v22_apply, e0, e22, wrow0]
  rfl

/-- One term of the device-feature sum. -/
theorem term_dev0 (x0 : (⟨S65536x261, .f32⟩ : BufTy).Contents (Elt Ideal)) (x1 : (⟨S1x261, .f32⟩ : BufTy).Contents (Elt Ideal))
    (r : Fin 65536) (k : Fin 256) :
    val_main_v27 (F := Ideal) x0 x1 (idx_main_v28 (ix1 r) k)
      = x0 (ix2 r (Cert.RefSpec.devCol (IntOp.muli (Cert.RefSpec.node0 r) 64#32) k.val))
        * x1 (ix2 (Cert.RefSpec.rowOf 1 (by decide) (Cert.RefSpec.node0 r)) (⟨5 + k.val, by have := k.isLt; omega⟩ : Fin 261)) := by
  have e28 : idx_main_v28 (ix1 r) k = ix2 r k :=
    funext fun a => Fin.ext (by match a with | ⟨0, _⟩ => rfl | ⟨1, _⟩ => rfl)
  have e26 : idx_main_v26 (ix2 r k) = ix2 r (⟨5 + k.val, by have := k.isLt; omega⟩ : Fin 261) :=
    funext fun a => Fin.ext (by match a with | ⟨0, _⟩ => rfl | ⟨1, _⟩ => rfl)
  rw [e28, val_main_v27_apply, val_main_v26_apply, e26, wrow0, flat0]
  rfl

theorem gate0_eq (x0 : (⟨S65536x261, .f32⟩ : BufTy).Contents (Elt Ideal)) (x1 : (⟨S1x261, .f32⟩ : BufTy).Contents (Elt Ideal))
    (x2 : (⟨S1, .f32⟩ : BufTy).Contents (Elt Ideal)) (r : Fin 65536) :
    val_main_v37 (F := Ideal) x0 x1 x2 (ix1 r) = Cert.RefSpec.gate0 x0 x1 x2 r := by
  rw [val_main_v37_apply, val_main_v29_apply, val_main_v24_apply, val_main_v28_apply, bias0,
    Finset.sum_congr rfl (fun k _ => term_x0 x0 x1 r k), Finset.sum_congr rfl (fun k _ => term_dev0 x0 x1 r k),
    val_main_cst_3_apply, val_main_cst_4_apply, Ideal.addf_def, Ideal.addf_def, Ideal.ofBits_def,
    Ideal.ofBits_zero_f32, zero_add, zero_add]
  unfold Cert.RefSpec.gate0
  rfl

theorem val0_eq (x0 : (⟨S65536x261, .f32⟩ : BufTy).Contents (Elt Ideal)) (x1 : (⟨S1x261, .f32⟩ : BufTy).Contents (Elt Ideal))
    (x2 : (⟨S1, .f32⟩ : BufTy).Contents (Elt Ideal)) :
    val_main_v43 (F := Ideal) x0 x1 x2 = fun i => Cert.RefSpec.val0 x0 x1 x2 ⟨(i 0).val, (i 0).isLt⟩ := by
  funext i
  obtain ⟨r, rfl⟩ : ∃ r : Fin 65536, i = ix1 r := ⟨i 0, eq_ix1 i⟩
  show _ = Cert.RefSpec.val0 x0 x1 x2 r
  rw [val_main_v43_apply, val_main_v42_apply, val_main_cst_8_apply, val_main_v41_apply, val_main_v40_apply,
    val_main_cst_7_apply, val_main_v39_apply, val_main_v38_apply, gate0_eq]
  rfl

theorem cum1_eq (x0 : (⟨S65536x261, .f32⟩ : BufTy).Contents (Elt Ideal)) (x1 : (⟨S1x261, .f32⟩ : BufTy).Contents (Elt Ideal))
    (x2 : (⟨S1, .f32⟩ : BufTy).Contents (Elt Ideal)) :
    val_main_v44 (F := Ideal) x0 x1 x2 = fun i => Cert.RefSpec.cum1 x0 x1 x2 ⟨(i 0).val, (i 0).isLt⟩ := by
  funext i
  rw [val_main_v44_apply, val_main_v4_apply, val_main_cst_apply, val0_eq]
  rfl

theorem node1_eq (x0 : (⟨S65536x261, .f32⟩ : BufTy).Contents (Elt Ideal)) (x1 : (⟨S1x261, .f32⟩ : BufTy).Contents (Elt Ideal))
    (x2 : (⟨S1, .f32⟩ : BufTy).Contents (Elt Ideal)) :
    val_main_v50 (F := Ideal) x0 x1 x2 = fun i => Cert.RefSpec.node1 x0 x1 x2 ⟨(i 0).val, (i 0).isLt⟩ := by
  funext i
  rw [val_main_v50_apply, val_main_v46_apply, val_main_v49_apply, val_main_v48_apply, val_main_v3_apply,
    val_main_c_apply, val_main_v45_apply, val_main_c_9_apply, val_main_v47_apply, val_main_cst_10_apply, val0_eq]
  rfl

end Cert.ReferenceIdeal.RefSide

end
-- ==== Proof.RefD1.lean ====
/-
  Depth 1 of the routing, read off the host program.

  A row is at node 0 or 1, each owning 32 consecutive devices. The device words `node * 32 + q` with `q < 32` are
  below 64, so the in-range mask is all ones and the gather reads that device; the weight row and the bias are the
  node's. So the gate, its value, the running product and the next node are the specification's.
-/
import proofs.«146547_j64330020159639_2_alg».proof.Proof.RefReadP
import proofs.«146547_j64330020159639_2_alg».proof.Proof.RefSpec
import proofs.«146547_j64330020159639_2_alg».proof.Proof.RefD0

noncomputable section

open scoped BigOperators

namespace Cert.ReferenceIdeal.RefSide

open Cert.ReferenceIdeal Cert.ReferenceIdeal.Gen Cert.ReferenceIdeal.ReadP Idealize.ShloMosaic Idealize.ShloMosaic.TcCoe
  Idealize.ShloMosaic.ValueIdx

/-! ## The device words and the in-range mask -/

/-- The device word of row `r`, slot `q`: the node's first device plus the slot. -/
theorem word1 (x0 : (⟨S65536x261, .f32⟩ : BufTy).Contents (Elt Ideal))
    (x1 : (⟨S1x261, .f32⟩ : BufTy).Contents (Elt Ideal))
    (x2 : (⟨S1, .f32⟩ : BufTy).Contents (Elt Ideal)) :
    val_main_v59 (F := Ideal) x0 x1 x2
      = fun i => IntOp.addi (IntOp.muli (Cert.RefSpec.node1 x0 x1 x2 ⟨(i 0).val, (i 0).isLt⟩) 32#32) (BitVec.ofNat 32 (i 1).val) := by
  funext i
  rw [val_main_v59_apply, val_main_v58_apply, val_main_v56_apply, val_main_v57_apply, val_main_v53_apply, val_main_v55_apply, val_main_v52_apply, val_main_v54_apply, node1_eq, val_main_v51_apply, val_main_c_11_apply]

theorem word1_lt (x0 : (⟨S65536x261, .f32⟩ : BufTy).Contents (Elt Ideal))
    (x1 : (⟨S1x261, .f32⟩ : BufTy).Contents (Elt Ideal))
    (x2 : (⟨S1, .f32⟩ : BufTy).Contents (Elt Ideal)) (i : S65536x32x1.Idx) :
    (val_main_v59 (F := Ideal) x0 x1 x2 i).toNat < 64 := by
  rw [congrFun (word1 x0 x1 x2) i]
  have h1 : (i 1).val < 32 := (i 1).isLt
  have hn := Cert.RefSpec.node1_lt x0 x1 x2 ⟨(i 0).val, (i 0).isLt⟩
  show (IntOp.addi (IntOp.muli (Cert.RefSpec.node1 x0 x1 x2 ⟨(i 0).val, (i 0).isLt⟩) 32#32) (BitVec.ofNat 32 (i 1).val)).toNat < 64
  rw [dword_toNat _ _ (by rw [Cert.RefSpec.off1_toNat]; omega), Cert.RefSpec.off1_toNat]
  omega

/-- No device word is negative, so the helper's wrap leaves it alone. -/
theorem wrapped1 (x0 : (⟨S65536x261, .f32⟩ : BufTy).Contents (Elt Ideal))
    (x1 : (⟨S1x261, .f32⟩ : BufTy).Contents (Elt Ideal))
    (x2 : (⟨S1, .f32⟩ : BufTy).Contents (Elt Ideal)) :
    val_main_call1_v4 (F := Ideal) x0 x1 x2 = val_main_v59 (F := Ideal) x0 x1 x2 := by
  funext i
  rw [val_main_call1_v4_apply, val_main_call1_v1_apply, val_main_call1_v0_apply, val_main_call1_c_apply]
  exact Cert.RefSpec.wrap_small _ _ (by have := word1_lt x0 x1 x2 i; omega)

theorem inrange1 (x0 : (⟨S65536x261, .f32⟩ : BufTy).Contents (Elt Ideal))
    (x1 : (⟨S1x261, .f32⟩ : BufTy).Contents (Elt Ideal))
    (x2 : (⟨S1, .f32⟩ : BufTy).Contents (Elt Ideal)) (i : S65536x32x1.Idx) :
    val_main_call1_v10 (F := Ideal) x0 x1 x2 i = 1#1 := by
  rw [val_main_call1_v10_apply, val_main_call1_v6_apply, val_main_call1_v9_apply, val_main_call1_v5_apply, val_main_call1_c_2_apply, val_main_call1_v8_apply, val_main_call1_v7_apply, val_main_call1_c_1_apply, wrapped1,
    Cert.RefSpec.cmpi_sge_zero _ (by have := word1_lt x0 x1 x2 i; omega), Cert.RefSpec.cmpi_sle_63 _ (word1_lt x0 x1 x2 i)]
  rfl

theorem mask1 (x0 : (⟨S65536x261, .f32⟩ : BufTy).Contents (Elt Ideal))
    (x1 : (⟨S1x261, .f32⟩ : BufTy).Contents (Elt Ideal))
    (x2 : (⟨S1, .f32⟩ : BufTy).Contents (Elt Ideal)) (i : S65536x32x4.Idx) :
    val_main_call1_v13 (F := Ideal) x0 x1 x2 i = 1#1 := by
  rw [val_main_call1_v13_apply]
  unfold val_main_call1_v11
  exact Cert.LibAllOnes.reduce_andi_one _ _ _ _ _ (fun _ => rfl) (inrange1 x0 x1 x2)

/-! ## What the gathers read -/

/-- The helper's result at `(r, q, c)`: feature `c` of the device the word of `(r, q)` addresses. -/
theorem dslice1 (x0 : (⟨S65536x261, .f32⟩ : BufTy).Contents (Elt Ideal))
    (x1 : (⟨S1x261, .f32⟩ : BufTy).Contents (Elt Ideal))
    (x2 : (⟨S1, .f32⟩ : BufTy).Contents (Elt Ideal)) (r : Fin 65536) (q : Fin 32) (c : Fin 4) :
    val_main_v60 (F := Ideal) x0 x1 x2 (ix3 r q c)
      = x0 (ix2 r (⟨5 + 4 * (Cert.RefSpec.rowOf 64 (by decide) (IntOp.addi (IntOp.muli (Cert.RefSpec.node1 x0 x1 x2 r) 32#32) (BitVec.ofNat 32 q.val))).val + c.val, by
            have := (Cert.RefSpec.rowOf 64 (by decide) (IntOp.addi (IntOp.muli (Cert.RefSpec.node1 x0 x1 x2 r) 32#32) (BitVec.ofNat 32 q.val))).isLt
            omega⟩ : Fin 261)) := by
  have hrow : min (val_main_call1_v4 (F := Ideal) x0 x1 x2 (ix3 r q (0 : Fin 1))).toInt.toNat 63
      = (Cert.RefSpec.rowOf 64 (by decide) (IntOp.addi (IntOp.muli (Cert.RefSpec.node1 x0 x1 x2 r) 32#32) (BitVec.ofNat 32 q.val))).val := by
    rw [val_main_call1_v4_apply, val_main_call1_v1_apply, val_main_call1_v3_apply, val_main_call1_v0_apply, val_main_call1_c_apply, val_main_call1_v2_apply, val_main_call1_c_0_apply, congrFun (word1 x0 x1 x2) _]
    rfl
  have hlt := (Cert.RefSpec.rowOf 64 (by decide) (IntOp.addi (IntOp.muli (Cert.RefSpec.node1 x0 x1 x2 r) 32#32) (BitVec.ofNat 32 q.val))).isLt
  rw [val_main_v60_apply, mask1, select_one]
  unfold val_main_call1_v12
  rw [gather_dev32, val_main_v2_apply, val_main_v1_apply]
  refine congrArg x0 (funext fun a => Fin.ext ?_)
  match a with
  | ⟨0, _⟩ =>
    show ((r.val * 64 + min (val_main_call1_v4 (F := Ideal) x0 x1 x2 (ix3 r q (0 : Fin 1))).toInt.toNat 63) * 4 + c.val) / 256 = r.val
    rw [hrow]; have := c.isLt; omega
  | ⟨1, _⟩ =>
    show 5 + ((r.val * 64 + min (val_main_call1_v4 (F := Ideal) x0 x1 x2 (ix3 r q (0 : Fin 1))).toInt.toNat 63) * 4 + c.val) % 256
      = 5 + 4 * _ + c.val
    rw [hrow]; have := c.isLt; omega

/-- The flattened slice at `(r, k)`: the column of `x` the specification names. -/
theorem flat1 (x0 : (⟨S65536x261, .f32⟩ : BufTy).Contents (Elt Ideal))
    (x1 : (⟨S1x261, .f32⟩ : BufTy).Contents (Elt Ideal))
    (x2 : (⟨S1, .f32⟩ : BufTy).Contents (Elt Ideal)) (r : Fin 65536) (k : Fin 128) :
    val_main_v71 (F := Ideal) x0 x1 x2 (ix2 r k)
      = x0 (ix2 r (Cert.RefSpec.devCol (IntOp.muli (Cert.RefSpec.node1 x0 x1 x2 r) 32#32) k.val)) := by
  have e : idx_main_v71 (ix2 r k)
      = ix3 r (⟨k.val / 4, by have := k.isLt; omega⟩ : Fin 32) (⟨k.val % 4, by omega⟩ : Fin 4) :=
    funext fun a => Fin.ext (by
      have := k.isLt
      match a with
      | ⟨0, _⟩ => show (r.val * 128 + k.val) / 128 = r.val; omega
      | ⟨1, _⟩ => show (r.val * 128 + k.val) / 4 % 32 = k.val / 4; omega
      | ⟨2, _⟩ => show (r.val * 128 + k.val) % 4 = k.val % 4; omega)
  rw [val_main_v71_apply, e, dslice1]
  rfl

/-- The gathered weight row at `(r, k)`. -/
theorem wrow1 (x0 : (⟨S65536x261, .f32⟩ : BufTy).Contents (Elt Ideal))
    (x1 : (⟨S1x261, .f32⟩ : BufTy).Contents (Elt Ideal))
    (x2 : (⟨S1, .f32⟩ : BufTy).Contents (Elt Ideal))
    (x3 : (⟨S2x133, .f32⟩ : BufTy).Contents (Elt Ideal)) (r : Fin 65536) (k : Fin 133) :
    val_main_v67 (F := Ideal) x0 x1 x2 x3 (ix2 r k) = x3 (ix2 (Cert.RefSpec.rowOf 2 (by decide) (Cert.RefSpec.node1 x0 x1 x2 r)) k) := by
  unfold val_main_v67
  rw [gather_rows2]
  refine congrArg (fun n => x3 (ix2 n k)) (Fin.ext ?_)
  show min (val_main_v66 (F := Ideal) x0 x1 x2 (ix2 r (0 : Fin 1))).toInt.toNat 1 = _
  rw [val_main_v66_apply, val_main_v65_apply, val_main_v62_apply, val_main_v64_apply, val_main_v61_apply, val_main_v63_apply, node1_eq, val_main_c_12_apply, val_main_c_13_apply]
  rfl

/-- The gathered bias at `r`. -/
theorem bias1 (x0 : (⟨S65536x261, .f32⟩ : BufTy).Contents (Elt Ideal))
    (x1 : (⟨S1x261, .f32⟩ : BufTy).Contents (Elt Ideal))
    (x2 : (⟨S1, .f32⟩ : BufTy).Contents (Elt Ideal))
    (x4 : (⟨S2, .f32⟩ : BufTy).Contents (Elt Ideal)) (r : Fin 65536) :
    val_main_v82 (F := Ideal) x0 x1 x2 x4 (ix1 r) = x4 (ix1 (Cert.RefSpec.rowOf 2 (by decide) (Cert.RefSpec.node1 x0 x1 x2 r))) := by
  unfold val_main_v82
  rw [gather_vec2]
  refine congrArg (fun n => x4 (ix1 n)) (Fin.ext ?_)
  show min (val_main_v81 (F := Ideal) x0 x1 x2 (ix2 r (0 : Fin 1))).toInt.toNat 1 = _
  rw [val_main_v81_apply, val_main_v80_apply, val_main_v77_apply, val_main_v79_apply, val_main_v76_apply, val_main_v78_apply, node1_eq, val_main_c_16_apply, val_main_c_17_apply]
  rfl

/-! ## The gate, its value, the running product, the next node -/

/-- One term of the shared-feature sum. -/
theorem term_x1 (x0 : (⟨S65536x261, .f32⟩ : BufTy).Contents (Elt Ideal))
    (x1 : (⟨S1x261, .f32⟩ : BufTy).Contents (Elt Ideal))
    (x2 : (⟨S1, .f32⟩ : BufTy).Contents (Elt Ideal))
    (x3 : (⟨S2x133, .f32⟩ : BufTy).Contents (Elt Ideal)) (r : Fin 65536) (k : Fin 5) :
    val_main_v69 (F := Ideal) x0 x1 x2 x3 (idx_main_v70 (ix1 r) k)
      = x0 (ix2 r (Fin.castLE (by decide : 5 ≤ 261) k))
        * x3 (ix2 (Cert.RefSpec.rowOf 2 (by decide) (Cert.RefSpec.node1 x0 x1 x2 r)) (Fin.castLE (by decide : 5 ≤ 133) k)) := by
  have e1 : idx_main_v70 (ix1 r) k = ix2 r k :=
    funext fun a => Fin.ext (by match a with | ⟨0, _⟩ => rfl | ⟨1, _⟩ => rfl)
  have e2 : idx_main_v0 (ix2 r k) = ix2 r (Fin.castLE (by decide : 5 ≤ 261) k) :=
    funext fun a => Fin.ext (by match a with | ⟨0, _⟩ => rfl | ⟨1, _⟩ => rfl)
  have e3 : idx_main_v68 (ix2 r k) = ix2 r (Fin.castLE (by decide : 5 ≤ 133) k) :=
    funext fun a => Fin.ext (by match a with | ⟨0, _⟩ => rfl | ⟨1, _⟩ => rfl)
  rw [e1, val_main_v69_apply, val_main_v0_apply, val_main_v68_apply, e2, e3, wrow1]
  rfl

/-- One term of the device-feature sum. -/
theorem term_dev1 (x0 : (⟨S65536x261, .f32⟩ : BufTy).Contents (Elt Ideal))
    (x1 : (⟨S1x261, .f32⟩ : BufTy).Contents (Elt Ideal))
    (x2 : (⟨S1, .f32⟩ : BufTy).Contents (Elt Ideal))
    (x3 : (⟨S2x133, .f32⟩ : BufTy).Contents (Elt Ideal)) (r : Fin 65536) (k : Fin 128) :
    val_main_v73 (F := Ideal) x0 x1 x2 x3 (idx_main_v74 (ix1 r) k)
      = x0 (ix2 r (Cert.RefSpec.devCol (IntOp.muli (Cert.RefSpec.node1 x0 x1 x2 r) 32#32) k.val))
        * x3 (ix2 (Cert.RefSpec.rowOf 2 (by decide) (Cert.RefSpec.node1 x0 x1 x2 r)) (⟨5 + k.val, by have := k.isLt; omega⟩ : Fin 133)) := by
  have e1 : idx_main_v74 (ix1 r) k = ix2 r k :=
    funext fun a => Fin.ext (by match a with | ⟨0, _⟩ => rfl | ⟨1, _⟩ => rfl)
  have e2 : idx_main_v72 (ix2 r k) = ix2 r (⟨5 + k.val, by have := k.isLt; omega⟩ : Fin 133) :=
    funext fun a => Fin.ext (by match a with | ⟨0, _⟩ => rfl | ⟨1, _⟩ => rfl)
  rw [e1, val_main_v73_apply, val_main_v72_apply, e2, wrow1, flat1]
  rfl

theorem gate1_eq (x0 : (⟨S65536x261, .f32⟩ : BufTy).Contents (Elt Ideal))
    (x1 : (⟨S1x261, .f32⟩ : BufTy).Contents (Elt Ideal))
    (x2 : (⟨S1, .f32⟩ : BufTy).Contents (Elt Ideal))
    (x3 : (⟨S2x133, .f32⟩ : BufTy).Contents (Elt Ideal))
    (x4 : (⟨S2, .f32⟩ : BufTy).Contents (Elt Ideal)) (r : Fin 65536) :
    val_main_v83 (F := Ideal) x0 x1 x2 x3 x4 (ix1 r) = Cert.RefSpec.gate1 x0 x1 x2 x3 x4 r := by
  rw [val_main_v83_apply, val_main_v75_apply, val_main_v70_apply, val_main_v74_apply, bias1,
    Finset.sum_congr rfl (fun k _ => term_x1 x0 x1 x2 x3 r k),
    Finset.sum_congr rfl (fun k _ => term_dev1 x0 x1 x2 x3 r k),
    val_main_cst_14_apply, val_main_cst_15_apply, Ideal.addf_def, Ideal.addf_def, Ideal.ofBits_def,
    Ideal.ofBits_zero_f32, zero_add, zero_add]
  unfold Cert.RefSpec.gate1
  rfl

theorem val1_eq (x0 : (⟨S65536x261, .f32⟩ : BufTy).Contents (Elt Ideal))
    (x1 : (⟨S1x261, .f32⟩ : BufTy).Contents (Elt Ideal))
    (x2 : (⟨S1, .f32⟩ : BufTy).Contents (Elt Ideal))
    (x3 : (⟨S2x133, .f32⟩ : BufTy).Contents (Elt Ideal))
    (x4 : (⟨S2, .f32⟩ : BufTy).Contents (Elt Ideal)) :
    val_main_v89 (F := Ideal) x0 x1 x2 x3 x4 = fun i => Cert.RefSpec.val1 x0 x1 x2 x3 x4 ⟨(i 0).val, (i 0).isLt⟩ := by
  funext i
  obtain ⟨r, rfl⟩ : ∃ r : Fin 65536, i = ix1 r := ⟨i 0, eq_ix1 i⟩
  show _ = Cert.RefSpec.val1 x0 x1 x2 x3 x4 r
  rw [val_main_v89_apply, val_main_v88_apply, val_main_cst_19_apply, val_main_v87_apply, val_main_v86_apply, val_main_cst_18_apply, val_main_v85_apply, val_main_v84_apply, gate1_eq]
  rfl

theorem cum2_eq (x0 : (⟨S65536x261, .f32⟩ : BufTy).Contents (Elt Ideal))
    (x1 : (⟨S1x261, .f32⟩ : BufTy).Contents (Elt Ideal))
    (x2 : (⟨S1, .f32⟩ : BufTy).Contents (Elt Ideal))
    (x3 : (⟨S2x133, .f32⟩ : BufTy).Contents (Elt Ideal))
    (x4 : (⟨S2, .f32⟩ : BufTy).Contents (Elt Ideal)) :
    val_main_v90 (F := Ideal) x0 x1 x2 x3 x4 = fun i => Cert.RefSpec.cum2 x0 x1 x2 x3 x4 ⟨(i 0).val, (i 0).isLt⟩ := by
  funext i
  rw [val_main_v90_apply, cum1_eq, val1_eq]
  rfl

theorem node2_eq (x0 : (⟨S65536x261, .f32⟩ : BufTy).Contents (Elt Ideal))
    (x1 : (⟨S1x261, .f32⟩ : BufTy).Contents (Elt Ideal))
    (x2 : (⟨S1, .f32⟩ : BufTy).Contents (Elt Ideal))
    (x3 : (⟨S2x133, .f32⟩ : BufTy).Contents (Elt Ideal))
    (x4 : (⟨S2, .f32⟩ : BufTy).Contents (Elt Ideal)) :
    val_main_v96 (F := Ideal) x0 x1 x2 x3 x4 = fun i => Cert.RefSpec.node2 x0 x1 x2 x3 x4 ⟨(i 0).val, (i 0).isLt⟩ := by
  funext i
  rw [val_main_v96_apply, val_main_v92_apply, val_main_v95_apply, val_main_v94_apply, node1_eq, val_main_v91_apply, val_main_c_20_apply, val_main_v93_apply, val_main_cst_21_apply, val1_eq]
  rfl

end Cert.ReferenceIdeal.RefSide

end
-- ==== Proof.RefD2.lean ====
/-
  Depth 2 of the routing, read off the host program.

  A row is at one of four nodes, each owning 16 consecutive devices. The device words `node * 16 + q` with `q < 16`
  are below 64, so the in-range mask is all ones and the gather reads that device; the weight row and the bias are the
  node's. So the gate, its value, the running product and the leaf reached are the specification's.
-/
import proofs.«146547_j64330020159639_2_alg».proof.Proof.RefReadP
import proofs.«146547_j64330020159639_2_alg».proof.Proof.RefSpec
import proofs.«146547_j64330020159639_2_alg».proof.Proof.RefD1

noncomputable section

open scoped BigOperators

namespace Cert.ReferenceIdeal.RefSide

open Cert.ReferenceIdeal Cert.ReferenceIdeal.Gen Cert.ReferenceIdeal.ReadP Idealize.ShloMosaic Idealize.ShloMosaic.TcCoe
  Idealize.ShloMosaic.ValueIdx

/-! ## The device words and the in-range mask -/

/-- The device word of row `r`, slot `q`: the node's first device plus the slot. -/
theorem word2 (x0 : (⟨S65536x261, .f32⟩ : BufTy).Contents (Elt Ideal))
    (x1 : (⟨S1x261, .f32⟩ : BufTy).Contents (Elt Ideal))
    (x2 : (⟨S1, .f32⟩ : BufTy).Contents (Elt Ideal))
    (x3 : (⟨S2x133, .f32⟩ : BufTy).Contents (Elt Ideal))
    (x4 : (⟨S2, .f32⟩ : BufTy).Contents (Elt Ideal)) :
    val_main_v105 (F := Ideal) x0 x1 x2 x3 x4
      = fun i => IntOp.addi (IntOp.muli (Cert.RefSpec.node2 x0 x1 x2 x3 x4 ⟨(i 0).val, (i 0).isLt⟩) 16#32) (BitVec.ofNat 32 (i 1).val) := by
  funext i
  rw [val_main_v105_apply, val_main_v104_apply, val_main_v102_apply, val_main_v103_apply, val_main_v99_apply, val_main_v101_apply, val_main_v98_apply, val_main_v100_apply, node2_eq, val_main_v97_apply, val_main_c_22_apply]

theorem word2_lt (x0 : (⟨S65536x261, .f32⟩ : BufTy).Contents (Elt Ideal))
    (x1 : (⟨S1x261, .f32⟩ : BufTy).Contents (Elt Ideal))
    (x2 : (⟨S1, .f32⟩ : BufTy).Contents (Elt Ideal))
    (x3 : (⟨S2x133, .f32⟩ : BufTy).Contents (Elt Ideal))
    (x4 : (⟨S2, .f32⟩ : BufTy).Contents (Elt Ideal)) (i : S65536x16x1.Idx) :
    (val_main_v105 (F := Ideal) x0 x1 x2 x3 x4 i).toNat < 64 := by
  rw [congrFun (word2 x0 x1 x2 x3 x4) i]
  have h1 : (i 1).val < 16 := (i 1).isLt
  have hn := Cert.RefSpec.node2_lt x0 x1 x2 x3 x4 ⟨(i 0).val, (i 0).isLt⟩
  show (IntOp.addi (IntOp.muli (Cert.RefSpec.node2 x0 x1 x2 x3 x4 ⟨(i 0).val, (i 0).isLt⟩) 16#32) (BitVec.ofNat 32 (i 1).val)).toNat < 64
  rw [dword_toNat _ _ (by rw [Cert.RefSpec.off2_toNat]; omega), Cert.RefSpec.off2_toNat]
  omega

/-- No device word is negative, so the helper's wrap leaves it alone. -/
theorem wrapped2 (x0 : (⟨S65536x261, .f32⟩ : BufTy).Contents (Elt Ideal))
    (x1 : (⟨S1x261, .f32⟩ : BufTy).Contents (Elt Ideal))
    (x2 : (⟨S1, .f32⟩ : BufTy).Contents (Elt Ideal))
    (x3 : (⟨S2x133, .f32⟩ : BufTy).Contents (Elt Ideal))
    (x4 : (⟨S2, .f32⟩ : BufTy).Contents (Elt Ideal)) :
    val_main_call2_v4 (F := Ideal) x0 x1 x2 x3 x4 = val_main_v105 (F := Ideal) x0 x1 x2 x3 x4 := by
  funext i
  rw [val_main_call2_v4_apply, val_main_call2_v1_apply, val_main_call2_v0_apply, val_main_call2_c_apply]
  exact Cert.RefSpec.wrap_small _ _ (by have := word2_lt x0 x1 x2 x3 x4 i; omega)

theorem inrange2 (x0 : (⟨S65536x261, .f32⟩ : BufTy).Contents (Elt Ideal))
    (x1 : (⟨S1x261, .f32⟩ : BufTy).Contents (Elt Ideal))
    (x2 : (⟨S1, .f32⟩ : BufTy).Contents (Elt Ideal))
    (x3 : (⟨S2x133, .f32⟩ : BufTy).Contents (Elt Ideal))
    (x4 : (⟨S2, .f32⟩ : BufTy).Contents (Elt Ideal)) (i : S65536x16x1.Idx) :
    val_main_call2_v10 (F := Ideal) x0 x1 x2 x3 x4 i = 1#1 := by
  rw [val_main_call2_v10_apply, val_main_call2_v6_apply, val_main_call2_v9_apply, val_main_call2_v5_apply, val_main_call2_c_2_apply, val_main_call2_v8_apply, val_main_call2_v7_apply, val_main_call2_c_1_apply, wrapped2,
    Cert.RefSpec.cmpi_sge_zero _ (by have := word2_lt x0 x1 x2 x3 x4 i; omega), Cert.RefSpec.cmpi_sle_63 _ (word2_lt x0 x1 x2 x3 x4 i)]
  rfl

theorem mask2 (x0 : (⟨S65536x261, .f32⟩ : BufTy).Contents (Elt Ideal))
    (x1 : (⟨S1x261, .f32⟩ : BufTy).Contents (Elt Ideal))
    (x2 : (⟨S1, .f32⟩ : BufTy).Contents (Elt Ideal))
    (x3 : (⟨S2x133, .f32⟩ : BufTy).Contents (Elt Ideal))
    (x4 : (⟨S2, .f32⟩ : BufTy).Contents (Elt Ideal)) (i : S65536x16x4.Idx) :
    val_main_call2_v13 (F := Ideal) x0 x1 x2 x3 x4 i = 1#1 := by
  rw [val_main_call2_v13_apply]
  unfold val_main_call2_v11
  exact Cert.LibAllOnes.reduce_andi_one _ _ _ _ _ (fun _ => rfl) (inrange2 x0 x1 x2 x3 x4)

/-! ## What the gathers read -/

/-- The helper's result at `(r, q, c)`: feature `c` of the device the word of `(r, q)` addresses. -/
theorem dslice2 (x0 : (⟨S65536x261, .f32⟩ : BufTy).Contents (Elt Ideal))
    (x1 : (⟨S1x261, .f32⟩ : BufTy).Contents (Elt Ideal))
    (x2 : (⟨S1, .f32⟩ : BufTy).Contents (Elt Ideal))
    (x3 : (⟨S2x133, .f32⟩ : BufTy).Contents (Elt Ideal))
    (x4 : (⟨S2, .f32⟩ : BufTy).Contents (Elt Ideal)) (r : Fin 65536) (q : Fin 16) (c : Fin 4) :
    val_main_v106 (F := Ideal) x0 x1 x2 x3 x4 (ix3 r q c)
      = x0 (ix2 r (⟨5 + 4 * (Cert.RefSpec.rowOf 64 (by decide) (IntOp.addi (IntOp.muli (Cert.RefSpec.node2 x0 x1 x2 x3 x4 r) 16#32) (BitVec.ofNat 32 q.val))).val + c.val, by
            have := (Cert.RefSpec.rowOf 64 (by decide) (IntOp.addi (IntOp.muli (Cert.RefSpec.node2 x0 x1 x2 x3 x4 r) 16#32) (BitVec.ofNat 32 q.val))).isLt
            omega⟩ : Fin 261)) := by
  have hrow : min (val_main_call2_v4 (F := Ideal) x0 x1 x2 x3 x4 (ix3 r q (0 : Fin 1))).toInt.toNat 63
      = (Cert.RefSpec.rowOf 64 (by decide) (IntOp.addi (IntOp.muli (Cert.RefSpec.node2 x0 x1 x2 x3 x4 r) 16#32) (BitVec.ofNat 32 q.val))).val := by
    rw [val_main_call2_v4_apply, val_main_call2_v1_apply, val_main_call2_v3_apply, val_main_call2_v0_apply, val_main_call2_c_apply, val_main_call2_v2_apply, val_main_call2_c_0_apply, congrFun (word2 x0 x1 x2 x3 x4) _]
    rfl
  have hlt := (Cert.RefSpec.rowOf 64 (by decide) (IntOp.addi (IntOp.muli (Cert.RefSpec.node2 x0 x1 x2 x3 x4 r) 16#32) (BitVec.ofNat 32 q.val))).isLt
  rw [val_main_v106_apply, mask2, select_one]
  unfold val_main_call2_v12
  rw [gather_dev16, val_main_v2_apply, val_main_v1_apply]
  refine congrArg x0 (funext fun a => Fin.ext ?_)
  match a with
  | ⟨0, _⟩ =>
    show ((r.val * 64 + min (val_main_call2_v4 (F := Ideal) x0 x1 x2 x3 x4 (ix3 r q (0 : Fin 1))).toInt.toNat 63) * 4 + c.val) / 256 = r.val
    rw [hrow]; have := c.isLt; omega
  | ⟨1, _⟩ =>
    show 5 + ((r.val * 64 + min (val_main_call2_v4 (F := Ideal) x0 x1 x2 x3 x4 (ix3 r q (0 : Fin 1))).toInt.toNat 63) * 4 + c.val) % 256
      = 5 + 4 * _ + c.val
    rw [hrow]; have := c.isLt; omega

/-- The flattened slice at `(r, k)`: the column of `x` the specification names. -/
theorem flat2 (x0 : (⟨S65536x261, .f32⟩ : BufTy).Contents (Elt Ideal))
    (x1 : (⟨S1x261, .f32⟩ : BufTy).Contents (Elt Ideal))
    (x2 : (⟨S1, .f32⟩ : BufTy).Contents (Elt Ideal))
    (x3 : (⟨S2x133, .f32⟩ : BufTy).Contents (Elt Ideal))
    (x4 : (⟨S2, .f32⟩ : BufTy).Contents (Elt Ideal)) (r : Fin 65536) (k : Fin 64) :
    val_main_v117 (F := Ideal) x0 x1 x2 x3 x4 (ix2 r k)
      = x0 (ix2 r (Cert.RefSpec.devCol (IntOp.muli (Cert.RefSpec.node2 x0 x1 x2 x3 x4 r) 16#32) k.val)) := by
  have e : idx_main_v117 (ix2 r k)
      = ix3 r (⟨k.val / 4, by have := k.isLt; omega⟩ : Fin 16) (⟨k.val % 4, by omega⟩ : Fin 4) :=
    funext fun a => Fin.ext (by
      have := k.isLt
      match a with
      | ⟨0, _⟩ => show (r.val * 64 + k.val) / 64 = r.val; omega
      | ⟨1, _⟩ => show (r.val * 64 + k.val) / 4 % 16 = k.val / 4; omega
      | ⟨2, _⟩ => show (r.val * 64 + k.val) % 4 = k.val % 4; omega)
  rw [val_main_v117_apply, e, dslice2]
  rfl

/-- The gathered weight row at `(r, k)`. -/
theorem wrow2 (x0 : (⟨S65536x261, .f32⟩ : BufTy).Contents (Elt Ideal))
    (x1 : (⟨S1x261, .f32⟩ : BufTy).Contents (Elt Ideal))
    (x2 : (⟨S1, .f32⟩ : BufTy).Contents (Elt Ideal))
    (x3 : (⟨S2x133, .f32⟩ : BufTy).Contents (Elt Ideal))
    (x4 : (⟨S2, .f32⟩ : BufTy).Contents (Elt Ideal))
    (x5 : (⟨S4x69, .f32⟩ : BufTy).Contents (Elt Ideal)) (r : Fin 65536) (k : Fin 69) :
    val_main_v113 (F := Ideal) x0 x1 x2 x3 x4 x5 (ix2 r k) = x5 (ix2 (Cert.RefSpec.rowOf 4 (by decide) (Cert.RefSpec.node2 x0 x1 x2 x3 x4 r)) k) := by
  unfold val_main_v113
  rw [gather_rows4]
  refine congrArg (fun n => x5 (ix2 n k)) (Fin.ext ?_)
  show min (val_main_v112 (F := Ideal) x0 x1 x2 x3 x4 (ix2 r (0 : Fin 1))).toInt.toNat 3 = _
  rw [val_main_v112_apply, val_main_v111_apply, val_main_v108_apply, val_main_v110_apply, val_main_v107_apply, val_main_v109_apply, node2_eq, val_main_c_23_apply, val_main_c_24_apply]
  rfl

/-- The gathered bias at `r`. -/
theorem bias2 (x0 : (⟨S65536x261, .f32⟩ : BufTy).Contents (Elt Ideal))
    (x1 : (⟨S1x261, .f32⟩ : BufTy).Contents (Elt Ideal))
    (x2 : (⟨S1, .f32⟩ : BufTy).Contents (Elt Ideal))
    (x3 : (⟨S2x133, .f32⟩ : BufTy).Contents (Elt Ideal))
    (x4 : (⟨S2, .f32⟩ : BufTy).Contents (Elt Ideal))
    (x6 : (⟨S4, .f32⟩ : BufTy).Contents (Elt Ideal)) (r : Fin 65536) :
    val_main_v128 (F := Ideal) x0 x1 x2 x3 x4 x6 (ix1 r) = x6 (ix1 (Cert.RefSpec.rowOf 4 (by decide) (Cert.RefSpec.node2 x0 x1 x2 x3 x4 r))) := by
  unfold val_main_v128
  rw [gather_vec4]
  refine congrArg (fun n => x6 (ix1 n)) (Fin.ext ?_)
  show min (val_main_v127 (F := Ideal) x0 x1 x2 x3 x4 (ix2 r (0 : Fin 1))).toInt.toNat 3 = _
  rw [val_main_v127_apply, val_main_v126_apply, val_main_v123_apply, val_main_v125_apply, val_main_v122_apply, val_main_v124_apply, node2_eq, val_main_c_27_apply, val_main_c_28_apply]
  rfl

/-! ## The gate, its value, the running product, the next node -/

/-- One term of the shared-feature sum. -/
theorem term_x2 (x0 : (⟨S65536x261, .f32⟩ : BufTy).Contents (Elt Ideal))
    (x1 : (⟨S1x261, .f32⟩ : BufTy).Contents (Elt Ideal))
    (x2 : (⟨S1, .f32⟩ : BufTy).Contents (Elt Ideal))
    (x3 : (⟨S2x133, .f32⟩ : BufTy).Contents (Elt Ideal))
    (x4 : (⟨S2, .f32⟩ : BufTy).Contents (Elt Ideal))
    (x5 : (⟨S4x69, .f32⟩ : BufTy).Contents (Elt Ideal)) (r : Fin 65536) (k : Fin 5) :
    val_main_v115 (F := Ideal) x0 x1 x2 x3 x4 x5 (idx_main_v116 (ix1 r) k)
      = x0 (ix2 r (Fin.castLE (by decide : 5 ≤ 261) k))
        * x5 (ix2 (Cert.RefSpec.rowOf 4 (by decide) (Cert.RefSpec.node2 x0 x1 x2 x3 x4 r)) (Fin.castLE (by decide : 5 ≤ 69) k)) := by
  have e1 : idx_main_v116 (ix1 r) k = ix2 r k :=
    funext fun a => Fin.ext (by match a with | ⟨0, _⟩ => rfl | ⟨1, _⟩ => rfl)
  have e2 : idx_main_v0 (ix2 r k) = ix2 r (Fin.castLE (by decide : 5 ≤ 261) k) :=
    funext fun a => Fin.ext (by match a with | ⟨0, _⟩ => rfl | ⟨1, _⟩ => rfl)
  have e3 : idx_main_v114 (ix2 r k) = ix2 r (Fin.castLE (by decide : 5 ≤ 69) k) :=
    funext fun a => Fin.ext (by match a with | ⟨0, _⟩ => rfl | ⟨1, _⟩ => rfl)
  rw [e1, val_main_v115_apply, val_main_v0_apply, val_main_v114_apply, e2, e3, wrow2]
  rfl

/-- One term of the device-feature sum. -/
theorem term_dev2 (x0 : (⟨S65536x261, .f32⟩ : BufTy).Contents (Elt Ideal))
    (x1 : (⟨S1x261, .f32⟩ : BufTy).Contents (Elt Ideal))
    (x2 : (⟨S1, .f32⟩ : BufTy).Contents (Elt Ideal))
    (x3 : (⟨S2x133, .f32⟩ : BufTy).Contents (Elt Ideal))
    (x4 : (⟨S2, .f32⟩ : BufTy).Contents (Elt Ideal))
    (x5 : (⟨S4x69, .f32⟩ : BufTy).Contents (Elt Ideal)) (r : Fin 65536) (k : Fin 64) :
    val_main_v119 (F := Ideal) x0 x1 x2 x3 x4 x5 (idx_main_v120 (ix1 r) k)
      = x0 (ix2 r (Cert.RefSpec.devCol (IntOp.muli (Cert.RefSpec.node2 x0 x1 x2 x3 x4 r) 16#32) k.val))
        * x5 (ix2 (Cert.RefSpec.rowOf 4 (by decide) (Cert.RefSpec.node2 x0 x1 x2 x3 x4 r)) (⟨5 + k.val, by have := k.isLt; omega⟩ : Fin 69)) := by
  have e1 : idx_main_v120 (ix1 r) k = ix2 r k :=
    funext fun a => Fin.ext (by match a with | ⟨0, _⟩ => rfl | ⟨1, _⟩ => rfl)
  have e2 : idx_main_v118 (ix2 r k) = ix2 r (⟨5 + k.val, by have := k.isLt; omega⟩ : Fin 69) :=
    funext fun a => Fin.ext (by match a with | ⟨0, _⟩ => rfl | ⟨1, _⟩ => rfl)
  rw [e1, val_main_v119_apply, val_main_v118_apply, e2, wrow2, flat2]
  rfl

theorem gate2_eq (x0 : (⟨S65536x261, .f32⟩ : BufTy).Contents (Elt Ideal))
    (x1 : (⟨S1x261, .f32⟩ : BufTy).Contents (Elt Ideal))
    (x2 : (⟨S1, .f32⟩ : BufTy).Contents (Elt Ideal))
    (x3 : (⟨S2x133, .f32⟩ : BufTy).Contents (Elt Ideal))
    (x4 : (⟨S2, .f32⟩ : BufTy).Contents (Elt Ideal))
    (x5 : (⟨S4x69, .f32⟩ : BufTy).Contents (Elt Ideal))
    (x6 : (⟨S4, .f32⟩ : BufTy).Contents (Elt Ideal)) (r : Fin 65536) :
    val_main_v129 (F := Ideal) x0 x1 x2 x3 x4 x5 x6 (ix1 r) = Cert.RefSpec.gate2 x0 x1 x2 x3 x4 x5 x6 r := by
  rw [val_main_v129_apply, val_main_v121_apply, val_main_v116_apply, val_main_v120_apply, bias2,
    Finset.sum_congr rfl (fun k _ => term_x2 x0 x1 x2 x3 x4 x5 r k),
    Finset.sum_congr rfl (fun k _ => term_dev2 x0 x1 x2 x3 x4 x5 r k),
    val_main_cst_25_apply, val_main_cst_26_apply, Ideal.addf_def, Ideal.addf_def, Ideal.ofBits_def,
    Ideal.ofBits_zero_f32, zero_add, zero_add]
  unfold Cert.RefSpec.gate2
  rfl

theorem val2_eq (x0 : (⟨S65536x261, .f32⟩ : BufTy).Contents (Elt Ideal))
    (x1 : (⟨S1x261, .f32⟩ : BufTy).Contents (Elt Ideal))
    (x2 : (⟨S1, .f32⟩ : BufTy).Contents (Elt Ideal))
    (x3 : (⟨S2x133, .f32⟩ : BufTy).Contents (Elt Ideal))
    (x4 : (⟨S2, .f32⟩ : BufTy).Contents (Elt Ideal))
    (x5 : (⟨S4x69, .f32⟩ : BufTy).Contents (Elt Ideal))
    (x6 : (⟨S4, .f32⟩ : BufTy).Contents (Elt Ideal)) :
    val_main_v135 (F := Ideal) x0 x1 x2 x3 x4 x5 x6 = fun i => Cert.RefSpec.val2 x0 x1 x2 x3 x4 x5 x6 ⟨(i 0).val, (i 0).isLt⟩ := by
  funext i
  obtain ⟨r, rfl⟩ : ∃ r : Fin 65536, i = ix1 r := ⟨i 0, eq_ix1 i⟩
  show _ = Cert.RefSpec.val2 x0 x1 x2 x3 x4 x5 x6 r
  rw [val_main_v135_apply, val_main_v134_apply, val_main_cst_30_apply, val_main_v133_apply, val_main_v132_apply, val_main_cst_29_apply, val_main_v131_apply, val_main_v130_apply, gate2_eq]
  rfl

theorem cum3_eq (x0 : (⟨S65536x261, .f32⟩ : BufTy).Contents (Elt Ideal))
    (x1 : (⟨S1x261, .f32⟩ : BufTy).Contents (Elt Ideal))
    (x2 : (⟨S1, .f32⟩ : BufTy).Contents (Elt Ideal))
    (x3 : (⟨S2x133, .f32⟩ : BufTy).Contents (Elt Ideal))
    (x4 : (⟨S2, .f32⟩ : BufTy).Contents (Elt Ideal))
    (x5 : (⟨S4x69, .f32⟩ : BufTy).Contents (Elt Ideal))
    (x6 : (⟨S4, .f32⟩ : BufTy).Contents (Elt Ideal)) :
    val_main_v136 (F := Ideal) x0 x1 x2 x3 x4 x5 x6 = fun i => Cert.RefSpec.cum3 x0 x1 x2 x3 x4 x5 x6 ⟨(i 0).val, (i 0).isLt⟩ := by
  funext i
  rw [val_main_v136_apply, cum2_eq, val2_eq]
  rfl

theorem node3_eq (x0 : (⟨S65536x261, .f32⟩ : BufTy).Contents (Elt Ideal))
    (x1 : (⟨S1x261, .f32⟩ : BufTy).Contents (Elt Ideal))
    (x2 : (⟨S1, .f32⟩ : BufTy).Contents (Elt Ideal))
    (x3 : (⟨S2x133, .f32⟩ : BufTy).Contents (Elt Ideal))
    (x4 : (⟨S2, .f32⟩ : BufTy).Contents (Elt Ideal))
    (x5 : (⟨S4x69, .f32⟩ : BufTy).Contents (Elt Ideal))
    (x6 : (⟨S4, .f32⟩ : BufTy).Contents (Elt Ideal)) :
    val_main_v142 (F := Ideal) x0 x1 x2 x3 x4 x5 x6 = fun i => Cert.RefSpec.node3 x0 x1 x2 x3 x4 x5 x6 ⟨(i 0).val, (i 0).isLt⟩ := by
  funext i
  rw [val_main_v142_apply, val_main_v138_apply, val_main_v141_apply, val_main_v140_apply, node2_eq, val_main_v137_apply, val_main_c_31_apply, val_main_v139_apply, val_main_cst_32_apply, val2_eq]
  rfl

end Cert.ReferenceIdeal.RefSide

end
-- ==== Proof.RefP.lean ====
/-
  The first result of the reference is the specification's.

  After the three routing steps the row's result is the running product of the three gate values, spread over the eight
  columns, times the row of the leaf table the reached leaf's word selects; that word is below 8, and the row it reads
  is written with the same wrap-and-clamp reading the specification uses, so the two agree entry by entry.
-/
import proofs.«146547_j64330020159639_2_alg».proof.Proof.RefReadP
import proofs.«146547_j64330020159639_2_alg».proof.Proof.RefSpec
import proofs.«146547_j64330020159639_2_alg».proof.Proof.RefD2

noncomputable section

open scoped BigOperators

namespace Cert.ReferenceIdeal.RefSide

open Cert.ReferenceIdeal Cert.ReferenceIdeal.Gen Cert.ReferenceIdeal.ReadP Idealize.ShloMosaic Idealize.ShloMosaic.TcCoe
  Idealize.ShloMosaic.ValueIdx

/-- The gathered leaf row at `(r, c)`. -/
theorem leaf_row (x0 : (⟨S65536x261, .f32⟩ : BufTy).Contents (Elt Ideal))
    (x1 : (⟨S1x261, .f32⟩ : BufTy).Contents (Elt Ideal))
    (x2 : (⟨S1, .f32⟩ : BufTy).Contents (Elt Ideal))
    (x3 : (⟨S2x133, .f32⟩ : BufTy).Contents (Elt Ideal))
    (x4 : (⟨S2, .f32⟩ : BufTy).Contents (Elt Ideal))
    (x5 : (⟨S4x69, .f32⟩ : BufTy).Contents (Elt Ideal))
    (x6 : (⟨S4, .f32⟩ : BufTy).Contents (Elt Ideal))
    (x7 : (⟨S8x8, .f32⟩ : BufTy).Contents (Elt Ideal)) (r : Fin 65536) (c : Fin 8) :
    val_main_v150 (F := Ideal) x0 x1 x2 x3 x4 x5 x6 x7 (ix2 r c)
      = x7 (ix2 (Cert.RefSpec.rowOf 8 (by decide) (Cert.RefSpec.node3 x0 x1 x2 x3 x4 x5 x6 r)) c) := by
  unfold val_main_v150
  rw [gather_rows8]
  refine congrArg (fun n => x7 (ix2 n c)) (Fin.ext ?_)
  show min (val_main_v149 (F := Ideal) x0 x1 x2 x3 x4 x5 x6 (ix2 r (0 : Fin 1))).toInt.toNat 7 = _
  rw [val_main_v149_apply, val_main_v148_apply, val_main_v145_apply, val_main_v147_apply, val_main_v144_apply, val_main_v146_apply, node3_eq, val_main_c_33_apply, val_main_c_34_apply]
  rfl

/-- The first result of the reference is the specification's: the product of the three gate values along the row's
    path, times the reached leaf's row. -/
theorem p_eq (x0 : (⟨S65536x261, .f32⟩ : BufTy).Contents (Elt Ideal))
    (x1 : (⟨S1x261, .f32⟩ : BufTy).Contents (Elt Ideal))
    (x2 : (⟨S1, .f32⟩ : BufTy).Contents (Elt Ideal))
    (x3 : (⟨S2x133, .f32⟩ : BufTy).Contents (Elt Ideal))
    (x4 : (⟨S2, .f32⟩ : BufTy).Contents (Elt Ideal))
    (x5 : (⟨S4x69, .f32⟩ : BufTy).Contents (Elt Ideal))
    (x6 : (⟨S4, .f32⟩ : BufTy).Contents (Elt Ideal))
    (x7 : (⟨S8x8, .f32⟩ : BufTy).Contents (Elt Ideal)) :
    val_main_v152 (F := Ideal) x0 x1 x2 x3 x4 x5 x6 x7 = Cert.RefSpec.p x0 x1 x2 x3 x4 x5 x6 x7 := by
  funext i
  obtain ⟨r, c, rfl⟩ : ∃ (r : Fin 65536) (c : Fin 8), i = ix2 r c := ⟨i 0, i 1, eq_ix2 i⟩
  show _ = Cert.RefSpec.pAt x0 x1 x2 x3 x4 x5 x6 x7 r c
  rw [val_main_v152_apply, val_main_v151_apply, val_main_v143_apply, cum3_eq, leaf_row]
  rfl

end Cert.ReferenceIdeal.RefSide

end
-- ==== Proof.lean ====
/-
  The certificate: a hierarchical routing layer and a small critic, computed by a tiled kernel, against the plain
  reference, over the extended reals.

  Both programs route each of 65536 feature rows down a binary tree of depth three. At each depth the row's node
  gives a gate value — an affine form of the five shared features and of the node's own devices' features — whose
  logistic value multiplies a running product and decides the child; the product finally scales the reached leaf's
  row of an 8×8 table. The reference gathers the node's weights and devices; the kernel multiplies the whole row
  with a matrix in which every node's column is zero off that node's devices, and keeps its node's value by an
  indicator-weighted sum. A two-layer perceptron with a rectifier scores the row in both. Read exactly, the two
  agree on every extended real, so the precondition is never opened.

  The frames: each kernel program runs to the end, faults nowhere and leaves its arguments as launched (KRun.lean,
  KIRun.lean: the staged windows, the body's loads and whole-buffer stores, the launch); the reference's is its run
  with the results dropped. Nothing was rewritten between the kernel and its exact reading, so that conjunct is
  trivial. The value claim: the kernel's run read block by block into whole arrays (KerPay.lean, KerValue.lean),
  the weight matrices the host builds (HostW.lean), the row-by-row agreement (Bridge.lean), and the reference's
  operations read one at a time into the same functions (RefV.lean, RefP.lean).
-/
import proofs.«146547_j64330020159639_2_alg».proof.Defs
import proofs.«146547_j64330020159639_2_alg».proof.Proof.Gen.Kernel
import proofs.«146547_j64330020159639_2_alg».proof.Proof.Gen.KernelIdeal
import proofs.«146547_j64330020159639_2_alg».proof.Proof.Gen.ReferenceIdeal
import proofs.«146547_j64330020159639_2_alg».proof.Proof.Gen.Pre_finite_inputs
import proofs.«146547_j64330020159639_2_alg».proof.Proof.KRun
import proofs.«146547_j64330020159639_2_alg».proof.Proof.KIRun
import proofs.«146547_j64330020159639_2_alg».proof.Proof.KerFinal
import proofs.«146547_j64330020159639_2_alg».proof.Proof.RefRunP
import proofs.«146547_j64330020159639_2_alg».proof.Proof.RefReadP
import proofs.«146547_j64330020159639_2_alg».proof.Proof.RefReadEqP
import proofs.«146547_j64330020159639_2_alg».proof.Proof.RefV
import proofs.«146547_j64330020159639_2_alg».proof.Proof.RefP
import Idealize.ShloMosaic.Adequacy
import Idealize.ShloMosaic.Init

set_option maxRecDepth 16384

noncomputable section

namespace Cert.Proof

open Idealize.ShloMosaic Idealize.SL.Sem

/-- The word-level kernel's frame. -/
theorem frame_k : Cert.frame_Kernel (hKernel := Cert.Kernel.Gen.facts) (hPre_finite_inputs := Cert.Pre_finite_inputs.Gen.facts) :=
  fun m ρ _ => Cert.Kernel.Hand.frame m ρ

/-- The exact kernel's frame. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference's frame: its run, the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.ValueP.run (F := Ideal) m ρ)

/-- Both runs end with the reference's two functions of what the arguments held at launch, and the launches agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.KerFinal.run m ρ, ?_⟩
  refine (θ_run Cert.ReferenceIdeal.defs _ _).mono (fun r h c => ⟨?_, ?_, (h c).2.2⟩)
    (Cert.ReferenceIdeal.ValueP.run (F := Ideal) m' ρ')
  · obtain ⟨a0, a1, a2, a3, a4, a5, a6, a7, -⟩ := hagree c
    rw [(h c).1, Cert.ReferenceIdeal.ReadP.val_main_v152_eq, Cert.ReferenceIdeal.RefSide.p_eq, a0, a1, a2, a3, a4, a5, a6, a7]
  · obtain ⟨a0, -, -, -, -, -, -, -, a8, a9, a10, a11⟩ := hagree c
    rw [(h c).2.1, Cert.ReferenceIdeal.ReadP.val_main_v161_eq, Cert.ReferenceIdeal.RefSide.v_eq, a0, a8, a9, a10, a11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
